-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S4096x4096 : Shape := ⟨2, ![4096, 4096]⟩
abbrev S4096 : Shape := ⟨1, ![4096]⟩
abbrev S4096x2048 : Shape := ⟨2, ![4096, 2048]⟩
abbrev S2048 : Shape := ⟨1, ![2048]⟩
abbrev S1024 : Shape := ⟨1, ![1024]⟩
abbrev S2048x4096 : Shape := ⟨2, ![2048, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S1024 : S_.BroadcastsInDim S1024 (![] : Fin 0 → Fin S1024.rank)
  reducesTo_S1024_S_d0 : S1024.ReducesTo [0] S_
  bcast_S_S2048x4096 : S_.BroadcastsInDim S2048x4096 (![] : Fin 0 → Fin S2048x4096.rank)
  reducesTo_S2048x4096_S_d0_1 : S2048x4096.ReducesTo [0, 1] S_

variable [Facts]

def fn_part3 {F : FTy → Type} [FloatOps F] (main_arg11 : FVec F S4096 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  main_v58

def fn_part2 {F : FTy → Type} [FloatOps F] (main_arg7 : FVec F S1024 .f32) (main_arg8 : FVec F S2048x4096 .f32) (main_arg9 : FVec F S4096 .f32) (main_arg10 : FVec F S4096x4096 .f32) (main_arg11 : FVec F S4096 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S2048x4096 .f32 := Host.absf main_arg8
  let main_cst_14 : FVec F S_ .f32 := constant S_ .f32 0x7F800000#32
  let main_v40 : FVec F S2048x4096 .f32 := broadcastInDim S2048x4096 ![] bcast_S_S2048x4096 main_cst_14
  let main_v41 : IVec S2048x4096 1 := cmpf .olt main_v39 main_v40
  let main_c_15 : IVec S_ 1 := constantI S_ 1 1#1
  let main_v42 : IVec S_ 1 := (fun x v => Host.reduce IntOp.andi x v reducesTo_S2048x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_v48 main_v49 main_v50

def fn_part1 {F : FTy → Type} [FloatOps F] (main_arg4 : FVec F S4096x2048 .f32) (main_arg5 : FVec F S2048 .f32) (main_arg6 : FVec F S1024 .f32) (main_arg7 : FVec F S1024 .f32) (main_arg8 : FVec F S2048x4096 .f32) (main_arg9 : FVec F S4096 .f32) (main_arg10 : FVec F S4096x4096 .f32) (main_arg11 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x4096 .f32) (main_arg1 : FVec F S8192 .f32) (main_arg2 : FVec F S4096x4096 .f32) (main_arg3 : FVec F S4096 .f32) (main_arg4 : FVec F S4096x2048 .f32) (main_arg5 : FVec F S2048 .f32) (main_arg6 : FVec F S1024 .f32) (main_arg7 : FVec F S1024 .f32) (main_arg8 : FVec F S2048x4096 .f32) (main_arg9 : FVec F S4096 .f32) (main_arg10 : FVec F S4096x4096 .f32) (main_arg11 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_v13 main_v16
-- ==== Kernel.lean ====
abbrev S8192x4096 : Shape := ⟨2, ![8192, 4096]⟩
abbrev S8192 : Shape := ⟨1, ![8192]⟩
abbrev S4096x4096 : Shape := ⟨2, ![4096, 4096]⟩
abbrev S4096 : Shape := ⟨1, ![4096]⟩
abbrev S4096x2048 : Shape := ⟨2, ![4096, 2048]⟩
abbrev S2048 : Shape := ⟨1, ![2048]⟩
abbrev S1024 : Shape := ⟨1, ![1024]⟩
abbrev S2048x4096 : Shape := ⟨2, ![2048, 4096]⟩
abbrev S8192x2048 : Shape := ⟨2, ![8192, 2048]⟩
abbrev S512x512 : Shape := ⟨2, ![512, 512]⟩
abbrev S512x4096 : Shape := ⟨2, ![512, 4096]⟩
abbrev S512x2048 : Shape := ⟨2, ![512, 2048]⟩
abbrev S1x4096 : Shape := ⟨2, ![1, 4096]⟩
abbrev S1x2048 : Shape := ⟨2, ![1, 2048]⟩
abbrev S1x1024 : Shape := ⟨2, ![1, 1024]⟩
abbrev S8192x1 : Shape := ⟨2, ![8192, 1]⟩
abbrev S8192x1024 : Shape := ⟨2, ![8192, 1024]⟩
abbrev S8192x1024x2 : Shape := ⟨3, ![8192, 1024, 2]⟩
abbrev S8192x1024x1 : Shape := ⟨3, ![8192, 1024, 1]⟩
abbrev S256x512 : Shape := ⟨2, ![256, 512]⟩
abbrev S256x4096 : Shape := ⟨2, ![256, 4096]⟩

abbrev nBuf : Space → Nat
  | .hbm => 47
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S8192, .f32⟩
  | .hbm, ⟨2, _⟩ => ⟨S4096x4096, .f32⟩
  | .hbm, ⟨3, _⟩ => ⟨S4096, .f32⟩
  | .hbm, ⟨4, _⟩ => ⟨S4096x2048, .f32⟩
  | .hbm, ⟨5, _⟩ => ⟨S2048, .f32⟩
  | .hbm, ⟨6, _⟩ => ⟨S1024, .f32⟩
  | .hbm, ⟨7, _⟩ => ⟨S1024, .f32⟩
  | .hbm, ⟨8, _⟩ => ⟨S2048x4096, .f32⟩
  | .hbm, ⟨9, _⟩ => ⟨S4096, .f32⟩
  | .hbm, ⟨10, _⟩ => ⟨S4096x4096, .f32⟩
  | .hbm, ⟨11, _⟩ => ⟨S4096, .f32⟩
  | .hbm, ⟨12, _⟩ => ⟨S4096x4096, .bf16⟩
  | .hbm, ⟨13, _⟩ => ⟨S4096x2048, .bf16⟩
  | .hbm, ⟨14, _⟩ => ⟨S2048x4096, .bf16⟩
  | .hbm, ⟨15, _⟩ => ⟨S4096x4096, .bf16⟩
  | .hbm, ⟨16, _⟩ => ⟨S8192x2048, .f32⟩
  | .hbm, ⟨17, _⟩ => ⟨S1x1024, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024x2, .f32⟩
  | .hbm, ⟨32, _⟩ => ⟨S8192x1024x1, .f32⟩
  | .hbm, ⟨33, _⟩ => ⟨S8192x1024, .f32⟩
  | .hbm, ⟨34, _⟩ => ⟨S8192x1024x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024x1, .f32⟩
  | .hbm, ⟨43, _⟩ => ⟨S8192x1024x1, .f32⟩
  | .hbm, ⟨44, _⟩ => ⟨S8192x1024x2, .f32⟩
  | .hbm, ⟨45, _⟩ => ⟨S8192x2048, .f32⟩
  | .hbm, ⟨46, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S512x4096, .bf16⟩
  | .local _ .vmem, ⟨3, _⟩ => ⟨S512x4096, .bf16⟩
  | .local _ .vmem, ⟨4, _⟩ => ⟨S4096, .f32⟩
  | .local _ .vmem, ⟨5, _⟩ => ⟨S4096x2048, .bf16⟩
  | .local _ .vmem, ⟨6, _⟩ => ⟨S2048, .f32⟩
  | .local _ .vmem, ⟨7, _⟩ => ⟨S512x2048, .f32⟩
  | .local _ .vmem, ⟨8, _⟩ => ⟨S512x2048, .f32⟩
  | .local _ .vmem, ⟨9, _⟩ => ⟨S512x4096, .f32⟩
  | .local _ .vmem, ⟨10, _⟩ => ⟨S256x512, .f32⟩
  | .local _ .vmem, ⟨11, _⟩ => ⟨S256x512, .f32⟩
  | .local _ .vmem, ⟨12, _⟩ => ⟨S512x4096, .bf16⟩
  | .local _ .vmem, ⟨13, _⟩ => ⟨S512x4096, .bf16⟩
  | .local _ .vmem, ⟨14, _⟩ => ⟨S4096, .f32⟩
  | .local _ .vmem, ⟨15, _⟩ => ⟨S4096x4096, .bf16⟩
  | .local _ .vmem, ⟨16, _⟩ => ⟨S4096, .f32⟩
  | .local _ .vmem, ⟨17, _⟩ => ⟨S256x4096, .f32⟩
  | .local _ .vmem, ⟨18, _⟩ => ⟨S256x4096, .f32⟩
  | .local _ .vmem, ⟨19, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![32, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4096x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  bcast_S1024_S1x1024_1 : S1024.BroadcastsInDim S1x1024 (![1] : Fin 1 → Fin S1x1024.rank)
  bcast_S8192_S8192x1_0 : S8192.BroadcastsInDim S8192x1 (![0] : Fin 1 → Fin S8192x1.rank)
  bcast_S1x1024_S8192x1024_0_1 : S1x1024.BroadcastsInDim S8192x1024 (![0, 1] : Fin 2 → Fin S8192x1024.rank)
  bcast_S8192x1_S8192x1024_0_1 : S8192x1.BroadcastsInDim S8192x1024 (![0, 1] : Fin 2 → Fin S8192x1024.rank)
  shapeCasts_S8192x2048_S8192x1024x2 : S8192x2048.ShapeCasts S8192x1024x2
  slices_S8192x1024x2_S8192x1024x1_0_0_0 : S8192x1024x2.Slices ![0, 0, 0] S8192x1024x1
  shapeCasts_S8192x1024x1_S8192x1024 : S8192x1024x1.ShapeCasts S8192x1024
  slices_S8192x1024x2_S8192x1024x1_0_0_1 : S8192x1024x2.Slices ![0, 0, 1] S8192x1024x1
  bcast_S8192x1024_S8192x1024x1_0_1 : S8192x1024.BroadcastsInDim S8192x1024x1 (![0, 1] : Fin 2 → Fin S8192x1024x1.rank)
  concatenates_S8192x1024x1_S8192x1024x1_S8192x1024x2_d2 : Shape.Concatenates [S8192x1024x1, S8192x1024x1] S8192x1024x2 2
  shapeCasts_S8192x1024x2_S8192x2048 : S8192x1024x2.ShapeCasts S8192x2048
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x4096_S256x4096 : S1x4096.Broadcasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  dot_S512x512_S512x4096_S512x4096_1_0_0_1_n_n_wf : DotDims.WF S512x512 S512x4096 S512x4096 [1] [0] [0] [1] [] []
  dot_S512x4096_S4096x2048_S512x2048_1_0_0_1_n_n_wf : DotDims.WF S512x4096 S4096x2048 S512x2048 [1] [0] [0] [1] [] []
  dot_S256x512_S512x4096_S256x4096_1_0_0_1_n_n_wf : DotDims.WF S256x512 S512x4096 S256x4096 [1] [0] [0] [1] [] []
  dot_S256x4096_S4096x4096_S256x4096_1_0_0_1_n_n_wf : DotDims.WF S256x4096 S4096x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .f32 = 32 ∨ (Rect.block (s := S8192x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x2048.size a ≤ S4096x2048.size a
  hwx0_3 : ∀ i : grid0.Coords, EltTy.bits .bf16 = 32 ∨ (Rect.block (s := S4096x2048) S4096x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S8192x2048.size a
  hwx1_0 : ∀ i : grid1.Coords, EltTy.bits .f32 = 32 ∨ (Rect.block (s := S8192x2048) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S2048x4096.size a
  hwx1_1 : ∀ i : grid1.Coords, EltTy.bits .bf16 = 32 ∨ (Rect.block (s := S2048x4096) S512x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S4096.size a
  hwx1_2 : ∀ i : grid1.Coords, EltTy.bits .f32 = 32 ∨ (Rect.block (s := S4096) S4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x4096.size a ≤ S4096x4096.size a
  hwx1_3 : ∀ i : grid1.Coords, EltTy.bits .bf16 = 32 ∨ (Rect.block (s := S4096x4096) S4096x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096.size a ≤ S4096.size a
  hwx1_4 : ∀ i : grid1.Coords, EltTy.bits .f32 = 32 ∨ (Rect.block (s := S4096) S4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x4096.size a ≤ S8192x4096.size a
  hwx1_5 : ∀ i : grid1.Coords, EltTy.bits .f32 = 32 ∨ (Rect.block (s := S8192x4096) S256x4096.size (cc1_transform_5 i) (hinb1_5 i)).WholeWords (EltTy.packing .f32)

variable [Facts₀]

def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S512x4096_S4096x2048_S512x2048_1_0_0_1_n_n : DotDims S512x4096 S4096x2048 S512x2048 where
  lhsContracting := [1]
  rhsContracting := [0]
  lhsNonContracting := [0]
  rhsNonContracting := [1]
  lhsBatch := []
  rhsBatch := []
  wf := dot_S512x4096_S4096x2048_S512x2048_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v33) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4096x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S4096x4096 : Shape := ⟨2, ![4096, 4096]⟩
abbrev S4096 : Shape := ⟨1, ![4096]⟩
abbrev S4096x2048 : Shape := ⟨2, ![4096, 2048]⟩
abbrev S2048 : Shape := ⟨1, ![2048]⟩
abbrev S1024 : Shape := ⟨1, ![1024]⟩
abbrev S2048x4096 : Shape := ⟨2, ![2048, 4096]⟩
abbrev S1x4096 : Shape := ⟨2, ![1, 4096]⟩
abbrev S8192x2048 : Shape := ⟨2, ![8192, 2048]⟩
abbrev S1x2048 : Shape := ⟨2, ![1, 2048]⟩
abbrev S1x1024 : Shape := ⟨2, ![1, 1024]⟩
abbrev S8192x1 : Shape := ⟨2, ![8192, 1]⟩
abbrev S8192x1024 : Shape := ⟨2, ![8192, 1024]⟩
abbrev S8192x1024x2 : Shape := ⟨3, ![8192, 1024, 2]⟩
abbrev S8192x1024x1 : Shape := ⟨3, ![8192, 1024, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192, .f32⟩
  | .hbm, ⟨2, _⟩ => ⟨S4096x4096, .f32⟩
  | .hbm, ⟨3, _⟩ => ⟨S4096, .f32⟩
  | .hbm, ⟨4, _⟩ => ⟨S4096x2048, .f32⟩
  | .hbm, ⟨5, _⟩ => ⟨S2048, .f32⟩
  | .hbm, ⟨6, _⟩ => ⟨S1024, .f32⟩
  | .hbm, ⟨7, _⟩ => ⟨S1024, .f32⟩
  | .hbm, ⟨8, _⟩ => ⟨S2048x4096, .f32⟩
  | .hbm, ⟨9, _⟩ => ⟨S4096, .f32⟩
  | .hbm, ⟨10, _⟩ => ⟨S4096x4096, .f32⟩
  | .hbm, ⟨11, _⟩ => ⟨S4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x1024, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024x2, .f32⟩
  | .hbm, ⟨36, _⟩ => ⟨S8192x1024x1, .f32⟩
  | .hbm, ⟨37, _⟩ => ⟨S8192x1024, .f32⟩
  | .hbm, ⟨38, _⟩ => ⟨S8192x1024x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024x1, .f32⟩
  | .hbm, ⟨47, _⟩ => ⟨S8192x1024x1, .f32⟩
  | .hbm, ⟨48, _⟩ => ⟨S8192x1024x2, .f32⟩
  | .hbm, ⟨49, _⟩ => ⟨S8192x2048, .f32⟩
  | .hbm, ⟨50, _⟩ => ⟨S8192x4096, .f32⟩
  | .hbm, ⟨51, _⟩ => ⟨S1x4096, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S8192x4096, .f32⟩
  | .hbm, ⟨56, _⟩ => ⟨S1x4096, .f32⟩
  | .hbm, ⟨57, _⟩ => ⟨S8192x4096, .f32⟩
  | .hbm, ⟨58, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S1024_S1x1024_1 : S1024.BroadcastsInDim S1x1024 (![1] : Fin 1 → Fin S1x1024.rank)
  bcast_S8192_S8192x1_0 : S8192.BroadcastsInDim S8192x1 (![0] : Fin 1 → Fin S8192x1.rank)
  bcast_S1x1024_S8192x1024_0_1 : S1x1024.BroadcastsInDim S8192x1024 (![0, 1] : Fin 2 → Fin S8192x1024.rank)
  bcast_S8192x1_S8192x1024_0_1 : S8192x1.BroadcastsInDim S8192x1024 (![0, 1] : Fin 2 → Fin S8192x1024.rank)
  shapeCasts_S8192x2048_S8192x1024x2 : S8192x2048.ShapeCasts S8192x1024x2
  slices_S8192x1024x2_S8192x1024x1_0_0_0 : S8192x1024x2.Slices ![0, 0, 0] S8192x1024x1
  shapeCasts_S8192x1024x1_S8192x1024 : S8192x1024x1.ShapeCasts S8192x1024
  slices_S8192x1024x2_S8192x1024x1_0_0_1 : S8192x1024x2.Slices ![0, 0, 1] S8192x1024x1
  bcast_S8192x1024_S8192x1024x1_0_1 : S8192x1024.BroadcastsInDim S8192x1024x1 (![0, 1] : Fin 2 → Fin S8192x1024x1.rank)
  concatenates_S8192x1024x1_S8192x1024x1_S8192x1024x2_d2 : Shape.Concatenates [S8192x1024x1, S8192x1024x1] S8192x1024x2 2
  shapeCasts_S8192x1024x2_S8192x2048 : S8192x1024x2.ShapeCasts S8192x2048
  dot_S8192x4096_S4096x4096_S8192x4096_1_0_0_1_n_n_wf : DotDims.WF S8192x4096 S4096x4096 S8192x4096 [1] [0] [0] [1] [] []
  dot_S8192x4096_S4096x2048_S8192x2048_1_0_0_1_n_n_wf : DotDims.WF S8192x4096 S4096x2048 S8192x2048 [1] [0] [0] [1] [] []
  dot_S8192x2048_S2048x4096_S8192x4096_1_0_0_1_n_n_wf : DotDims.WF S8192x2048 S2048x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.KbCases0.lean ====
import proofs.«100102_j54099408060868_1_alg».proof.Proof.Gen.Kernel.Launch
import proofs.«100102_j54099408060868_1_alg».proof.Proof.Gen.Kernel.Skeleton
import proofs.«100102_j54099408060868_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel of region 0, one grid point at a time

The grid is (row block, step of the first product's contraction). At a point the body clears the accumulator if the
step is the first, adds the step's partial product to it, and at the last step applies the bias, the hyperbolic
tangent and the second product and stores the row block of the result. Three kinds of point occur: first step,
middle step, last step. -/

/-- The step is the first one of its row block. -/
abbrev condF0 (i : grid0.Coords) : Prop := (Scalar.cmpi .ne (Scalar.extui (Scalar.cmpi .eq (BitVec.ofNat 32 (i 1).val) 0#32)) 0#32) = 1#1
theorem hcondF0 : ∀ t : Fin cfg0.N, condF0 (grid0.coords t) ↔ t.val % 8 = 0 :=
  (by decide +kernel : ∀ t : Fin grid0.N, condF0 (grid0.coords t) ↔ t.val % 8 = 0)

/-- The step is the last one of its row block. -/
abbrev condL0 (i : grid0.Coords) : Prop := k0_cond2 i = 1#1
theorem hcondL0 : ∀ t : Fin cfg0.N, condL0 (grid0.coords t) ↔ t.val % 8 = 7 :=
  (by decide +kernel : ∀ t : Fin grid0.N, condL0 (grid0.coords t) ↔ t.val % 8 = 7)

/-! The input windows are never idle; the result window is idle, and not written back, except at a last step. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬condL0 (grid0.coords t) → cfg0.idle 5 (grid0.coords t) = true := by decide +kernel
theorem noFlush0_5 : ∀ t : Fin cfg0.N, ¬condL0 (grid0.coords t) → (cfg0.win 5).flush t = false := by decide +kernel
theorem liveAt0_5 : ∀ t : Fin cfg0.N, condL0 (grid0.coords t) → cfg0.idle 5 (grid0.coords t) = false := by decide +kernel

/-- A staging buffer of the result window, through which its contents are stated. -/
abbrev VO0 : View sig .tc .vmem S512x2048 .f32 := (Memref.whole cc0_stg5_0 : Memref sig .tc .vmem S512x2048 .f32).view
/-- Each window's current staging buffer at a point. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
/-- The accumulator: a buffer of the kernel's own, kept from one point to the next. -/
abbrev scM0 : Memref sig .tc .vmem S512x4096 .f32 := Memref.whole cc0_scratch0
abbrev VS0 : View sig .tc .vmem S512x4096 .f32 := scM0.view

set_option maxHeartbeats 4000000 in
/-- A first step that is not a last step: the accumulator, whatever it held, ends as the stores leave it; the inputs and
    the result buffer are handed back as found. -/
noncomputable def kernelRun0_A (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : condF0 i) (hc1 : ¬condL0 i)
    (x0 : Vec F S512x512 .f32) (x1 : Vec F S512x4096 .bf16) (x2 : Vec F S4096 .f32) (x3 : Vec F S4096x2048 .bf16) (x4 : Vec F S2048 .f32) :
    Σ' (L5 : List (View.Piece (Elt F) S512x2048 .f32)), { LS : List (View.Piece (Elt F) S512x4096 .f32) //
      ∀ (xi5 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__mlp2_kernel i arg2 harg2 arg3 harg3 arg4 harg4 arg5 harg5 arg6 harg6 arg7 harg7 arg8 harg8) K } := by
  refine ⟨[], ?_, fun xi5 E K => ?run⟩
  case run =>
    simp only [cc0__mlp2_kernel_eq_skeleton]; unfold cc0__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- A middle step: the accumulator, found at `xs`, ends as the stores leave it. -/
noncomputable def kernelRun0_B (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : ¬condL0 i)
    (x0 : Vec F S512x512 .f32) (x1 : Vec F S512x4096 .bf16) (x2 : Vec F S4096 .f32) (x3 : Vec F S4096x2048 .bf16) (x4 : Vec F S2048 .f32) (xs : Vec F S512x4096 .f32) :
    Σ' (L5 : List (View.Piece (Elt F) S512x2048 .f32)), { LS : List (View.Piece (Elt F) S512x4096 .f32) //
      ∀ (xi5 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__mlp2_kernel i arg2 harg2 arg3 harg3 arg4 harg4 arg5 harg5 arg6 harg6 arg7 harg7 arg8 harg8) K } := by
  refine ⟨[], ?_, fun xi5 E K => ?run⟩
  case run =>
    simp only [cc0__mlp2_kernel_eq_skeleton]; unfold cc0__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- A last step: the accumulator, found at `xs`, and the result buffer, whatever it held, end as the stores leave them. -/
noncomputable def kernelRun0_C (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : condL0 i)
    (x0 : Vec F S512x512 .f32) (x1 : Vec F S512x4096 .bf16) (x2 : Vec F S4096 .f32) (x3 : Vec F S4096x2048 .bf16) (x4 : Vec F S2048 .f32) (xs : Vec F S512x4096 .f32) :
    Σ' (L5 : List (View.Piece (Elt F) S512x2048 .f32)), { LS : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__mlp2_kernel i arg2 harg2 arg3 harg3 arg4 harg4 arg5 harg5 arg6 harg6 arg7 harg7 arg8 harg8) K } := by
  refine ⟨?_, ?_, fun E K => ?run⟩
  case run =>
    simp only [cc0__mlp2_kernel_eq_skeleton]; unfold cc0__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Mlp

end
-- ==== Proof.KbBody0.lean ====
import proofs.«100102_j54099408060868_1_alg».proof.Proof.KbCases0

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Contents nobody reads: what stands for the result buffer at a point that stores nothing into it. -/
def junkO0 : Vec F S512x2048 .f32 := VO0.read (Elt F) VO0.junk

/-! ## What each kind of point leaves in the accumulator and in the result buffer -/

theorem scover0_A (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : condF0 i) (hc1 : ¬condL0 i) (x0 : Vec F S512x512 .f32) (x1 : Vec F S512x4096 .bf16) (x2 : Vec F S4096 .f32) (x3 : Vec F S4096x2048 .bf16) (x4 : Vec F S2048 .f32) (y : S512x4096.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S512x4096.size (by sl_kernel_rfl) y
def sout0_A (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : condF0 i) (hc1 : ¬condL0 i) (x0 : Vec F S512x512 .f32) (x1 : Vec F S512x4096 .bf16) (x2 : Vec F S4096 .f32) (x3 : Vec F S4096x2048 .bf16) (x4 : Vec F S2048 .f32) : Vec F S512x4096 .f32 :=
  VS0.read (Elt F) (VS0.writes (Elt F) VS0.junk (kernelRun0_A c i arg2 harg2 arg3 harg3 arg4 harg4 arg5 harg5 arg6 harg6 arg7 harg7 arg8 harg8 hc0 hc1 x0 x1 x2 x3 x4).2.1)

theorem scover0_B (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : ¬condL0 i) (x0 : Vec F S512x512 .f32) (x1 : Vec F S512x4096 .bf16) (x2 : Vec F S4096 .f32) (x3 : Vec F S4096x2048 .bf16) (x4 : Vec F S2048 .f32) (xs : Vec F S512x4096 .f32) (y : S512x4096.Idx) :
    ∃ pc ∈ (kernelRun0_B c i arg2 harg2 arg3 harg3 arg4 harg4 arg5 harg5 arg6 harg6 arg7 harg7 arg8 harg8 hc0 hc1 x0 x1 x2 x3 x4 xs).2.1, y ∈ pc.1.set :=
  View.cover_of_tiledL (kernelRun0_B c i arg2 harg2 arg3 harg3 arg4 harg4 arg5 harg5 arg6 harg6 arg7 harg7 arg8 harg8 hc0 hc1 x0 x1 x2 x3 x4 xs).2.1 S512x4096.size (by sl_kernel_rfl) y
def sout0_B (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : ¬condL0 i) (x0 : Vec F S512x512 .f32) (x1 : Vec F S512x4096 .bf16) (x2 : Vec F S4096 .f32) (x3 : Vec F S4096x2048 .bf16) (x4 : Vec F S2048 .f32) (xs : Vec F S512x4096 .f32) : Vec F S512x4096 .f32 :=
  VS0.read (Elt F) (VS0.writes (Elt F) VS0.junk (kernelRun0_B c i arg2 harg2 arg3 harg3 arg4 harg4 arg5 harg5 arg6 harg6 arg7 harg7 arg8 harg8 hc0 hc1 x0 x1 x2 x3 x4 xs).2.1)

theorem cover0_C (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : condL0 i) (x0 : Vec F S512x512 .f32) (x1 : Vec F S512x4096 .bf16) (x2 : Vec F S4096 .f32) (x3 : Vec F S4096x2048 .bf16) (x4 : Vec F S2048 .f32) (xs : Vec F S512x4096 .f32) (y : S512x2048.Idx) :
    ∃ pc ∈ (kernelRun0_C c i arg2 harg2 arg3 harg3 arg4 harg4 arg5 harg5 arg6 harg6 arg7 harg7 arg8 harg8 hc0 hc1 x0 x1 x2 x3 x4 xs).1, y ∈ pc.1.set :=
  View.cover_of_tiledL (kernelRun0_C c i arg2 harg2 arg3 harg3 arg4 harg4 arg5 harg5 arg6 harg6 arg7 harg7 arg8 harg8 hc0 hc1 x0 x1 x2 x3 x4 xs).1 S512x2048.size (by sl_kernel_rfl) y
def out0_C (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : condL0 i) (x0 : Vec F S512x512 .f32) (x1 : Vec F S512x4096 .bf16) (x2 : Vec F S4096 .f32) (x3 : Vec F S4096x2048 .bf16) (x4 : Vec F S2048 .f32) (xs : Vec F S512x4096 .f32) : Vec F S512x2048 .f32 :=
  VO0.read (Elt F) (VO0.writes (Elt F) VO0.junk (kernelRun0_C c i arg2 harg2 arg3 harg3 arg4 harg4 arg5 harg5 arg6 harg6 arg7 harg7 arg8 harg8 hc0 hc1 x0 x1 x2 x3 x4 xs).1)
theorem scover0_C (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : condL0 i) (x0 : Vec F S512x512 .f32) (x1 : Vec F S512x4096 .bf16) (x2 : Vec F S4096 .f32) (x3 : Vec F S4096x2048 .bf16) (x4 : Vec F S2048 .f32) (xs : Vec F S512x4096 .f32) (y : S512x4096.Idx) :
    ∃ pc ∈ (kernelRun0_C c i arg2 harg2 arg3 harg3 arg4 harg4 arg5 harg5 arg6 harg6 arg7 harg7 arg8 harg8 hc0 hc1 x0 x1 x2 x3 x4 xs).2.1, y ∈ pc.1.set :=
  View.cover_of_tiledL (kernelRun0_C c i arg2 harg2 arg3 harg3 arg4 harg4 arg5 harg5 arg6 harg6 arg7 harg7 arg8 harg8 hc0 hc1 x0 x1 x2 x3 x4 xs).2.1 S512x4096.size (by sl_kernel_rfl) y
def sout0_C (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : condL0 i) (x0 : Vec F S512x512 .f32) (x1 : Vec F S512x4096 .bf16) (x2 : Vec F S4096 .f32) (x3 : Vec F S4096x2048 .bf16) (x4 : Vec F S2048 .f32) (xs : Vec F S512x4096 .f32) : Vec F S512x4096 .f32 :=
  VS0.read (Elt F) (VS0.writes (Elt F) VS0.junk (kernelRun0_C c i arg2 harg2 arg3 harg3 arg4 harg4 arg5 harg5 arg6 harg6 arg7 harg7 arg8 harg8 hc0 hc1 x0 x1 x2 x3 x4 xs).2.1)

/-- What the result buffer and the accumulator hold after the body at position `n` of the grid's order: the kind of
    point decides, and a middle or last step starts from what the point before left in the accumulator. -/
def outsAt0 (c : Dev nD) : (n : ℕ) → n < cfg0.N → Vec F S512x2048 .f32 × Vec F S512x4096 .f32
  | 0, hn => (junkO0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcondF0 ⟨0, hn⟩).mpr (Nat.zero_mod _)) (fun h => (fun h' => by (try dsimp only at h'); omega) ((hcondL0 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      (junkO0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcondF0 ⟨n + 1, hn⟩).mpr h0) (fun h => (fun h' => by (try dsimp only at h'); (try dsimp only at h0); omega) ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcondF0 ⟨n + 1, hn⟩).mp h)) ((hcondL0 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcondF0 ⟨n + 1, hn⟩).mp h)) ((hcondL0 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (junkO0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcondF0 ⟨n + 1, hn⟩).mp h)) (fun h => h1 ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 8 = 0) :
    outsAt0 V c t.val t.isLt = (junkO0, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcondF0 t).mpr h0) (fun h => (fun h' => by (try dsimp only at h'); (try dsimp only at h0); omega) ((hcondL0 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (junkO0, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcondF0 t).mp h)) (fun h => h1 ((hcondL0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcondF0 t).mp h)) ((hcondL0 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcondF0 t).mp h)) ((hcondL0 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers that belong to the other region, each whole at some contents. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

theorem PhiA_split0 (c : Dev nD) :
    (Pipeline.ΦA spec0 c : sProp 𝕄) ⊢ iprop(iprop((∃ d, owns (c : Thread nD τ) scM0 fullShare d) ∗ other0 c) ∗ (∃ r, prngReg c r)) := by
  unfold Pipeline.ΦA other0; rw [scopedRest0_eq]; simp only [scM0, owns_whole]
  iintro ⟨⟨HS, O0, O1, O2, O3, O4, O5, O6, O7, O8, O9⟩, Hg⟩
  isplitl [HS O0 O1 O2 O3 O4 O5 O6 O7 O8 O9]
  · isplitl [HS]; · iexact HS
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact O9
  iexact Hg

theorem PhiA_join0 (c : Dev nD) :
    iprop(iprop((∃ d, owns (c : Thread nD τ) scM0 fullShare d) ∗ other0 c) ∗ (∃ r, prngReg c r)) ⊢ (Pipeline.ΦA spec0 c : sProp 𝕄) := by
  unfold Pipeline.ΦA other0; rw [scopedRest0_eq]; simp only [scM0, owns_whole]
  iintro ⟨⟨HS, O0, O1, O2, O3, O4, O5, O6, O7, O8, O9⟩, Hg⟩
  isplitl [HS O0 O1 O2 O3 O4 O5 O6 O7 O8 O9]
  ·
    isplitl [HS]; · iexact HS
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact O9
  iexact Hg

/-- Before the first point the accumulator holds anything; after point `n` it holds what that point left. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ other0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ other0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ other0 c) ∗ (∃ r, prngReg c r)) := by
  cases n with
  | zero => exact absurd rfl hz
  | succ n => rfl

/-! ## The proof data -/

/-- The arrays as the region finds them; after the body each input's buffer at its block and the result's at what the
    point left; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' buffers hold their blocks; the point's position among the steps says which kind
    it is; the accumulator is handed over at what the point before left (at anything at the very first point) and
    taken back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 8 = 0
  · have h1 : ¬t.val % 8 = 7 := by omega
    rw [Dat.leavesExact_idle (dat0 V c) 5 t (idleAt0_5 t (fun h => h1 ((hcondL0 t).mp h))) (noFlush0_5 t (fun h => h1 ((hcondL0 t).mp h)))]
    rw [outsAt0_A V c t h0]
    unfold sout0_A; (try dsimp only)
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA_split0 c) $$ HΦ
      icases HΦ' with ⟨⟨HS, Hoth⟩, Hg⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcondF0 t).mpr h0) (fun h => (fun h' => by (try dsimp only at h'); (try dsimp only at h0); omega) ((hcondL0 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scover0_A c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcondF0 t).mpr h0) (fun h => (fun h' => by (try dsimp only at h'); (try dsimp only at h0); omega) ((hcondL0 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scover0_A c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 8 = 7
    · rw [show (dat0 V c).leavesExact 5 t = owns (c : Thread nD τ) (ms0_5 t) fullShare ((dat0 V c).after 5 t) from by
        unfold Dat.leavesExact; rw [liveAt0_5 t ((hcondL0 t).mpr h1)], after0_5]
      rw [outsAt0_C V c t h0 h1]
      unfold out0_C sout0_C; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcondF0 t).mp h)) ((hcondL0 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover0_C c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C c _ _ _ _ _ _ _ _ _ _ _ _ _ _ _ _ _ _ _ _ _ _ _)
    · rw [Dat.leavesExact_idle (dat0 V c) 5 t (idleAt0_5 t (fun h => h1 ((hcondL0 t).mp h))) (noFlush0_5 t (fun h => h1 ((hcondL0 t).mp h)))]
      rw [outsAt0_B V c t h0 h1]
      unfold sout0_B; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcondF0 t).mp h)) (fun h => h1 ((hcondL0 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scover0_B c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation0 (c : Dev nD) : BodyObligation (dat0 (F := F) V c) (defs₀ (F := F)) Variants.none () Set.univ := fun t => by
  rw [bigSep_W0, bigSep_W0]
  exact sound_body0 V c t

/-- After the last point the invariant gives the class's back: the accumulator's contents are forgotten. -/
theorem Phi_last0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  iintro ⟨⟨HS, Hoth⟩, Hg⟩
  iapply (PhiA_join0 c)
  isplitl [HS Hoth]
  · isplitl [HS]; · iexists _; iexact HS
    iexact Hoth
  iexact Hg

theorem Phi_first0 (c : Dev nD) : (dat0 V c).Φ 0 = Pipeline.ΦA spec0 c := rfl

end

end Cert.Kernel.Mlp

end
-- ==== Proof.KbCases1.lean ====
import proofs.«100102_j54099408060868_1_alg».proof.Proof.Gen.Kernel.Launch
import proofs.«100102_j54099408060868_1_alg».proof.Proof.Gen.Kernel.Skeleton
import proofs.«100102_j54099408060868_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel of region 1, one grid point at a time

The grid is (row block, step of the first product's contraction). At a point the body clears the accumulator if the
step is the first, adds the step's partial product to it, and at the last step applies the bias, the hyperbolic
tangent and the second product and stores the row block of the result. Three kinds of point occur: first step,
middle step, last step. -/

/-- The step is the first one of its row block. -/
abbrev condF1 (i : grid1.Coords) : Prop := (Scalar.cmpi .ne (Scalar.extui (Scalar.cmpi .eq (BitVec.ofNat 32 (i 1).val) 0#32)) 0#32) = 1#1
theorem hcondF1 : ∀ t : Fin cfg1.N, condF1 (grid1.coords t) ↔ t.val % 4 = 0 :=
  (by decide +kernel : ∀ t : Fin grid1.N, condF1 (grid1.coords t) ↔ t.val % 4 = 0)

/-- The step is the last one of its row block. -/
abbrev condL1 (i : grid1.Coords) : Prop := k1_cond2 i = 1#1
theorem hcondL1 : ∀ t : Fin cfg1.N, condL1 (grid1.coords t) ↔ t.val % 4 = 3 :=
  (by decide +kernel : ∀ t : Fin grid1.N, condL1 (grid1.coords t) ↔ t.val % 4 = 3)

/-! The input windows are never idle; the result window is idle, and not written back, except at a last step. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬condL1 (grid1.coords t) → cfg1.idle 5 (grid1.coords t) = true := by decide +kernel
theorem noFlush1_5 : ∀ t : Fin cfg1.N, ¬condL1 (grid1.coords t) → (cfg1.win 5).flush t = false := by decide +kernel
theorem liveAt1_5 : ∀ t : Fin cfg1.N, condL1 (grid1.coords t) → cfg1.idle 5 (grid1.coords t) = false := by decide +kernel

/-- A staging buffer of the result window, through which its contents are stated. -/
abbrev VO1 : View sig .tc .vmem S256x4096 .f32 := (Memref.whole cc1_stg5_0 : Memref sig .tc .vmem S256x4096 .f32).view
/-- Each window's current staging buffer at a point. -/
abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x4096 .f32 := win1_5.stage (cfg1.slots t 5)
abbrev hs1_5 (t : Fin cfg1.N) : (ms1_5 t).IsWhole := hstage1_5 ((cfg1.slots t 5).cast nbuf1_5)
/-- The accumulator: a buffer of the kernel's own, kept from one point to the next. -/
abbrev scM1 : Memref sig .tc .vmem S256x4096 .f32 := Memref.whole cc1_scratch0
abbrev VS1 : View sig .tc .vmem S256x4096 .f32 := scM1.view

set_option maxHeartbeats 4000000 in
/-- A first step that is not a last step: the accumulator, whatever it held, ends as the stores leave it; the inputs and
    the result buffer are handed back as found. -/
noncomputable def kernelRun1_A (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : condF1 i) (hc1 : ¬condL1 i)
    (x0 : Vec F S256x512 .f32) (x1 : Vec F S512x4096 .bf16) (x2 : Vec F S4096 .f32) (x3 : Vec F S4096x4096 .bf16) (x4 : Vec F S4096 .f32) :
    Σ' (L5 : List (View.Piece (Elt F) S256x4096 .f32)), { LS : List (View.Piece (Elt F) S256x4096 .f32) //
      ∀ (xi5 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__mlp2_kernel i arg2 harg2 arg3 harg3 arg4 harg4 arg5 harg5 arg6 harg6 arg7 harg7 arg8 harg8) K } := by
  refine ⟨[], ?_, fun xi5 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- A middle step: the accumulator, found at `xs`, ends as the stores leave it. -/
noncomputable def kernelRun1_B (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : ¬condL1 i)
    (x0 : Vec F S256x512 .f32) (x1 : Vec F S512x4096 .bf16) (x2 : Vec F S4096 .f32) (x3 : Vec F S4096x4096 .bf16) (x4 : Vec F S4096 .f32) (xs : Vec F S256x4096 .f32) :
    Σ' (L5 : List (View.Piece (Elt F) S256x4096 .f32)), { LS : List (View.Piece (Elt F) S256x4096 .f32) //
      ∀ (xi5 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__mlp2_kernel i arg2 harg2 arg3 harg3 arg4 harg4 arg5 harg5 arg6 harg6 arg7 harg7 arg8 harg8) K } := by
  refine ⟨[], ?_, fun xi5 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- A last step: the accumulator, found at `xs`, and the result buffer, whatever it held, end as the stores leave them. -/
noncomputable def kernelRun1_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : condL1 i)
    (x0 : Vec F S256x512 .f32) (x1 : Vec F S512x4096 .bf16) (x2 : Vec F S4096 .f32) (x3 : Vec F S4096x4096 .bf16) (x4 : Vec F S4096 .f32) (xs : Vec F S256x4096 .f32) :
    Σ' (L5 : List (View.Piece (Elt F) S256x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__mlp2_kernel i arg2 harg2 arg3 harg3 arg4 harg4 arg5 harg5 arg6 harg6 arg7 harg7 arg8 harg8) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Mlp

end
-- ==== Proof.KbBody1.lean ====
import proofs.«100102_j54099408060868_1_alg».proof.Proof.KbCases1

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the contents of the core's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Contents nobody reads: what stands for the result buffer at a point that stores nothing into it. -/
def junkO1 : Vec F S256x4096 .f32 := VO1.read (Elt F) VO1.junk

/-! ## What each kind of point leaves in the accumulator and in the result buffer -/

theorem scover1_A (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : condF1 i) (hc1 : ¬condL1 i) (x0 : Vec F S256x512 .f32) (x1 : Vec F S512x4096 .bf16) (x2 : Vec F S4096 .f32) (x3 : Vec F S4096x4096 .bf16) (x4 : Vec F S4096 .f32) (y : S256x4096.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S256x4096.size (by sl_kernel_rfl) y
def sout1_A (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : condF1 i) (hc1 : ¬condL1 i) (x0 : Vec F S256x512 .f32) (x1 : Vec F S512x4096 .bf16) (x2 : Vec F S4096 .f32) (x3 : Vec F S4096x4096 .bf16) (x4 : Vec F S4096 .f32) : Vec F S256x4096 .f32 :=
  VS1.read (Elt F) (VS1.writes (Elt F) VS1.junk (kernelRun1_A c i arg2 harg2 arg3 harg3 arg4 harg4 arg5 harg5 arg6 harg6 arg7 harg7 arg8 harg8 hc0 hc1 x0 x1 x2 x3 x4).2.1)

theorem scover1_B (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : ¬condL1 i) (x0 : Vec F S256x512 .f32) (x1 : Vec F S512x4096 .bf16) (x2 : Vec F S4096 .f32) (x3 : Vec F S4096x4096 .bf16) (x4 : Vec F S4096 .f32) (xs : Vec F S256x4096 .f32) (y : S256x4096.Idx) :
    ∃ pc ∈ (kernelRun1_B c i arg2 harg2 arg3 harg3 arg4 harg4 arg5 harg5 arg6 harg6 arg7 harg7 arg8 harg8 hc0 hc1 x0 x1 x2 x3 x4 xs).2.1, y ∈ pc.1.set :=
  View.cover_of_tiledL (kernelRun1_B c i arg2 harg2 arg3 harg3 arg4 harg4 arg5 harg5 arg6 harg6 arg7 harg7 arg8 harg8 hc0 hc1 x0 x1 x2 x3 x4 xs).2.1 S256x4096.size (by sl_kernel_rfl) y
def sout1_B (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : ¬condL1 i) (x0 : Vec F S256x512 .f32) (x1 : Vec F S512x4096 .bf16) (x2 : Vec F S4096 .f32) (x3 : Vec F S4096x4096 .bf16) (x4 : Vec F S4096 .f32) (xs : Vec F S256x4096 .f32) : Vec F S256x4096 .f32 :=
  VS1.read (Elt F) (VS1.writes (Elt F) VS1.junk (kernelRun1_B c i arg2 harg2 arg3 harg3 arg4 harg4 arg5 harg5 arg6 harg6 arg7 harg7 arg8 harg8 hc0 hc1 x0 x1 x2 x3 x4 xs).2.1)

theorem cover1_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : condL1 i) (x0 : Vec F S256x512 .f32) (x1 : Vec F S512x4096 .bf16) (x2 : Vec F S4096 .f32) (x3 : Vec F S4096x4096 .bf16) (x4 : Vec F S4096 .f32) (xs : Vec F S256x4096 .f32) (y : S256x4096.Idx) :
    ∃ pc ∈ (kernelRun1_C c i arg2 harg2 arg3 harg3 arg4 harg4 arg5 harg5 arg6 harg6 arg7 harg7 arg8 harg8 hc0 hc1 x0 x1 x2 x3 x4 xs).1, y ∈ pc.1.set :=
  View.cover_of_tiledL (kernelRun1_C c i arg2 harg2 arg3 harg3 arg4 harg4 arg5 harg5 arg6 harg6 arg7 harg7 arg8 harg8 hc0 hc1 x0 x1 x2 x3 x4 xs).1 S256x4096.size (by sl_kernel_rfl) y
def out1_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : condL1 i) (x0 : Vec F S256x512 .f32) (x1 : Vec F S512x4096 .bf16) (x2 : Vec F S4096 .f32) (x3 : Vec F S4096x4096 .bf16) (x4 : Vec F S4096 .f32) (xs : Vec F S256x4096 .f32) : Vec F S256x4096 .f32 :=
  VO1.read (Elt F) (VO1.writes (Elt F) VO1.junk (kernelRun1_C c i arg2 harg2 arg3 harg3 arg4 harg4 arg5 harg5 arg6 harg6 arg7 harg7 arg8 harg8 hc0 hc1 x0 x1 x2 x3 x4 xs).1)
theorem scover1_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : condL1 i) (x0 : Vec F S256x512 .f32) (x1 : Vec F S512x4096 .bf16) (x2 : Vec F S4096 .f32) (x3 : Vec F S4096x4096 .bf16) (x4 : Vec F S4096 .f32) (xs : Vec F S256x4096 .f32) (y : S256x4096.Idx) :
    ∃ pc ∈ (kernelRun1_C c i arg2 harg2 arg3 harg3 arg4 harg4 arg5 harg5 arg6 harg6 arg7 harg7 arg8 harg8 hc0 hc1 x0 x1 x2 x3 x4 xs).2.1, y ∈ pc.1.set :=
  View.cover_of_tiledL (kernelRun1_C c i arg2 harg2 arg3 harg3 arg4 harg4 arg5 harg5 arg6 harg6 arg7 harg7 arg8 harg8 hc0 hc1 x0 x1 x2 x3 x4 xs).2.1 S256x4096.size (by sl_kernel_rfl) y
def sout1_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : condL1 i) (x0 : Vec F S256x512 .f32) (x1 : Vec F S512x4096 .bf16) (x2 : Vec F S4096 .f32) (x3 : Vec F S4096x4096 .bf16) (x4 : Vec F S4096 .f32) (xs : Vec F S256x4096 .f32) : Vec F S256x4096 .f32 :=
  VS1.read (Elt F) (VS1.writes (Elt F) VS1.junk (kernelRun1_C c i arg2 harg2 arg3 harg3 arg4 harg4 arg5 harg5 arg6 harg6 arg7 harg7 arg8 harg8 hc0 hc1 x0 x1 x2 x3 x4 xs).2.1)

/-- What the result buffer and the accumulator hold after the body at position `n` of the grid's order: the kind of
    point decides, and a middle or last step starts from what the point before left in the accumulator. -/
def outsAt1 (c : Dev nD) : (n : ℕ) → n < cfg1.N → Vec F S256x4096 .f32 × Vec F S256x4096 .f32
  | 0, hn => (junkO1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcondF1 ⟨0, hn⟩).mpr (Nat.zero_mod _)) (fun h => (fun h' => by (try dsimp only at h'); omega) ((hcondL1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      (junkO1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcondF1 ⟨n + 1, hn⟩).mpr h0) (fun h => (fun h' => by (try dsimp only at h'); (try dsimp only at h0); omega) ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcondF1 ⟨n + 1, hn⟩).mp h)) ((hcondL1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcondF1 ⟨n + 1, hn⟩).mp h)) ((hcondL1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (junkO1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcondF1 ⟨n + 1, hn⟩).mp h)) (fun h => h1 ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 4 = 0) :
    outsAt1 V c t.val t.isLt = (junkO1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcondF1 t).mpr h0) (fun h => (fun h' => by (try dsimp only at h'); (try dsimp only at h0); omega) ((hcondL1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (junkO1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcondF1 t).mp h)) (fun h => h1 ((hcondL1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcondF1 t).mp h)) ((hcondL1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcondF1 t).mp h)) ((hcondL1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers that belong to the other region, each whole at some contents. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

theorem PhiA_split1 (c : Dev nD) :
    (Pipeline.ΦA spec1 c : sProp 𝕄) ⊢ iprop(iprop((∃ d, owns (c : Thread nD τ) scM1 fullShare d) ∗ other1 c) ∗ (∃ r, prngReg c r)) := by
  unfold Pipeline.ΦA other1; rw [scopedRest1_eq]; simp only [scM1, owns_whole]
  iintro ⟨⟨O0, O1, O2, O3, O4, O5, O6, O7, O8, O9, HS⟩, Hg⟩
  isplitl [HS O0 O1 O2 O3 O4 O5 O6 O7 O8 O9]
  · isplitl [HS]; · iexact HS
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact O9
  iexact Hg

theorem PhiA_join1 (c : Dev nD) :
    iprop(iprop((∃ d, owns (c : Thread nD τ) scM1 fullShare d) ∗ other1 c) ∗ (∃ r, prngReg c r)) ⊢ (Pipeline.ΦA spec1 c : sProp 𝕄) := by
  unfold Pipeline.ΦA other1; rw [scopedRest1_eq]; simp only [scM1, owns_whole]
  iintro ⟨⟨HS, O0, O1, O2, O3, O4, O5, O6, O7, O8, O9⟩, Hg⟩
  isplitl [HS O0 O1 O2 O3 O4 O5 O6 O7 O8 O9]
  ·
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    iexact HS
  iexact Hg

/-- Before the first point the accumulator holds anything; after point `n` it holds what that point left. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ other1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ other1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ other1 c) ∗ (∃ r, prngReg c r)) := by
  cases n with
  | zero => exact absurd rfl hz
  | succ n => rfl

/-! ## The proof data -/

/-- The arrays as the region finds them; after the body each input's buffer at its block and the result's at what the
    point left; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' buffers hold their blocks; the point's position among the steps says which kind
    it is; the accumulator is handed over at what the point before left (at anything at the very first point) and
    taken back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have h1 : ¬t.val % 4 = 3 := by omega
    rw [Dat.leavesExact_idle (dat1 V c) 5 t (idleAt1_5 t (fun h => h1 ((hcondL1 t).mp h))) (noFlush1_5 t (fun h => h1 ((hcondL1 t).mp h)))]
    rw [outsAt1_A V c t h0]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA_split1 c) $$ HΦ
      icases HΦ' with ⟨⟨HS, Hoth⟩, Hg⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcondF1 t).mpr h0) (fun h => (fun h' => by (try dsimp only at h'); (try dsimp only at h0); omega) ((hcondL1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcondF1 t).mpr h0) (fun h => (fun h' => by (try dsimp only at h'); (try dsimp only at h0); omega) ((hcondL1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat1 V c).leavesExact 5 t = owns (c : Thread nD τ) (ms1_5 t) fullShare ((dat1 V c).after 5 t) from by
        unfold Dat.leavesExact; rw [liveAt1_5 t ((hcondL1 t).mpr h1)], after1_5]
      rw [outsAt1_C V c t h0 h1]
      unfold out1_C sout1_C; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcondF1 t).mp h)) ((hcondL1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover1_C c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C c _ _ _ _ _ _ _ _ _ _ _ _ _ _ _ _ _ _ _ _ _ _ _)
    · rw [Dat.leavesExact_idle (dat1 V c) 5 t (idleAt1_5 t (fun h => h1 ((hcondL1 t).mp h))) (noFlush1_5 t (fun h => h1 ((hcondL1 t).mp h)))]
      rw [outsAt1_B V c t h0 h1]
      unfold sout1_B; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcondF1 t).mp h)) (fun h => h1 ((hcondL1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scover1_B c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

/-- After the last point the invariant gives the class's back: the accumulator's contents are forgotten. -/
theorem Phi_last1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  iintro ⟨⟨HS, Hoth⟩, Hg⟩
  iapply (PhiA_join1 c)
  isplitl [HS Hoth]
  · isplitl [HS]; · iexists _; iexact HS
    iexact Hoth
  iexact Hg

theorem Phi_first1 (c : Dev nD) : (dat1 V c).Φ 0 = Pipeline.ΦA spec1 c := rfl

end

end Cert.Kernel.Mlp

end
-- ==== Proof.KbRun.lean ====
import proofs.«100102_j54099408060868_1_alg».proof.Proof.KbBody0
import proofs.«100102_j54099408060868_1_alg».proof.Proof.KbBody1
import proofs.«100102_j54099408060868_1_alg».proof.Proof.Gen.Kernel.Regions
import Idealize.ShloMosaic.Lib.Pipeline.RegionsLoop
import Idealize.ShloMosaic.Lib.Pipeline.Regions

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! # The whole program: two host stretches and two regions, in order

The contents of a core's unscoped buffers at each boundary: as launched; after the weights are rounded; after the
encoder region has written its result array; after the rotation; after the decoder region has written its result array. -/

abbrev Wk0 : Dev nD → Valuation τ sig (Elt F) := fun c b => m (c, b)
abbrev Wk1 : Dev nD → Valuation τ sig (Elt F) := fun c => StableHlo.after hostOps0 (Wk0 m c)
abbrev Vk1 : (c : Dev nD) → (b : Ref sig .tc) → Buf (Elt F) ((c : Thread nD τ).loc b) := fun c b => Wk1 m c b
def Wk2 (c : Dev nD) : Valuation τ sig (Elt F) :=
  Pipeline.withArrays spec0 c (Wk1 m c) fun w => (dat0 (Vk1 m) c).arrAt w cfg0.N
theorem W2_arr (c : Dev nD) (w : Fin cfg0.W) :
    Wk2 m c (Proc.devRef .tc (Pipeline.arrRef spec0 w)) = (dat0 (Vk1 m) c).arrAt w cfg0.N := by
  unfold Wk2; exact Pipeline.withArrays_arr spec0 launch0.win.arr_inj c _ _ w
theorem W2_of_ne (c : Dev nD) (b : Ref sig .tc) (hb : ∀ w, Pipeline.arrRef spec0 w ≠ b) :
    Wk2 m c (Proc.devRef .tc b) = Wk1 m c (Proc.devRef .tc b) := by
  unfold Wk2; exact Pipeline.withArrays_of_ne spec0 c _ _ b hb
abbrev Vk2 : (c : Dev nD) → (b : Ref sig .tc) → Buf (Elt F) ((c : Thread nD τ).loc b) := fun c b => Wk2 m c b
theorem hF0 (c : Dev nD) (w : Fin cfg0.W) : (dat0 (Vk1 m) c).arrAt w cfg0.N = Vk2 m c (Pipeline.arrRef spec0 w) :=
  (W2_arr m c w).symm
theorem hrest0 (c : Dev nD) : ∀ b, b ∉ Finset.univ.image (Pipeline.arrRef spec0) → Vk2 m c b = Vk1 m c b :=
  fun b hb => W2_of_ne m c b fun w e => hb (Finset.mem_image.mpr ⟨w, Finset.mem_univ _, e⟩)

abbrev Wk3 : Dev nD → Valuation τ sig (Elt F) := fun c => StableHlo.after hostOps1 (Wk2 m c)
abbrev Vk3 : (c : Dev nD) → (b : Ref sig .tc) → Buf (Elt F) ((c : Thread nD τ).loc b) := fun c b => Wk3 m c b
def Wk4 (c : Dev nD) : Valuation τ sig (Elt F) :=
  Pipeline.withArrays spec1 c (Wk3 m c) fun w => (dat1 (Vk3 m) c).arrAt w cfg1.N
theorem W4_arr (c : Dev nD) (w : Fin cfg1.W) :
    Wk4 m c (Proc.devRef .tc (Pipeline.arrRef spec1 w)) = (dat1 (Vk3 m) c).arrAt w cfg1.N := by
  unfold Wk4; exact Pipeline.withArrays_arr spec1 launch1.win.arr_inj c _ _ w
theorem W4_of_ne (c : Dev nD) (b : Ref sig .tc) (hb : ∀ w, Pipeline.arrRef spec1 w ≠ b) :
    Wk4 m c (Proc.devRef .tc b) = Wk3 m c (Proc.devRef .tc b) := by
  unfold Wk4; exact Pipeline.withArrays_of_ne spec1 c _ _ b hb
abbrev Vk4 : (c : Dev nD) → (b : Ref sig .tc) → Buf (Elt F) ((c : Thread nD τ).loc b) := fun c b => Wk4 m c b
theorem hF1 (c : Dev nD) (w : Fin cfg1.W) : (dat1 (Vk3 m) c).arrAt w cfg1.N = Vk4 m c (Pipeline.arrRef spec1 w) :=
  (W4_arr m c w).symm
theorem hrest1 (c : Dev nD) : ∀ b, b ∉ Finset.univ.image (Pipeline.arrRef spec1) → Vk4 m c b = Vk3 m c b :=
  fun b hb => W4_of_ne m c b fun w e => hb (Finset.mem_image.mpr ⟨w, Finset.mem_univ _, e⟩)

/-- A host stretch leaves the buffers it does not write as they were. -/
theorem W1_of (c : Dev nD) (r : Ref sig .tc) (h : r ∉ hostOps0_W) : Wk1 m c r = Wk0 m c r :=
  StableHlo.after_of_writes_sub hostOps0 _ hostOps0_writes h
theorem W3_of (c : Dev nD) (r : Ref sig .tc) (h : r ∉ hostOps1_W) : Wk3 m c r = Wk2 m c r :=
  StableHlo.after_of_writes_sub hostOps1 _ hostOps1_writes h

/-! No stretch writes an argument and no region changes one: each argument ends as launched. -/
theorem W4_main_arg0 (c : Dev nD) : Wk4 m c (Proc.devRef .tc main_arg0) = m ((c : Thread nD τ).loc main_arg0) :=
  (W4_of_ne m c main_arg0 (by decide)).trans <| (W3_of m c main_arg0 (by decide)).trans <| ((W2_arr m c 0).trans (((dat0 (Vk1 m) c).arrAt_in 0 rfl _).trans (A_eq0 (Vk1 m) c 0))).trans <| (W1_of m c main_arg0 (by decide)).trans rfl
theorem W4_main_arg1 (c : Dev nD) : Wk4 m c (Proc.devRef .tc main_arg1) = m ((c : Thread nD τ).loc main_arg1) :=
  (W4_of_ne m c main_arg1 (by decide)).trans <| (W3_of m c main_arg1 (by decide)).trans <| (W2_of_ne m c main_arg1 (by decide)).trans <| (W1_of m c main_arg1 (by decide)).trans rfl
theorem W4_main_arg2 (c : Dev nD) : Wk4 m c (Proc.devRef .tc main_arg2) = m ((c : Thread nD τ).loc main_arg2) :=
  (W4_of_ne m c main_arg2 (by decide)).trans <| (W3_of m c main_arg2 (by decide)).trans <| (W2_of_ne m c main_arg2 (by decide)).trans <| (W1_of m c main_arg2 (by decide)).trans rfl
theorem W4_main_arg3 (c : Dev nD) : Wk4 m c (Proc.devRef .tc main_arg3) = m ((c : Thread nD τ).loc main_arg3) :=
  (W4_of_ne m c main_arg3 (by decide)).trans <| (W3_of m c main_arg3 (by decide)).trans <| ((W2_arr m c 2).trans (((dat0 (Vk1 m) c).arrAt_in 2 rfl _).trans (A_eq0 (Vk1 m) c 2))).trans <| (W1_of m c main_arg3 (by decide)).trans rfl
theorem W4_main_arg4 (c : Dev nD) : Wk4 m c (Proc.devRef .tc main_arg4) = m ((c : Thread nD τ).loc main_arg4) :=
  (W4_of_ne m c main_arg4 (by decide)).trans <| (W3_of m c main_arg4 (by decide)).trans <| (W2_of_ne m c main_arg4 (by decide)).trans <| (W1_of m c main_arg4 (by decide)).trans rfl
theorem W4_main_arg5 (c : Dev nD) : Wk4 m c (Proc.devRef .tc main_arg5) = m ((c : Thread nD τ).loc main_arg5) :=
  (W4_of_ne m c main_arg5 (by decide)).trans <| (W3_of m c main_arg5 (by decide)).trans <| ((W2_arr m c 4).trans (((dat0 (Vk1 m) c).arrAt_in 4 rfl _).trans (A_eq0 (Vk1 m) c 4))).trans <| (W1_of m c main_arg5 (by decide)).trans rfl
theorem W4_main_arg6 (c : Dev nD) : Wk4 m c (Proc.devRef .tc main_arg6) = m ((c : Thread nD τ).loc main_arg6) :=
  (W4_of_ne m c main_arg6 (by decide)).trans <| (W3_of m c main_arg6 (by decide)).trans <| (W2_of_ne m c main_arg6 (by decide)).trans <| (W1_of m c main_arg6 (by decide)).trans rfl
theorem W4_main_arg7 (c : Dev nD) : Wk4 m c (Proc.devRef .tc main_arg7) = m ((c : Thread nD τ).loc main_arg7) :=
  (W4_of_ne m c main_arg7 (by decide)).trans <| (W3_of m c main_arg7 (by decide)).trans <| (W2_of_ne m c main_arg7 (by decide)).trans <| (W1_of m c main_arg7 (by decide)).trans rfl
theorem W4_main_arg8 (c : Dev nD) : Wk4 m c (Proc.devRef .tc main_arg8) = m ((c : Thread nD τ).loc main_arg8) :=
  (W4_of_ne m c main_arg8 (by decide)).trans <| (W3_of m c main_arg8 (by decide)).trans <| (W2_of_ne m c main_arg8 (by decide)).trans <| (W1_of m c main_arg8 (by decide)).trans rfl
theorem W4_main_arg9 (c : Dev nD) : Wk4 m c (Proc.devRef .tc main_arg9) = m ((c : Thread nD τ).loc main_arg9) :=
  ((W4_arr m c 2).trans (((dat1 (Vk3 m) c).arrAt_in 2 rfl _).trans (A_eq1 (Vk3 m) c 2))).trans <| (W3_of m c main_arg9 (by decide)).trans <| (W2_of_ne m c main_arg9 (by decide)).trans <| (W1_of m c main_arg9 (by decide)).trans rfl
theorem W4_main_arg10 (c : Dev nD) : Wk4 m c (Proc.devRef .tc main_arg10) = m ((c : Thread nD τ).loc main_arg10) :=
  (W4_of_ne m c main_arg10 (by decide)).trans <| (W3_of m c main_arg10 (by decide)).trans <| (W2_of_ne m c main_arg10 (by decide)).trans <| (W1_of m c main_arg10 (by decide)).trans rfl
theorem W4_main_arg11 (c : Dev nD) : Wk4 m c (Proc.devRef .tc main_arg11) = m ((c : Thread nD τ).loc main_arg11) :=
  ((W4_arr m c 4).trans (((dat1 (Vk3 m) c).arrAt_in 4 rfl _).trans (A_eq1 (Vk3 m) c 4))).trans <| (W3_of m c main_arg11 (by decide)).trans <| (W2_of_ne m c main_arg11 (by decide)).trans <| (W1_of m c main_arg11 (by decide)).trans rfl

/-! ## The proof data family, the segments -/

def pdatsK : (p : Fin 2) → (c : Dev nD) → Dat τ (Elt F) Unit ℕ (UR sig nD τ) ℕ (Pipeline.pin (pcfgs (F := F)) adm p) c
  | ⟨0, _⟩ => fun c => dat0 (Vk1 m) c
  | ⟨1, _⟩ => fun c => dat1 (Vk3 m) c
abbrev Lk : GSem nD τ sig → Finset Unit := fun _ => ∅
abbrev lvk : GSem nD τ sig → Unit → ℕ := fun _ _ => 0
/-- What rides beside the buffers through every segment: the generator register at some state, nothing owed. -/
abbrev RestK (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RestK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnK (c : Dev nD) : sProp 𝕄 := iprop(StableHlo.held (c : Thread nD τ) (Pipeline.ucRefs τ sig) (Wk4 m c) ∗ ∃ r, prngReg c r)

set_option backward.isDefEq.respectTransparency.types false in
/-- Region 0 between two states of the thread: entered with every unscoped buffer of the core at the contents before it,
    left with them at the contents after it; its arrays are split out of those buffers and put back; the generator
    register and the other scoped buffers go into the invariant and come back; nothing is owed. -/
def reg0 : Pipeline.RegionSeg (pcfgs (F := F)) adm (pdatsK m) () defs₀ Variants.none Lk lvk 0 where
  win := launch0.win.to₀
  block_pos := launch0.block_pos
  stage_whole := launch0.stage_whole
  K := PEmpty
  osem k := k.elim
  ho := Pipeline.OwnSemFacts.none _
  hbody c := (body_obligation0 (Vk1 m) c).loose
  hwaits := Pipeline.hwaits_of_owed_zero _ _ _ _ Lk lvk 0 fun _ _ => rfl
  pre c := iprop(StableHlo.held (c : Thread nD τ) (Pipeline.ucRefs τ sig) (Wk1 m c) ∗ RestK c)
  post c := iprop(StableHlo.held (c : Thread nD τ) (Pipeline.ucRefs τ sig) (Wk2 m c) ∗ RestK c)
  X c := iprop(∃ r, prngReg c r)
  Y c := iprop(∃ r, prngReg c r)
  Z c := Pipeline.unscopedRest (Ix := Unit) (Name := ℕ) (U := UR sig nD τ) (Lvl := ℕ) spec0 c (Vk1 m c)
  hentry c := by
    rw [Pipeline.ownSems0_none]
    have hsplit := Pipeline.arrays_of_unscopedBufs (p := 0) (pcfgs (F := F)) adm (pdatsK m) launch0.win launch0.arr_whole c
      ((pdatsK m 0 c).share_full fun _ => rfl) (Vk1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdatsK m 0 c).Φ (Fin.last _) ⊢ Pipeline.ΦA spec0 c from Phi_last0 (Vk1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsK m) ((pdatsK m 0 c).share_full fun _ => rfl)
      (Vk1 m c) (Vk2 m c) ((pdatsK m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between two states of the thread: entered with every unscoped buffer of the core at the contents before it,
    left with them at the contents after it; its arrays are split out of those buffers and put back; the generator
    register and the other scoped buffers go into the invariant and come back; nothing is owed. -/
def reg1 : Pipeline.RegionSeg (pcfgs (F := F)) adm (pdatsK m) () defs₀ Variants.none Lk lvk 1 where
  win := launch1.win.to₀
  block_pos := launch1.block_pos
  stage_whole := launch1.stage_whole
  K := PEmpty
  osem k := k.elim
  ho := Pipeline.OwnSemFacts.none _
  hbody c := (body_obligation1 (Vk3 m) c).loose
  hwaits := Pipeline.hwaits_of_owed_zero _ _ _ _ Lk lvk 1 fun _ _ => rfl
  pre c := iprop(StableHlo.held (c : Thread nD τ) (Pipeline.ucRefs τ sig) (Wk3 m c) ∗ RestK c)
  post c := iprop(StableHlo.held (c : Thread nD τ) (Pipeline.ucRefs τ sig) (Wk4 m c) ∗ RestK c)
  X c := iprop(∃ r, prngReg c r)
  Y c := iprop(∃ r, prngReg c r)
  Z c := Pipeline.unscopedRest (Ix := Unit) (Name := ℕ) (U := UR sig nD τ) (Lvl := ℕ) spec1 c (Vk3 m c)
  hentry c := by
    rw [Pipeline.ownSems0_none]
    have hsplit := Pipeline.arrays_of_unscopedBufs (p := 1) (pcfgs (F := F)) adm (pdatsK m) launch1.win launch1.arr_whole c
      ((pdatsK m 1 c).share_full fun _ => rfl) (Vk3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdatsK m 1 c).Φ (Fin.last _) ⊢ Pipeline.ΦA spec1 c from Phi_last1 (Vk3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsK m) ((pdatsK m 1 c).share_full fun _ => rfl)
      (Vk3 m c) (Vk4 m c) ((pdatsK m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsK : List (Pipeline.Seg (pcfgs (F := F)) adm (pdatsK m) () defs₀ Variants.none Lk lvk) :=
  [ .host (hsegK hostOps0 hostOps0_sub hostOps0_fresh (Wk0 m)),
    .region (reg0 m),
    .host (hsegK hostOps1 hostOps1_sub hostOps1_fresh (Wk2 m)),
    .region (reg1 m) ]
theorem main_runK (c : Dev nD) : main (F := F) c = Pipeline.Seg.run (segsK m) := (main_chain c).trans (by chain_rfl)

set_option backward.isDefEq.respectTransparency.types false in
/-- From any memory with zero counters every weakly fair execution of the program terminates, nothing faulting, and
    every core's unscoped buffers end at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wk4 m c b) :=
  Pipeline.θ_run_regions_kit (pcfgs (F := F)) adm (pdatsK m) () cellOf_inj emb₁ defs₀ Variants.none Lk lvk m ρ main (segsK m)
    (fun c Q => by rw [main_runK m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m c) ∗ RestK c)) (Tₙ := TnK m)
    (hch := ⟨fun _ => .rfl, fun _ => .rfl, fun _ => .rfl, fun _ => .rfl, fun c => by
      show iprop(StableHlo.held (c : Thread nD τ) (Pipeline.ucRefs τ sig) (Wk4 m c) ∗ RestK c) ⊢ iprop(TnK m c ∗ ∃ W, owes (c : Thread nD τ) (0 : CellTallies nD τ sig Unit) W)
      iintro ⟨Hh, Hr, Ho⟩
      isplitl [Hh Hr]
      · isplitl [Hh]; · iexact Hh
        iexact Hr
      iexact Ho⟩)
    (hinit := by
      refine Pipeline.initEach Lk lvk fun c => ?_
      rw [show unscopedBufs c (fun b => m ((c : Thread nD τ).loc b)) = StableHlo.held (c : Thread nD τ) (Pipeline.ucRefs τ sig) (Wk0 m c)
        from Pipeline.unscopedBufs_held c (Wk0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk4 m c b)
    (hfin := fun c s' => by
      iintro ⟨⟨Hh, -⟩, HSI⟩
      unfold StableHlo.held
      imodintro
      iapply (pointsTo_read_all (Pipeline.ucRefs τ sig) (fun b => (((c : Thread nD τ)).1, b)) (Wk4 m c) s')
      isplitl [Hh] <;> iassumption)
    (hQ := fun s h => h)

/-- The frame: every argument array ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c)⟩) (run_all m ρ)

/-! The three results at the end: the decoder's array as its region left it, the rotated array as the rotation made it
    from the encoder's array, the encoder's array as its region left it. -/
theorem W4_main_v34 (c : Dev nD) : Wk4 m c (Proc.devRef .tc main_v34) = (dat1 (Vk3 m) c).arrAt 5 cfg1.N := W4_arr m c 5
theorem W4_main_v33 (c : Dev nD) : Wk4 m c (Proc.devRef .tc main_v33) = Wk3 m c (Proc.devRef .tc main_v33) :=
  (W4_arr m c 0).trans (((dat1 (Vk3 m) c).arrAt_in 0 rfl _).trans (A_eq1 (Vk3 m) c 0))
theorem W4_main_v4 (c : Dev nD) : Wk4 m c (Proc.devRef .tc main_v4) = (dat0 (Vk1 m) c).arrAt 5 cfg0.N :=
  (W4_of_ne m c main_v4 (by decide)).trans <| (W3_of m c main_v4 (by decide)).trans (W2_arr m c 5)

end Cert.Kernel.Mlp

end
-- ==== Proof.KiCases0.lean ====
import proofs.«100102_j54099408060868_1_alg».proof.Proof.Gen.KernelIdeal.Launch
import proofs.«100102_j54099408060868_1_alg».proof.Proof.Gen.KernelIdeal.Skeleton
import proofs.«100102_j54099408060868_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel of region 0, one grid point at a time

The grid is (row block, step of the first product's contraction). At a point the body clears the accumulator if the
step is the first, adds the step's partial product to it, and at the last step applies the bias, the hyperbolic
tangent and the second product and stores the row block of the result. Three kinds of point occur: first step,
middle step, last step. -/

/-- The step is the first one of its row block. -/
abbrev condF0 (i : grid0.Coords) : Prop := (Scalar.cmpi .ne (Scalar.extui (Scalar.cmpi .eq (BitVec.ofNat 32 (i 1).val) 0#32)) 0#32) = 1#1
theorem hcondF0 : ∀ t : Fin cfg0.N, condF0 (grid0.coords t) ↔ t.val % 8 = 0 :=
  (by decide +kernel : ∀ t : Fin grid0.N, condF0 (grid0.coords t) ↔ t.val % 8 = 0)

/-- The step is the last one of its row block. -/
abbrev condL0 (i : grid0.Coords) : Prop := k0_cond2 i = 1#1
theorem hcondL0 : ∀ t : Fin cfg0.N, condL0 (grid0.coords t) ↔ t.val % 8 = 7 :=
  (by decide +kernel : ∀ t : Fin grid0.N, condL0 (grid0.coords t) ↔ t.val % 8 = 7)

/-! The input windows are never idle; the result window is idle, and not written back, except at a last step. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬condL0 (grid0.coords t) → cfg0.idle 5 (grid0.coords t) = true := by decide +kernel
theorem noFlush0_5 : ∀ t : Fin cfg0.N, ¬condL0 (grid0.coords t) → (cfg0.win 5).flush t = false := by decide +kernel
theorem liveAt0_5 : ∀ t : Fin cfg0.N, condL0 (grid0.coords t) → cfg0.idle 5 (grid0.coords t) = false := by decide +kernel

/-- A staging buffer of the result window, through which its contents are stated. -/
abbrev VO0 : View sig .tc .vmem S512x2048 .f32 := (Memref.whole cc0_stg5_0 : Memref sig .tc .vmem S512x2048 .f32).view
/-- Each window's current staging buffer at a point. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
/-- The accumulator: a buffer of the kernel's own, kept from one point to the next. -/
abbrev scM0 : Memref sig .tc .vmem S512x4096 .f32 := Memref.whole cc0_scratch0
abbrev VS0 : View sig .tc .vmem S512x4096 .f32 := scM0.view

set_option maxHeartbeats 4000000 in
/-- A first step that is not a last step: the accumulator, whatever it held, ends as the stores leave it; the inputs and
    the result buffer are handed back as found. -/
noncomputable def kernelRun0_A (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : condF0 i) (hc1 : ¬condL0 i)
    (x0 : Vec F S512x512 .f32) (x1 : Vec F S512x4096 .bf16) (x2 : Vec F S4096 .f32) (x3 : Vec F S4096x2048 .bf16) (x4 : Vec F S2048 .f32) :
    Σ' (L5 : List (View.Piece (Elt F) S512x2048 .f32)), { LS : List (View.Piece (Elt F) S512x4096 .f32) //
      ∀ (xi5 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__mlp2_kernel i arg2 harg2 arg3 harg3 arg4 harg4 arg5 harg5 arg6 harg6 arg7 harg7 arg8 harg8) K } := by
  refine ⟨[], ?_, fun xi5 E K => ?run⟩
  case run =>
    simp only [cc0__mlp2_kernel_eq_skeleton]; unfold cc0__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- A middle step: the accumulator, found at `xs`, ends as the stores leave it. -/
noncomputable def kernelRun0_B (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : ¬condL0 i)
    (x0 : Vec F S512x512 .f32) (x1 : Vec F S512x4096 .bf16) (x2 : Vec F S4096 .f32) (x3 : Vec F S4096x2048 .bf16) (x4 : Vec F S2048 .f32) (xs : Vec F S512x4096 .f32) :
    Σ' (L5 : List (View.Piece (Elt F) S512x2048 .f32)), { LS : List (View.Piece (Elt F) S512x4096 .f32) //
      ∀ (xi5 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__mlp2_kernel i arg2 harg2 arg3 harg3 arg4 harg4 arg5 harg5 arg6 harg6 arg7 harg7 arg8 harg8) K } := by
  refine ⟨[], ?_, fun xi5 E K => ?run⟩
  case run =>
    simp only [cc0__mlp2_kernel_eq_skeleton]; unfold cc0__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- A last step: the accumulator, found at `xs`, and the result buffer, whatever it held, end as the stores leave them. -/
noncomputable def kernelRun0_C (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : condL0 i)
    (x0 : Vec F S512x512 .f32) (x1 : Vec F S512x4096 .bf16) (x2 : Vec F S4096 .f32) (x3 : Vec F S4096x2048 .bf16) (x4 : Vec F S2048 .f32) (xs : Vec F S512x4096 .f32) :
    Σ' (L5 : List (View.Piece (Elt F) S512x2048 .f32)), { LS : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__mlp2_kernel i arg2 harg2 arg3 harg3 arg4 harg4 arg5 harg5 arg6 harg6 arg7 harg7 arg8 harg8) K } := by
  refine ⟨?_, ?_, fun E K => ?run⟩
  case run =>
    simp only [cc0__mlp2_kernel_eq_skeleton]; unfold cc0__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Mlp

end
-- ==== Proof.KiBody0.lean ====
import proofs.«100102_j54099408060868_1_alg».proof.Proof.KiCases0

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Contents nobody reads: what stands for the result buffer at a point that stores nothing into it. -/
def junkO0 : Vec F S512x2048 .f32 := VO0.read (Elt F) VO0.junk

/-! ## What each kind of point leaves in the accumulator and in the result buffer -/

theorem scover0_A (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : condF0 i) (hc1 : ¬condL0 i) (x0 : Vec F S512x512 .f32) (x1 : Vec F S512x4096 .bf16) (x2 : Vec F S4096 .f32) (x3 : Vec F S4096x2048 .bf16) (x4 : Vec F S2048 .f32) (y : S512x4096.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S512x4096.size (by sl_kernel_rfl) y
def sout0_A (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : condF0 i) (hc1 : ¬condL0 i) (x0 : Vec F S512x512 .f32) (x1 : Vec F S512x4096 .bf16) (x2 : Vec F S4096 .f32) (x3 : Vec F S4096x2048 .bf16) (x4 : Vec F S2048 .f32) : Vec F S512x4096 .f32 :=
  VS0.read (Elt F) (VS0.writes (Elt F) VS0.junk (kernelRun0_A c i arg2 harg2 arg3 harg3 arg4 harg4 arg5 harg5 arg6 harg6 arg7 harg7 arg8 harg8 hc0 hc1 x0 x1 x2 x3 x4).2.1)

theorem scover0_B (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : ¬condL0 i) (x0 : Vec F S512x512 .f32) (x1 : Vec F S512x4096 .bf16) (x2 : Vec F S4096 .f32) (x3 : Vec F S4096x2048 .bf16) (x4 : Vec F S2048 .f32) (xs : Vec F S512x4096 .f32) (y : S512x4096.Idx) :
    ∃ pc ∈ (kernelRun0_B c i arg2 harg2 arg3 harg3 arg4 harg4 arg5 harg5 arg6 harg6 arg7 harg7 arg8 harg8 hc0 hc1 x0 x1 x2 x3 x4 xs).2.1, y ∈ pc.1.set :=
  View.cover_of_tiledL (kernelRun0_B c i arg2 harg2 arg3 harg3 arg4 harg4 arg5 harg5 arg6 harg6 arg7 harg7 arg8 harg8 hc0 hc1 x0 x1 x2 x3 x4 xs).2.1 S512x4096.size (by sl_kernel_rfl) y
def sout0_B (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : ¬condL0 i) (x0 : Vec F S512x512 .f32) (x1 : Vec F S512x4096 .bf16) (x2 : Vec F S4096 .f32) (x3 : Vec F S4096x2048 .bf16) (x4 : Vec F S2048 .f32) (xs : Vec F S512x4096 .f32) : Vec F S512x4096 .f32 :=
  VS0.read (Elt F) (VS0.writes (Elt F) VS0.junk (kernelRun0_B c i arg2 harg2 arg3 harg3 arg4 harg4 arg5 harg5 arg6 harg6 arg7 harg7 arg8 harg8 hc0 hc1 x0 x1 x2 x3 x4 xs).2.1)

theorem cover0_C (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : condL0 i) (x0 : Vec F S512x512 .f32) (x1 : Vec F S512x4096 .bf16) (x2 : Vec F S4096 .f32) (x3 : Vec F S4096x2048 .bf16) (x4 : Vec F S2048 .f32) (xs : Vec F S512x4096 .f32) (y : S512x2048.Idx) :
    ∃ pc ∈ (kernelRun0_C c i arg2 harg2 arg3 harg3 arg4 harg4 arg5 harg5 arg6 harg6 arg7 harg7 arg8 harg8 hc0 hc1 x0 x1 x2 x3 x4 xs).1, y ∈ pc.1.set :=
  View.cover_of_tiledL (kernelRun0_C c i arg2 harg2 arg3 harg3 arg4 harg4 arg5 harg5 arg6 harg6 arg7 harg7 arg8 harg8 hc0 hc1 x0 x1 x2 x3 x4 xs).1 S512x2048.size (by sl_kernel_rfl) y
def out0_C (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : condL0 i) (x0 : Vec F S512x512 .f32) (x1 : Vec F S512x4096 .bf16) (x2 : Vec F S4096 .f32) (x3 : Vec F S4096x2048 .bf16) (x4 : Vec F S2048 .f32) (xs : Vec F S512x4096 .f32) : Vec F S512x2048 .f32 :=
  VO0.read (Elt F) (VO0.writes (Elt F) VO0.junk (kernelRun0_C c i arg2 harg2 arg3 harg3 arg4 harg4 arg5 harg5 arg6 harg6 arg7 harg7 arg8 harg8 hc0 hc1 x0 x1 x2 x3 x4 xs).1)
theorem scover0_C (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : condL0 i) (x0 : Vec F S512x512 .f32) (x1 : Vec F S512x4096 .bf16) (x2 : Vec F S4096 .f32) (x3 : Vec F S4096x2048 .bf16) (x4 : Vec F S2048 .f32) (xs : Vec F S512x4096 .f32) (y : S512x4096.Idx) :
    ∃ pc ∈ (kernelRun0_C c i arg2 harg2 arg3 harg3 arg4 harg4 arg5 harg5 arg6 harg6 arg7 harg7 arg8 harg8 hc0 hc1 x0 x1 x2 x3 x4 xs).2.1, y ∈ pc.1.set :=
  View.cover_of_tiledL (kernelRun0_C c i arg2 harg2 arg3 harg3 arg4 harg4 arg5 harg5 arg6 harg6 arg7 harg7 arg8 harg8 hc0 hc1 x0 x1 x2 x3 x4 xs).2.1 S512x4096.size (by sl_kernel_rfl) y
def sout0_C (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : condL0 i) (x0 : Vec F S512x512 .f32) (x1 : Vec F S512x4096 .bf16) (x2 : Vec F S4096 .f32) (x3 : Vec F S4096x2048 .bf16) (x4 : Vec F S2048 .f32) (xs : Vec F S512x4096 .f32) : Vec F S512x4096 .f32 :=
  VS0.read (Elt F) (VS0.writes (Elt F) VS0.junk (kernelRun0_C c i arg2 harg2 arg3 harg3 arg4 harg4 arg5 harg5 arg6 harg6 arg7 harg7 arg8 harg8 hc0 hc1 x0 x1 x2 x3 x4 xs).2.1)

/-- What the result buffer and the accumulator hold after the body at position `n` of the grid's order: the kind of
    point decides, and a middle or last step starts from what the point before left in the accumulator. -/
def outsAt0 (c : Dev nD) : (n : ℕ) → n < cfg0.N → Vec F S512x2048 .f32 × Vec F S512x4096 .f32
  | 0, hn => (junkO0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcondF0 ⟨0, hn⟩).mpr (Nat.zero_mod _)) (fun h => (fun h' => by (try dsimp only at h'); omega) ((hcondL0 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      (junkO0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcondF0 ⟨n + 1, hn⟩).mpr h0) (fun h => (fun h' => by (try dsimp only at h'); (try dsimp only at h0); omega) ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcondF0 ⟨n + 1, hn⟩).mp h)) ((hcondL0 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcondF0 ⟨n + 1, hn⟩).mp h)) ((hcondL0 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (junkO0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcondF0 ⟨n + 1, hn⟩).mp h)) (fun h => h1 ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 8 = 0) :
    outsAt0 V c t.val t.isLt = (junkO0, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcondF0 t).mpr h0) (fun h => (fun h' => by (try dsimp only at h'); (try dsimp only at h0); omega) ((hcondL0 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (junkO0, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcondF0 t).mp h)) (fun h => h1 ((hcondL0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcondF0 t).mp h)) ((hcondL0 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcondF0 t).mp h)) ((hcondL0 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers that belong to the other region, each whole at some contents. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

theorem PhiA_split0 (c : Dev nD) :
    (Pipeline.ΦA spec0 c : sProp 𝕄) ⊢ iprop(iprop((∃ d, owns (c : Thread nD τ) scM0 fullShare d) ∗ other0 c) ∗ (∃ r, prngReg c r)) := by
  unfold Pipeline.ΦA other0; rw [scopedRest0_eq]; simp only [scM0, owns_whole]
  iintro ⟨⟨HS, O0, O1, O2, O3, O4, O5, O6, O7, O8, O9⟩, Hg⟩
  isplitl [HS O0 O1 O2 O3 O4 O5 O6 O7 O8 O9]
  · isplitl [HS]; · iexact HS
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact O9
  iexact Hg

theorem PhiA_join0 (c : Dev nD) :
    iprop(iprop((∃ d, owns (c : Thread nD τ) scM0 fullShare d) ∗ other0 c) ∗ (∃ r, prngReg c r)) ⊢ (Pipeline.ΦA spec0 c : sProp 𝕄) := by
  unfold Pipeline.ΦA other0; rw [scopedRest0_eq]; simp only [scM0, owns_whole]
  iintro ⟨⟨HS, O0, O1, O2, O3, O4, O5, O6, O7, O8, O9⟩, Hg⟩
  isplitl [HS O0 O1 O2 O3 O4 O5 O6 O7 O8 O9]
  ·
    isplitl [HS]; · iexact HS
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact O9
  iexact Hg

/-- Before the first point the accumulator holds anything; after point `n` it holds what that point left. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ other0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ other0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ other0 c) ∗ (∃ r, prngReg c r)) := by
  cases n with
  | zero => exact absurd rfl hz
  | succ n => rfl

/-! ## The proof data -/

/-- The arrays as the region finds them; after the body each input's buffer at its block and the result's at what the
    point left; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' buffers hold their blocks; the point's position among the steps says which kind
    it is; the accumulator is handed over at what the point before left (at anything at the very first point) and
    taken back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 8 = 0
  · have h1 : ¬t.val % 8 = 7 := by omega
    rw [Dat.leavesExact_idle (dat0 V c) 5 t (idleAt0_5 t (fun h => h1 ((hcondL0 t).mp h))) (noFlush0_5 t (fun h => h1 ((hcondL0 t).mp h)))]
    rw [outsAt0_A V c t h0]
    unfold sout0_A; (try dsimp only)
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA_split0 c) $$ HΦ
      icases HΦ' with ⟨⟨HS, Hoth⟩, Hg⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcondF0 t).mpr h0) (fun h => (fun h' => by (try dsimp only at h'); (try dsimp only at h0); omega) ((hcondL0 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scover0_A c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcondF0 t).mpr h0) (fun h => (fun h' => by (try dsimp only at h'); (try dsimp only at h0); omega) ((hcondL0 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scover0_A c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 8 = 7
    · rw [show (dat0 V c).leavesExact 5 t = owns (c : Thread nD τ) (ms0_5 t) fullShare ((dat0 V c).after 5 t) from by
        unfold Dat.leavesExact; rw [liveAt0_5 t ((hcondL0 t).mpr h1)], after0_5]
      rw [outsAt0_C V c t h0 h1]
      unfold out0_C sout0_C; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcondF0 t).mp h)) ((hcondL0 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover0_C c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C c _ _ _ _ _ _ _ _ _ _ _ _ _ _ _ _ _ _ _ _ _ _ _)
    · rw [Dat.leavesExact_idle (dat0 V c) 5 t (idleAt0_5 t (fun h => h1 ((hcondL0 t).mp h))) (noFlush0_5 t (fun h => h1 ((hcondL0 t).mp h)))]
      rw [outsAt0_B V c t h0 h1]
      unfold sout0_B; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcondF0 t).mp h)) (fun h => h1 ((hcondL0 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scover0_B c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation0 (c : Dev nD) : BodyObligation (dat0 (F := F) V c) (defs₀ (F := F)) Variants.none () Set.univ := fun t => by
  rw [bigSep_W0, bigSep_W0]
  exact sound_body0 V c t

/-- After the last point the invariant gives the class's back: the accumulator's contents are forgotten. -/
theorem Phi_last0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  iintro ⟨⟨HS, Hoth⟩, Hg⟩
  iapply (PhiA_join0 c)
  isplitl [HS Hoth]
  · isplitl [HS]; · iexists _; iexact HS
    iexact Hoth
  iexact Hg

theorem Phi_first0 (c : Dev nD) : (dat0 V c).Φ 0 = Pipeline.ΦA spec0 c := rfl

end

end Cert.KernelIdeal.Mlp

end
-- ==== Proof.KiPieces0.lean ====
import proofs.«100102_j54099408060868_1_alg».proof.Proof.KiBody0
import Idealize.ShloMosaic.Lib.Pipeline.Value

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What each kind of point of region 0 leaves, as the body's own arithmetic: every store covers its whole buffer, so a
    buffer read back holds the last value stored into it. -/

theorem hz2_0 : (![0, 0] : Fin 2 → Nat) = fun _ => 0 := funext fun a => by fin_cases a <;> rfl
theorem hz1_0 : (![0] : Fin 1 → Nat) = fun _ => 0 := funext fun a => by fin_cases a; rfl

/-- A middle step leaves in the accumulator what it held plus the step's partial product. -/
theorem sout0_B_eq (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : ¬condL0 i) (x0 : Vec F S512x512 .f32) (x1 : Vec F S512x4096 .bf16) (x2 : Vec F S4096 .f32) (x3 : Vec F S4096x2048 .bf16) (x4 : Vec F S2048 .f32) (xs : Vec F S512x4096 .f32) :
    sout0_B c i arg2 harg2 arg3 harg3 arg4 harg4 arg5 harg5 arg6 harg6 arg7 harg7 arg8 harg8 hc0 hc1 x0 x1 x2 x3 x4 xs = k0_pay2 x0 xs x1 := by
  have hz2 := hz2_0; have hz1 := hz1_0
  unfold sout0_B
  rw [View.read_writes_eq_canon _ _ _ (scover0_B c i arg2 harg2 arg3 harg3 arg4 harg4 arg5 harg5 arg6 harg6 arg7 harg7 arg8 harg8 hc0 hc1 x0 x1 x2 x3 x4 xs)]
  unfold kernelRun0_B
  dsimp only
  rw [View.canon_unit_zero hz2]
  simp only [View.readAt_eq_ld, harg2.read_unread, harg3.read_unread, harg4.read_unread, harg5.read_unread, harg6.read_unread, harg8.read_unread, View.ld_unit_zero (S := S512x512) hz2, View.ld_unit_zero (S := S512x4096) hz2, View.ld_unit_zero (S := S4096x2048) hz2, View.ld_unit_zero (S := S512x2048) hz2, View.ld_unit_zero (S := S4096) hz1, View.ld_unit_zero (S := S2048) hz1]

/-- A first step leaves the zero block plus the step's partial product. -/
theorem sout0_A_eq (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : condF0 i) (hc1 : ¬condL0 i) (x0 : Vec F S512x512 .f32) (x1 : Vec F S512x4096 .bf16) (x2 : Vec F S4096 .f32) (x3 : Vec F S4096x2048 .bf16) (x4 : Vec F S2048 .f32) :
    sout0_A c i arg2 harg2 arg3 harg3 arg4 harg4 arg5 harg5 arg6 harg6 arg7 harg7 arg8 harg8 hc0 hc1 x0 x1 x2 x3 x4 = k0_pay2 x0 k0_pay1 x1 := by
  have hz2 := hz2_0; have hz1 := hz1_0
  unfold sout0_A
  rw [View.read_writes_eq_canon _ _ _ (scover0_A c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x4096) hz2, View.readCov_unit_zero (S := S512x4096) _ hz2]
  simp only [View.readAt_eq_ld, harg2.read_unread, harg3.read_unread, harg4.read_unread, harg5.read_unread, harg6.read_unread, harg8.read_unread, View.ld_unit_zero (S := S512x512) hz2, View.ld_unit_zero (S := S512x4096) hz2, View.ld_unit_zero (S := S4096x2048) hz2, View.ld_unit_zero (S := S512x2048) hz2, View.ld_unit_zero (S := S4096) hz1, View.ld_unit_zero (S := S2048) hz1]

/-- A last step leaves in the accumulator what a middle step does, -/
theorem sout0_C_eq (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : condL0 i) (x0 : Vec F S512x512 .f32) (x1 : Vec F S512x4096 .bf16) (x2 : Vec F S4096 .f32) (x3 : Vec F S4096x2048 .bf16) (x4 : Vec F S2048 .f32) (xs : Vec F S512x4096 .f32) :
    sout0_C c i arg2 harg2 arg3 harg3 arg4 harg4 arg5 harg5 arg6 harg6 arg7 harg7 arg8 harg8 hc0 hc1 x0 x1 x2 x3 x4 xs = k0_pay2 x0 xs x1 := by
  have hz2 := hz2_0; have hz1 := hz1_0
  unfold sout0_C
  rw [View.read_writes_eq_canon _ _ _ (scover0_C c i arg2 harg2 arg3 harg3 arg4 harg4 arg5 harg5 arg6 harg6 arg7 harg7 arg8 harg8 hc0 hc1 x0 x1 x2 x3 x4 xs)]
  unfold kernelRun0_C
  dsimp only
  sl_unfold_words
  rw [View.canon_unit_zero hz2]
  simp only [View.readAt_eq_ld, harg2.read_unread, harg3.read_unread, harg4.read_unread, harg5.read_unread, harg6.read_unread, harg8.read_unread, View.ld_unit_zero (S := S512x512) hz2, View.ld_unit_zero (S := S512x4096) hz2, View.ld_unit_zero (S := S4096x2048) hz2, View.ld_unit_zero (S := S512x2048) hz2, View.ld_unit_zero (S := S4096) hz1, View.ld_unit_zero (S := S2048) hz1]

/-- and in the result buffer the second layer of the finished accumulator. -/
theorem out0_C_eq (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x2048 .bf16) (harg5 : arg5.IsWhole) (arg6 : Memref sig .tc .vmem S2048 .f32) (harg6 : arg6.IsWhole) (arg7 : Memref sig .tc .vmem S512x2048 .f32) (harg7 : arg7.IsWhole) (arg8 : Memref sig .tc .vmem S512x4096 .f32) (harg8 : arg8.IsWhole) (hc0 : ¬condF0 i) (hc1 : condL0 i) (x0 : Vec F S512x512 .f32) (x1 : Vec F S512x4096 .bf16) (x2 : Vec F S4096 .f32) (x3 : Vec F S4096x2048 .bf16) (x4 : Vec F S2048 .f32) (xs : Vec F S512x4096 .f32) :
    out0_C c i arg2 harg2 arg3 harg3 arg4 harg4 arg5 harg5 arg6 harg6 arg7 harg7 arg8 harg8 hc0 hc1 x0 x1 x2 x3 x4 xs = k0_pay3 (k0_pay2 x0 xs x1) x2 x3 x4 := by
  have hz2 := hz2_0; have hz1 := hz1_0
  unfold out0_C
  rw [View.read_writes_eq_canon _ _ _ (cover0_C c i arg2 harg2 arg3 harg3 arg4 harg4 arg5 harg5 arg6 harg6 arg7 harg7 arg8 harg8 hc0 hc1 x0 x1 x2 x3 x4 xs)]
  unfold kernelRun0_C
  dsimp only
  sl_unfold_words
  rw [View.canon_unit_zero hz2, View.readCov_unit_zero (S := S512x4096) _ hz2]
  simp only [View.readAt_eq_ld, harg2.read_unread, harg3.read_unread, harg4.read_unread, harg5.read_unread, harg6.read_unread, harg8.read_unread, View.ld_unit_zero (S := S512x512) hz2, View.ld_unit_zero (S := S512x4096) hz2, View.ld_unit_zero (S := S4096x2048) hz2, View.ld_unit_zero (S := S512x2048) hz2, View.ld_unit_zero (S := S4096) hz1, View.ld_unit_zero (S := S2048) hz1]

end Cert.KernelIdeal.Mlp

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibDenseLayer.lean ====
/-
  A dense layer and the gated activation, as whole-array functions over the extended reals.

  For a [P, K] array x, a [K, Q] array W and a row b of length Q the dense layer is
      dense x W b (p, q) = (∑ k, x (p, k) · W (k, q)) + b q,
  and the activation is y ↦ y · σ(y) with σ y = 1 / (1 + e^(-y)) (the logistic function, with its limits 0 and 1 at
  the two infinities).  A kernel spells the layer as a matrix product of the operands rounded to bf16, accumulated
  into zero, plus the row broadcast of a [1, Q] bias block; a host program spells it as a general dot product plus
  two broadcasts of a length-Q bias.  At the ideal instance a rounding is the identity and both products are the
  exact sum, so both spellings ARE `dense`.  Likewise the kernel's x · logistic x and the host's
  x · (1 / (1 + exp (-x))) are both the activation.

  An entry (p, q) of a layer depends on row p of x only: `dense_congr` and `mlp_congr` say so, which is what lets
  a block of rows be computed from a block of rows.
-/
import Idealize.ShloMosaic.Lib.ValueIdx
import Idealize.ShloMosaic.Lib.Pipeline.Value
import Idealize.ShloMosaic.PureOps.Ideal.Laws
import proofs.«100102_j54099408060868_1_alg».proof.Proof.LibPlainDot

noncomputable section

namespace DenseLayer

open Idealize.ShloMosaic Idealize.ShloMosaic.ValueIdx

variable {P P' K Q R : Nat}

/-- x · W + b, entry by entry. -/
def dense (x : (⟨2, ![P, K]⟩ : Shape).Idx → EReal) (W : (⟨2, ![K, Q]⟩ : Shape).Idx → EReal) (b : Fin Q → EReal) :
    (⟨2, ![P, Q]⟩ : Shape).Idx → EReal :=
  fun i => (∑ k : Fin K, x (ix2 (n0 := P) (i 0) k) * W (ix2 k (n1 := Q) (i 1))) + b (i 1)

theorem dense_ix2 (x : (⟨2, ![P, K]⟩ : Shape).Idx → EReal) (W : (⟨2, ![K, Q]⟩ : Shape).Idx → EReal) (b : Fin Q → EReal)
    (p : Fin P) (q : Fin Q) : dense x W b (ix2 p q) = (∑ k : Fin K, x (ix2 p k) * W (ix2 k q)) + b q := rfl

/-- The activation y · σ(y). -/
def act (y : EReal) : EReal := y * Ideal.logistic y

/-- The activation applied to every entry. -/
def actArr {s : Shape} (y : s.Idx → EReal) : s.Idx → EReal := fun i => act (y i)

/-- Two layers with the activation between them. -/
def mlp (x : (⟨2, ![P, K]⟩ : Shape).Idx → EReal) (W : (⟨2, ![K, Q]⟩ : Shape).Idx → EReal) (b : Fin Q → EReal)
    (W' : (⟨2, ![Q, R]⟩ : Shape).Idx → EReal) (b' : Fin R → EReal) : (⟨2, ![P, R]⟩ : Shape).Idx → EReal :=
  dense (actArr (dense x W b)) W' b'

/-- Entry (p, q) of a layer reads row p of its input, column q of its weights and entry q of its bias, and nothing else. -/
theorem dense_congr {x : (⟨2, ![P, K]⟩ : Shape).Idx → EReal} {x' : (⟨2, ![P', K]⟩ : Shape).Idx → EReal}
    {W W' : (⟨2, ![K, Q]⟩ : Shape).Idx → EReal} {b b' : Fin Q → EReal} {p : Fin P} {p' : Fin P'} {q : Fin Q}
    (hx : ∀ k, x (ix2 p k) = x' (ix2 p' k)) (hW : ∀ k, W (ix2 k q) = W' (ix2 k q)) (hb : b q = b' q) :
    dense x W b (ix2 p q) = dense x' W' b' (ix2 p' q) := by
  rw [dense_ix2, dense_ix2, hb]
  exact congrArg (· + b' q) (Finset.sum_congr rfl fun k _ => by rw [hx k, hW k])

/-- The same for two layers: entry (p, r) reads row p of the input. -/
theorem mlp_congr {x : (⟨2, ![P, K]⟩ : Shape).Idx → EReal} {x' : (⟨2, ![P', K]⟩ : Shape).Idx → EReal}
    {W W₀ : (⟨2, ![K, Q]⟩ : Shape).Idx → EReal} {b b₀ : Fin Q → EReal}
    {W' W₀' : (⟨2, ![Q, R]⟩ : Shape).Idx → EReal} {b' b₀' : Fin R → EReal} {p : Fin P} {p' : Fin P'} {r : Fin R}
    (hx : ∀ k, x (ix2 p k) = x' (ix2 p' k)) (hW : ∀ k q, W (ix2 k q) = W₀ (ix2 k q)) (hb : ∀ q, b q = b₀ q)
    (hW' : ∀ q, W' (ix2 q r) = W₀' (ix2 q r)) (hb' : b' r = b₀' r) :
    mlp x W b W' b' (ix2 p r) = mlp x' W₀ b₀ W₀' b₀' (ix2 p' r) :=
  dense_congr (fun q => congrArg act (dense_congr hx (fun k => hW k q) (hb q))) hW' hb'

/-- The float word of 1.0 is the real number one. -/
theorem ofBits_one : Ideal.ofBits .f32 0x3F800000#32 = 1 := by
  simp [Ideal.ofBits, Ideal.ieee, -EReal.coe_mul]; norm_num

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING of a layer: the product of the operands rounded to bf16, accumulated into zero, plus the row
    broadcast of a [1, Q] bias block. -/
theorem kernel_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hsc : (⟨2, ![1, Q]⟩ : Shape).ShapeCasts ⟨2, ![1, Q]⟩)
    (hbc : (⟨2, ![1, Q]⟩ : Shape).Broadcasts ⟨2, ![P, Q]⟩) :
    addf (matmul d none (truncf .bf16 x hr) (truncf .bf16 W hr) (constant ⟨2, ![P, Q]⟩ .f32 0x00000000#32))
      (broadcastTo ⟨2, ![P, Q]⟩ (shapeCast ⟨2, ![1, Q]⟩ b hsc) hbc)
    = dense x W (fun q => b (ix2 (0 : Fin 1) q)) := by
  funext j
  obtain ⟨p, q, rfl⟩ : ∃ (p : Fin P) (q : Fin Q), j = ix2 p q := ⟨j 0, j 1, eq_ix2 j⟩
  rw [shapeCast_self]
  show FloatOps.matmul d none (truncf .bf16 x hr) (truncf .bf16 W hr) (constant ⟨2, ![P, Q]⟩ .f32 0x00000000#32) (ix2 p q)
      + broadcastTo ⟨2, ![P, Q]⟩ b hbc (ix2 p q) = _
  rw [PlainDot.matmul_zero_apply hd, broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)]
  rfl

/-- THE HOST'S SPELLING of a layer: the general dot product plus a length-Q bias broadcast to [1, Q] and then to [P, Q]. -/
theorem host_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (Host.dotGeneral d none x W) (broadcastInDim ⟨2, ![P, Q]⟩ ![0, 1] h2 (broadcastInDim ⟨2, ![1, Q]⟩ ![1] h1 b))
    = dense x W (fun q => b (ix1 q)) := by
  funext j
  obtain ⟨p, q, rfl⟩ : ∃ (p : Fin P) (q : Fin Q), j = ix2 p q := ⟨j 0, j 1, eq_ix2 j⟩
  show FloatOps.dotGeneral d none .single x W (ix2 p q)
      + broadcastInDim ⟨2, ![P, Q]⟩ ![0, 1] h2 (broadcastInDim ⟨2, ![1, Q]⟩ ![1] h1 b) (ix2 p q) = _
  rw [PlainDot.dotGeneral_apply hd, broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q),
    broadcastInDim_apply ![1] h1 b (ix2 (0 : Fin 1) q) (ix1 q) (fun a => match a with
    | ⟨0, _⟩ => by show q.val = if Q = 1 then 0 else q.val; exact row_coord q)]
  rfl

/-- THE KERNEL'S SPELLING of the activation: y times the logistic of y. -/
theorem kernel_act {s : Shape} (y : FVec Ideal s .f32) : mulf y (logistic y) = actArr y := rfl

/-- THE HOST'S SPELLING of the activation: y times the quotient of one by one plus the exponential of minus y. -/
theorem host_act {s : Shape} (y : FVec Ideal s .f32) (h : (⟨0, ![]⟩ : Shape).BroadcastsInDim s ![]) :
    mulf y (Host.divf (broadcastInDim s ![] h (constant (F := Ideal) ⟨0, ![]⟩ .f32 0x3F800000#32))
      (addf (broadcastInDim s ![] h (constant (F := Ideal) ⟨0, ![]⟩ .f32 0x3F800000#32)) (Host.exp (Host.negf y))))
    = actArr y := by
  funext i
  have one : broadcastInDim s ![] h (constant (F := Ideal) ⟨0, ![]⟩ .f32 0x3F800000#32) i = (1 : EReal) :=
    (broadcastInDim_apply ![] h _ i ix0 (fun a => a.elim0)).trans ofBits_one
  show y i * Ideal.div (broadcastInDim s ![] h (constant (F := Ideal) ⟨0, ![]⟩ .f32 0x3F800000#32) i)
      (broadcastInDim s ![] h (constant (F := Ideal) ⟨0, ![]⟩ .f32 0x3F800000#32) i + Ideal.exp (-(y i))) = y i * Ideal.logistic (y i)
  rw [one]
  rfl

end DenseLayer

end
-- ==== Proof.LibRowBroadcast.lean ====
/-
  Reading a row vector that is laid along the lanes at an index.

  A vector `[b]` cast to a one-row array `[1, b]` holds, at `(0, k)`, the vector's entry `k`; such a row broadcast over `a` rows,
  `[1, b] → [a, b]`, holds at `(r, k)` the row's entry `k`, whatever the row number `r`.  Each lemma reads one of these at an index
  written with literal coordinates.
-/
import Idealize.ShloMosaic.Lib.ValueIdx
import Idealize.ShloMosaic.Lib.ValueLayout
import Idealize.ShloMosaic.Lib.Pipeline.Value

noncomputable section

namespace RowBroadcast

open Idealize.ShloMosaic Idealize.ShloMosaic.ValueIdx

variable {α : Type} {a b : ℕ}

/-- A vector `[b]` cast to a row `[1, b]` reads, at `(u, k)`, the vector at `k`. -/
theorem shapeCast_b_1b_apply (x : (⟨1, ![b]⟩ : Shape).Idx → α) (h : (⟨1, ![b]⟩ : Shape).ShapeCasts ⟨2, ![1, b]⟩)
    (u : Fin 1) (k : Fin b) : shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-- A row `[1, b]` broadcast over `a` rows reads, at `(r, k)`, the row at `k`. -/
theorem broadcastTo_1b_ab_apply (v : (⟨2, ![1, b]⟩ : Shape).Idx → α) (h : (⟨2, ![1, b]⟩ : Shape).Broadcasts ⟨2, ![a, b]⟩)
    (r : Fin a) (k : Fin b) : broadcastTo ⟨2, ![a, b]⟩ v h (ix2 r k) = v (ix2 (0 : Fin 1) k) := by
  refine broadcastTo_apply v h (ix2 r k) (ix2 (0 : Fin 1) k) fun ax => ?_
  match ax with
  | ⟨0, _⟩ => rfl
  | ⟨1, _⟩ =>
    show k.val = if b = 1 then 0 else k.val
    split
    · have := k.isLt; omega
    · rfl

end RowBroadcast

end
-- ==== Proof.MlpSpec.lean ====
/-
  A two-layer network with the hyperbolic tangent between the layers, as one whole-array function over the extended
  reals, and the one fact about sums that a product accumulated block by block along its contracted axis needs.

      mlp2 x W b W' b' = (tanh (x · W + b)) · W' + b'          (entry by entry; `dense` is x · W + b)

  The (r, q) entry of x · W is a sum of K products. Numbering the products by naturals, the sum of the first n + B of
  them is the sum of the first n plus the next B: a kernel that adds B products at a time to an accumulator holds,
  after each step, the partial sum; after the last step, the whole. Sums of extended reals are reassociated freely
  (addition there is commutative and associative), so nothing about finiteness is asked.
-/
import Idealize.ShloMosaic.Lib.ValueIdx
import Idealize.ShloMosaic.Lib.Pipeline.Value
import Idealize.ShloMosaic.PureOps.Ideal.Laws
import proofs.«100102_j54099408060868_1_alg».proof.Proof.LibPlainDot
import proofs.«100102_j54099408060868_1_alg».proof.Proof.LibDenseLayer
import proofs.«100102_j54099408060868_1_alg».proof.Proof.LibRowBroadcast

noncomputable section

namespace MlpSpec

open Idealize.ShloMosaic Idealize.ShloMosaic.ValueIdx DenseLayer

variable {P K Q R : Nat}

/-- The hyperbolic tangent of every entry. -/
def tanhArr {s : Shape} (y : s.Idx → EReal) : s.Idx → EReal := fun i => Ideal.tanh (y i)

/-- Two layers with the hyperbolic tangent between them. -/
def mlp2 (x : (⟨2, ![P, K]⟩ : Shape).Idx → EReal) (W : (⟨2, ![K, Q]⟩ : Shape).Idx → EReal) (b : Fin Q → EReal)
    (W' : (⟨2, ![Q, R]⟩ : Shape).Idx → EReal) (b' : Fin R → EReal) : (⟨2, ![P, R]⟩ : Shape).Idx → EReal :=
  dense (tanhArr (dense x W b)) W' b'

/-- Product number `j` of the (r, q) entry of x · W; zero past the contracted axis. -/
def term (x : (⟨2, ![P, K]⟩ : Shape).Idx → EReal) (W : (⟨2, ![K, Q]⟩ : Shape).Idx → EReal) (r : Fin P) (q : Fin Q) (j : ℕ) : EReal :=
  if h : j < K then x (ix2 r ⟨j, h⟩) * W (ix2 ⟨j, h⟩ q) else 0

/-- The sum of the first `n` products of the (r, q) entry. -/
def part (x : (⟨2, ![P, K]⟩ : Shape).Idx → EReal) (W : (⟨2, ![K, Q]⟩ : Shape).Idx → EReal) (r : Fin P) (q : Fin Q) (n : ℕ) : EReal :=
  ∑ j ∈ Finset.range n, term x W r q j

theorem part_zero (x : (⟨2, ![P, K]⟩ : Shape).Idx → EReal) (W : (⟨2, ![K, Q]⟩ : Shape).Idx → EReal) (r : Fin P) (q : Fin Q) :
    part x W r q 0 = 0 := by unfold part; rw [Finset.range_zero, Finset.sum_empty]

/-- The first n + B products are the first n and the next B. -/
theorem part_add (x : (⟨2, ![P, K]⟩ : Shape).Idx → EReal) (W : (⟨2, ![K, Q]⟩ : Shape).Idx → EReal) (r : Fin P) (q : Fin Q) (n B : ℕ) :
    part x W r q (n + B) = part x W r q n + ∑ j : Fin B, term x W r q (n + j.val) := by
  unfold part; rw [Finset.sum_range_add]
  exact congrArg _ (Finset.sum_range fun j => term x W r q (n + j))

/-- All K products are the entry of x · W. -/
theorem part_all (x : (⟨2, ![P, K]⟩ : Shape).Idx → EReal) (W : (⟨2, ![K, Q]⟩ : Shape).Idx → EReal) (r : Fin P) (q : Fin Q) :
    part x W r q K = ∑ k : Fin K, x (ix2 r k) * W (ix2 k q) := by
  unfold part; rw [Finset.sum_range]
  exact Finset.sum_congr rfl fun k _ => by unfold term; rw [dif_pos k.isLt]

/-- A block of B consecutive products, read off a block of x and a block of W that sit at offset n of the contracted axis. -/
theorem block_sum {Pb B : ℕ} (xb : (⟨2, ![Pb, B]⟩ : Shape).Idx → EReal) (wb : (⟨2, ![B, Q]⟩ : Shape).Idx → EReal)
    (x : (⟨2, ![P, K]⟩ : Shape).Idx → EReal) (W : (⟨2, ![K, Q]⟩ : Shape).Idx → EReal) (r : Fin P) (p : Fin Pb) (q : Fin Q) (n : ℕ)
    (hx : ∀ j : Fin B, ∃ h : n + j.val < K, xb (ix2 p j) = x (ix2 r ⟨n + j.val, h⟩) ∧ wb (ix2 j q) = W (ix2 ⟨n + j.val, h⟩ q)) :
    ∑ j : Fin B, xb (ix2 p j) * wb (ix2 j q) = ∑ j : Fin B, term x W r q (n + j.val) :=
  Finset.sum_congr rfl fun j _ => by obtain ⟨h, e1, e2⟩ := hx j; unfold term; rw [dif_pos h, e1, e2]

end MlpSpec

end
-- ==== Proof.KiPay0.lean ====
import proofs.«100102_j54099408060868_1_alg».proof.Proof.KiPieces0
import proofs.«100102_j54099408060868_1_alg».proof.Proof.MlpSpec
import Idealize.ShloMosaic.Lib.Pipeline.Value
import Idealize.ShloMosaic.Lib.ValueIdx
import Idealize.ShloMosaic.PureOps.Ideal.Laws

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx DenseLayer MlpSpec

/-! # The array region 0 leaves, over the extended reals

Rows come in blocks of 512; the first product's contracted axis in 8 steps of 512. Point t of the grid's order is
row block t / 8, step t % 8. After step s the accumulator's entry (p, h) is the sum of the first 512·(s+1)
products of entry (row, h) of x · W; after the last step it is the whole entry, and the stored block is the second
layer of it: the region's array is the two-layer network of the arrays it was entered with. -/

section
variable (V : (c : Dev nD) → (b : Ref sig .tc) → Buf (Elt Ideal) ((c : Thread nD τ).loc b))

/-- The arrays the region reads, as the region finds them. -/
abbrev aX0 (c : Dev nD) : S8192x4096.Idx → EReal := V c main_arg0
abbrev aW0 (c : Dev nD) : S4096x4096.Idx → EReal := V c main_v0
abbrev ab0 (c : Dev nD) : Fin 4096 → EReal := fun h => (V c main_arg3 : S4096.Idx → EReal) (ix1 h)
abbrev aW'0 (c : Dev nD) : S4096x2048.Idx → EReal := V c main_v1
abbrev ab'0 (c : Dev nD) : Fin 2048 → EReal := fun q => (V c main_arg5 : S2048.Idx → EReal) (ix1 q)

/-- The two-layer network of them. -/
def G0 (c : Dev nD) : S8192x2048.Idx → EReal :=
  mlp2 (P := 8192) (K := 4096) (Q := 4096) (R := 2048) (aX0 V c) (aW0 V c) (ab0 V c) (aW'0 V c) (ab'0 V c)

/-! ## Where the blocks sit -/

theorem idx0 : ∀ t : Fin cfg0.N,
    (win0_0.index t (0 : Fin 2) = t.val / 8 ∧ win0_0.index t (1 : Fin 2) = t.val % 8)
    ∧ (win0_1.index t (0 : Fin 2) = t.val % 8 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 2) = t.val / 8 ∧ win0_5.index t (1 : Fin 2) = 0) :=
  (by decide +kernel : ∀ t : Fin grid0.N, _)

theorem blk0_0 (c : Dev nD) (t : Fin cfg0.N) (p : Fin 512) (j : Fin 512) (r : Fin 8192) (k : Fin 4096)
    (hr : r.val = 512 * (t.val / 8) + p.val) (hk : k.val = 512 * (t.val % 8) + j.val) :
    (iblk0 V c 0 t : S512x512.Idx → EReal) (ix2 p j) = aX0 V c (ix2 r k) := by
  unfold iblk0
  rw [View.read_apply]
  show V c main_arg0 _ = V c main_arg0 _
  refine congrArg (V c main_arg0) (funext fun a => Fin.ext ?_)
  obtain ⟨⟨e0, e1⟩, -⟩ := idx0 t
  match a with
  | ⟨0, _⟩ => show win0_0.index t (0 : Fin 2) * 512 + 1 * p.val = r.val; rw [e0, hr]; omega
  | ⟨1, _⟩ => show win0_0.index t (1 : Fin 2) * 512 + 1 * j.val = k.val; rw [e1, hk]; omega

theorem blk0_1 (c : Dev nD) (t : Fin cfg0.N) (j : Fin 512) (h : Fin 4096) (k : Fin 4096)
    (hk : k.val = 512 * (t.val % 8) + j.val) :
    (iblk0 V c 1 t : S512x4096.Idx → EReal) (ix2 j h) = aW0 V c (ix2 k h) := by
  unfold iblk0
  rw [View.read_apply]
  show V c main_v0 _ = V c main_v0 _
  refine congrArg (V c main_v0) (funext fun a => Fin.ext ?_)
  obtain ⟨-, ⟨e0, e1⟩, -⟩ := idx0 t
  match a with
  | ⟨0, _⟩ => show win0_1.index t (0 : Fin 2) * 512 + 1 * j.val = k.val; rw [e0, hk]; omega
  | ⟨1, _⟩ => show win0_1.index t (1 : Fin 2) * 4096 + 1 * h.val = h.val; rw [e1]; omega

theorem blk0_2 (c : Dev nD) (t : Fin cfg0.N) (h : Fin 4096) :
    (iblk0 V c 2 t : S4096.Idx → EReal) (ix1 h) = ab0 V c h := by
  unfold iblk0
  rw [View.read_apply]
  show V c main_arg3 _ = V c main_arg3 _
  refine congrArg (V c main_arg3) (funext fun a => Fin.ext ?_)
  obtain ⟨-, -, e0, -⟩ := idx0 t
  match a with
  | ⟨0, _⟩ => show win0_2.index t (0 : Fin 1) * 4096 + 1 * h.val = h.val; rw [e0]; omega

theorem blk0_3 (c : Dev nD) (t : Fin cfg0.N) (h : Fin 4096) (q : Fin 2048) :
    (iblk0 V c 3 t : S4096x2048.Idx → EReal) (ix2 h q) = aW'0 V c (ix2 h q) := by
  unfold iblk0
  rw [View.read_apply]
  show V c main_v1 _ = V c main_v1 _
  refine congrArg (V c main_v1) (funext fun a => Fin.ext ?_)
  obtain ⟨-, -, -, ⟨e0, e1⟩, -⟩ := idx0 t
  match a with
  | ⟨0, _⟩ => show win0_3.index t (0 : Fin 2) * 4096 + 1 * h.val = h.val; rw [e0]; omega
  | ⟨1, _⟩ => show win0_3.index t (1 : Fin 2) * 2048 + 1 * q.val = q.val; rw [e1]; omega

theorem blk0_4 (c : Dev nD) (t : Fin cfg0.N) (q : Fin 2048) :
    (iblk0 V c 4 t : S2048.Idx → EReal) (ix1 q) = ab'0 V c q := by
  unfold iblk0
  rw [View.read_apply]
  show V c main_arg5 _ = V c main_arg5 _
  refine congrArg (V c main_arg5) (funext fun a => Fin.ext ?_)
  obtain ⟨-, -, -, -, e0, -⟩ := idx0 t
  match a with
  | ⟨0, _⟩ => show win0_4.index t (0 : Fin 1) * 2048 + 1 * q.val = q.val; rw [e0]; omega

/-! ## The body's arithmetic at an entry -/

theorem plain0_1 : PlainDot.IsPlain dot_S512x512_S512x4096_S512x4096_1_0_0_1_n_n := ⟨rfl, rfl, rfl, rfl, rfl, rfl⟩
theorem plain0_2 : PlainDot.IsPlain dot_S512x4096_S4096x2048_S512x2048_1_0_0_1_n_n := ⟨rfl, rfl, rfl, rfl, rfl, rfl⟩

/-- The cleared accumulator is zero everywhere. -/
theorem pay1_apply0 (p : Fin 512) (h : Fin 4096) : (k0_pay1 (F := Ideal) : S512x4096.Idx → EReal) (ix2 p h) = 0 := by
  unfold k0_pay1
  (try dsimp only)
  rw [shapeCast_self]
  exact Ideal.ofBits_zero_f32

/-- A step adds the block's 512 products to what the accumulator held. -/
theorem pay2_apply0 (x0 : Vec Ideal S512x512 .f32) (xs : Vec Ideal S512x4096 .f32) (x1 : Vec Ideal S512x4096 .bf16) (p : Fin 512) (h : Fin 4096) :
    (k0_pay2 (F := Ideal) x0 xs x1 : S512x4096.Idx → EReal) (ix2 p h)
      = (xs : S512x4096.Idx → EReal) (ix2 p h) + ∑ j : Fin 512, (x0 : S512x512.Idx → EReal) (ix2 p j) * (x1 : S512x4096.Idx → EReal) (ix2 j h) := by
  unfold k0_pay2
  (try dsimp only)
  simp only [shapeCast_self]
  exact congrArg ((xs : S512x4096.Idx → EReal) (ix2 p h) + ·) (PlainDot.matmul_zero_apply plain0_1 _ _ p h)

/-- The last step's stored block: the second layer of the hyperbolic tangent of the accumulator plus the first bias. -/
theorem pay3_apply0 (acc : Vec Ideal S512x4096 .f32) (b1 : Vec Ideal S4096 .f32) (w2 : Vec Ideal S4096x2048 .bf16) (b2 : Vec Ideal S2048 .f32) (p : Fin 512) (q : Fin 2048) :
    (k0_pay3 (F := Ideal) acc b1 w2 b2 : S512x2048.Idx → EReal) (ix2 p q)
      = (∑ h : Fin 4096, Ideal.tanh ((acc : S512x4096.Idx → EReal) (ix2 p h) + (b1 : S4096.Idx → EReal) (ix1 h)) * (w2 : S4096x2048.Idx → EReal) (ix2 h q))
        + (b2 : S2048.Idx → EReal) (ix1 q) := by
  unfold k0_pay3
  (try dsimp only)
  simp only [shapeCast_self]
  rw [addf_apply]
  simp only [matmul]
  rw [PlainDot.matmul_zero_apply plain0_2, RowBroadcast.broadcastTo_1b_ab_apply, RowBroadcast.shapeCast_b_1b_apply]
  refine congrArg (· + (b2 : S2048.Idx → EReal) (ix1 q)) (Finset.sum_congr rfl fun h _ => ?_)
  show Ideal.tanh ((acc : S512x4096.Idx → EReal) (ix2 p h) + broadcastTo S512x4096 (shapeCast _ b1 _) _ (ix2 p h)) * (w2 : S4096x2048.Idx → EReal) (ix2 h q) = _
  rw [RowBroadcast.broadcastTo_1b_ab_apply, RowBroadcast.shapeCast_b_1b_apply]

/-! ## The accumulator after each point -/

/-- The block's 512 products are products number 512·s … of the entry. -/
theorem step_sum0 (c : Dev nD) (t : Fin cfg0.N) (x0 : S512x512.Idx → EReal) (x1 : S512x4096.Idx → EReal)
    (hx0 : x0 = iblk0 V c 0 t) (hx1 : x1 = iblk0 V c 1 t) (p : Fin 512) (h : Fin 4096) (r : Fin 8192) (n0 : ℕ)
    (hr : r.val = 512 * (t.val / 8) + p.val) (hn0 : n0 = 512 * (t.val % 8)) :
    ∑ j : Fin 512, x0 (ix2 p j) * x1 (ix2 j h) = ∑ j : Fin 512, term (aX0 V c) (aW0 V c) r h (n0 + j.val) := by
  subst hx0 hx1
  have hmod : t.val % 8 < 8 := Nat.mod_lt _ (by decide)
  refine block_sum (P := 8192) (K := 4096) (Q := 4096) _ _ (aX0 V c) (aW0 V c) r p h n0 fun j => ?_
  have hj := j.isLt
  have hlt : n0 + j.val < 4096 := by omega
  exact ⟨hlt, blk0_0 V c t p j r ⟨n0 + j.val, hlt⟩ hr (by show n0 + j.val = _; omega),
    blk0_1 V c t j h ⟨n0 + j.val, hlt⟩ (by show n0 + j.val = _; omega)⟩

/-- One step at an entry: what the accumulator held plus the block's products. -/
theorem step_apply0 (c : Dev nD) (t : Fin cfg0.N) (xs : Vec Ideal S512x4096 .f32) (p : Fin 512) (h : Fin 4096) (r : Fin 8192) (n0 : ℕ)
    (hr : r.val = 512 * (t.val / 8) + p.val) (hn0 : n0 = 512 * (t.val % 8)) :
    (k0_pay2 (F := Ideal) (iblk0 V c 0 t) xs (iblk0 V c 1 t) : S512x4096.Idx → EReal) (ix2 p h)
      = (xs : S512x4096.Idx → EReal) (ix2 p h) + ∑ j : Fin 512, term (aX0 V c) (aW0 V c) r h (n0 + j.val) :=
  (pay2_apply0 (iblk0 V c 0 t) xs (iblk0 V c 1 t) p h).trans
    (congrArg ((xs : S512x4096.Idx → EReal) (ix2 p h) + ·) (step_sum0 V c t (iblk0 V c 0 t) (iblk0 V c 1 t) rfl rfl p h r n0 hr hn0))

end

end Cert.KernelIdeal.Mlp

end
-- ==== Proof.KiValue0.lean ====
import proofs.«100102_j54099408060868_1_alg».proof.Proof.KiPay0

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx DenseLayer MlpSpec

section
variable (V : (c : Dev nD) → (b : Ref sig .tc) → Buf (Elt Ideal) ((c : Thread nD τ).loc b))

/-! ## The accumulator after each point -/

/-- After a first step the accumulator's entry is the sum of the entry's first 512 products. -/
theorem acc_first0 (c : Dev nD) (t : Fin cfg0.N) (h0 : t.val % 8 = 0) (p : Fin 512) (h : Fin 4096) (r : Fin 8192)
    (hr : r.val = 512 * (t.val / 8) + p.val) :
    ((outsAt0 V c t.val t.isLt).2 : S512x4096.Idx → EReal) (ix2 p h) = part (aX0 V c) (aW0 V c) r h (512 * (t.val % 8 + 1)) := by
  have e := congrArg Prod.snd (outsAt0_A V c t h0)
  dsimp only at e
  rw [sout0_A_eq] at e
  rw [e]
  refine (step_apply0 V c t (k0_pay1 (F := Ideal)) p h r 0 hr (by omega)).trans ?_
  rw [pay1_apply0, zero_add, show 512 * (t.val % 8 + 1) = 0 + 512 from by omega, part_add, part_zero, zero_add]

/-- After a later step it is what the step before left plus the next 512 products. -/
theorem acc_next0 (c : Dev nD) (t : Fin cfg0.N) (h0 : ¬t.val % 8 = 0) (p : Fin 512) (h : Fin 4096) (r : Fin 8192)
    (hr : r.val = 512 * (t.val / 8) + p.val)
    (hprev : ((outsAt0 V c (t.val - 1) (Nat.lt_of_le_of_lt (Nat.sub_le _ _) t.isLt)).2 : S512x4096.Idx → EReal) (ix2 p h) = part (aX0 V c) (aW0 V c) r h (512 * (t.val % 8))) :
    ((outsAt0 V c t.val t.isLt).2 : S512x4096.Idx → EReal) (ix2 p h) = part (aX0 V c) (aW0 V c) r h (512 * (t.val % 8 + 1)) := by
  have hgoal : part (aX0 V c) (aW0 V c) r h (512 * (t.val % 8 + 1))
      = part (aX0 V c) (aW0 V c) r h (512 * (t.val % 8)) + ∑ j : Fin 512, term (aX0 V c) (aW0 V c) r h (512 * (t.val % 8) + j.val) := by
    rw [show 512 * (t.val % 8 + 1) = 512 * (t.val % 8) + 512 from by omega, part_add]
  by_cases h1 : t.val % 8 = 7
  · have e := congrArg Prod.snd (outsAt0_C V c t h0 h1)
    dsimp only at e
    rw [sout0_C_eq] at e
    rw [e]
    refine (step_apply0 V c t (outsAt0 V c (t.val - 1) (Nat.lt_of_le_of_lt (Nat.sub_le _ _) t.isLt)).2 p h r (512 * (t.val % 8)) hr rfl).trans ?_
    rw [hgoal]
    exact congrArg (· + _) hprev
  · have e := congrArg Prod.snd (outsAt0_B V c t h0 h1)
    dsimp only at e
    rw [sout0_B_eq] at e
    rw [e]
    refine (step_apply0 V c t (outsAt0 V c (t.val - 1) (Nat.lt_of_le_of_lt (Nat.sub_le _ _) t.isLt)).2 p h r (512 * (t.val % 8)) hr rfl).trans ?_
    rw [hgoal]
    exact congrArg (· + _) hprev

/-- After step s of its row block the accumulator's entry is the sum of the entry's first 512·(s+1) products. -/
theorem acc_inv0 (c : Dev nD) : ∀ (n : ℕ) (hn : n < cfg0.N) (p : Fin 512) (h : Fin 4096) (r : Fin 8192),
    r.val = 512 * (n / 8) + p.val →
    ((outsAt0 V c n hn).2 : S512x4096.Idx → EReal) (ix2 p h) = part (aX0 V c) (aW0 V c) r h (512 * (n % 8 + 1)) := by
  intro n
  induction n using Nat.strong_induction_on with
  | _ n ih =>
    intro hn p h r hr
    by_cases h0 : n % 8 = 0
    · exact acc_first0 V c ⟨n, hn⟩ h0 p h r hr
    · have hpos : n - 1 < n := by omega
      have hr' : r.val = 512 * ((n - 1) / 8) + p.val := by rw [hr]; omega
      have hp := ih (n - 1) hpos (Nat.lt_of_le_of_lt (Nat.sub_le _ _) hn) p h r hr'
      rw [show 512 * ((n - 1) % 8 + 1) = 512 * (n % 8) from by omega] at hp
      exact acc_next0 V c ⟨n, hn⟩ h0 p h r hr hp

/-! ## The block a last step stores, and the array the write-backs leave -/

theorem out_last0 (c : Dev nD) (t : Fin cfg0.N) (h1 : t.val % 8 = 7) (p : Fin 512) (q : Fin 2048) (r : Fin 8192)
    (hr : r.val = 512 * (t.val / 8) + p.val) :
    ((outsAt0 V c t.val t.isLt).1 : S512x2048.Idx → EReal) (ix2 p q) = G0 V c (ix2 r q) := by
  have h0 : ¬t.val % 8 = 0 := by omega
  have e1 := congrArg Prod.fst (outsAt0_C V c t h0 h1)
  dsimp only at e1
  rw [out0_C_eq] at e1
  have e2 := congrArg Prod.snd (outsAt0_C V c t h0 h1)
  dsimp only at e2
  rw [sout0_C_eq] at e2
  rw [e1, ← e2]
  refine (pay3_apply0 (outsAt0 V c t.val t.isLt).2 (iblk0 V c 2 t) (iblk0 V c 3 t) (iblk0 V c 4 t) p q).trans ?_
  unfold G0 mlp2
  rw [dense_ix2]
  refine congrArg₂ (· + ·) (Finset.sum_congr rfl fun h _ => ?_) (blk0_4 V c t q)
  rw [acc_inv0 V c t.val t.isLt p h r hr, blk0_2 V c t h, blk0_3 V c t h q,
    show 512 * (t.val % 8 + 1) = 4096 from by omega, part_all]
  unfold tanhArr
  rw [dense_ix2]

theorem mem_blk0 (t : Fin cfg0.N) (i : S8192x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v4).slice (win0_5.rect t)).set ↔ _
  rw [View.set_slice_whole, Rect.mem_set_unit]
  exact Iff.rfl

/-- What a write-back writes is its block of the network's array. -/
theorem flushed_eq0 (c : Dev nD) (t : Fin cfg0.N) (hf : (cfg0.win 5).flush t = true) :
    (dat0 V c).flushed 5 t = ((cfg0.win 5).blk t).view.read (Elt Ideal) (G0 V c) := by
  have h1 : t.val % 8 = 7 := (flush0_5 t).mp hf
  have hN : t.val < 128 := lt_of_lt_of_eq t.isLt N_0
  show (cfg0.win 5).cut (grid0.coords t) ((dat0 V c).after 5 t) = _
  rw [after0_5]
  funext j
  show ((outsAt0 V c t.val t.isLt).1 : S512x2048.Idx → EReal) j = G0 V c (((cfg0.win 5).blk t).view.emb j)
  have hj0 : (j 0).val < 512 := (j 0).isLt
  have hj1 : (j 1).val < 2048 := (j 1).isLt
  obtain ⟨-, -, -, -, -, ⟨e0, e1⟩⟩ := idx0 t
  have he : ((cfg0.win 5).blk t).view.emb j = ix2 (n0 := 8192) (n1 := 2048) ⟨512 * (t.val / 8) + (j 0).val, by omega⟩ ⟨(j 1).val, hj1⟩ := by
    funext a; apply Fin.ext
    match a with
    | ⟨0, _⟩ => show win0_5.index t (0 : Fin 2) * 512 + 1 * (j 0).val = 512 * (t.val / 8) + (j 0).val; rw [e0]; omega
    | ⟨1, _⟩ => show win0_5.index t (1 : Fin 2) * 2048 + 1 * (j 1).val = (j 1).val; rw [e1]; omega
  rw [he]
  exact (congrArg ((outsAt0 V c t.val t.isLt).1 : S512x2048.Idx → EReal) (eq_ix2 j)).trans (out_last0 V c t h1 (j 0) (j 1) _ rfl)

/-- The region's array after the run is the two-layer network of the arrays it was entered with. -/
theorem final0 (c : Dev nD) : (dat0 V c).arrAt 5 cfg0.N = G0 V c :=
  (dat0 V c).arrAt_eq_of_cover 5 (G0 V c) (flushed_eq0 V c) fun i => by
    have hi0 : (i 0).val < 8192 := (i 0).isLt
    have hi1 : (i 1).val < 2048 := (i 1).isLt
    have hN : cfg0.N = 128 := N_0
    let t : Fin cfg0.N := ⟨8 * ((i 0).val / 512) + 7, by rw [hN]; omega⟩
    have htv : t.val = 8 * ((i 0).val / 512) + 7 := rfl
    obtain ⟨-, -, -, -, -, ⟨e0, e1⟩⟩ := idx0 t
    refine ⟨t, (flush0_5 t).mpr (by rw [htv]; omega), ?_⟩
    rw [mem_blk0]
    intro a
    match a with
    | ⟨0, _⟩ => show win0_5.index t (0 : Fin 2) * 512 ≤ (i 0).val ∧ (i 0).val < win0_5.index t (0 : Fin 2) * 512 + 512; rw [e0, htv]; omega
    | ⟨1, _⟩ => show win0_5.index t (1 : Fin 2) * 2048 ≤ (i 1).val ∧ (i 1).val < win0_5.index t (1 : Fin 2) * 2048 + 2048; rw [e1]; omega

end

end Cert.KernelIdeal.Mlp

end
-- ==== Proof.KiCases1.lean ====
import proofs.«100102_j54099408060868_1_alg».proof.Proof.Gen.KernelIdeal.Launch
import proofs.«100102_j54099408060868_1_alg».proof.Proof.Gen.KernelIdeal.Skeleton
import proofs.«100102_j54099408060868_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel of region 1, one grid point at a time

The grid is (row block, step of the first product's contraction). At a point the body clears the accumulator if the
step is the first, adds the step's partial product to it, and at the last step applies the bias, the hyperbolic
tangent and the second product and stores the row block of the result. Three kinds of point occur: first step,
middle step, last step. -/

/-- The step is the first one of its row block. -/
abbrev condF1 (i : grid1.Coords) : Prop := (Scalar.cmpi .ne (Scalar.extui (Scalar.cmpi .eq (BitVec.ofNat 32 (i 1).val) 0#32)) 0#32) = 1#1
theorem hcondF1 : ∀ t : Fin cfg1.N, condF1 (grid1.coords t) ↔ t.val % 4 = 0 :=
  (by decide +kernel : ∀ t : Fin grid1.N, condF1 (grid1.coords t) ↔ t.val % 4 = 0)

/-- The step is the last one of its row block. -/
abbrev condL1 (i : grid1.Coords) : Prop := k1_cond2 i = 1#1
theorem hcondL1 : ∀ t : Fin cfg1.N, condL1 (grid1.coords t) ↔ t.val % 4 = 3 :=
  (by decide +kernel : ∀ t : Fin grid1.N, condL1 (grid1.coords t) ↔ t.val % 4 = 3)

/-! The input windows are never idle; the result window is idle, and not written back, except at a last step. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬condL1 (grid1.coords t) → cfg1.idle 5 (grid1.coords t) = true := by decide +kernel
theorem noFlush1_5 : ∀ t : Fin cfg1.N, ¬condL1 (grid1.coords t) → (cfg1.win 5).flush t = false := by decide +kernel
theorem liveAt1_5 : ∀ t : Fin cfg1.N, condL1 (grid1.coords t) → cfg1.idle 5 (grid1.coords t) = false := by decide +kernel

/-- A staging buffer of the result window, through which its contents are stated. -/
abbrev VO1 : View sig .tc .vmem S256x4096 .f32 := (Memref.whole cc1_stg5_0 : Memref sig .tc .vmem S256x4096 .f32).view
/-- Each window's current staging buffer at a point. -/
abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x4096 .f32 := win1_5.stage (cfg1.slots t 5)
abbrev hs1_5 (t : Fin cfg1.N) : (ms1_5 t).IsWhole := hstage1_5 ((cfg1.slots t 5).cast nbuf1_5)
/-- The accumulator: a buffer of the kernel's own, kept from one point to the next. -/
abbrev scM1 : Memref sig .tc .vmem S256x4096 .f32 := Memref.whole cc1_scratch0
abbrev VS1 : View sig .tc .vmem S256x4096 .f32 := scM1.view

set_option maxHeartbeats 4000000 in
/-- A first step that is not a last step: the accumulator, whatever it held, ends as the stores leave it; the inputs and
    the result buffer are handed back as found. -/
noncomputable def kernelRun1_A (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : condF1 i) (hc1 : ¬condL1 i)
    (x0 : Vec F S256x512 .f32) (x1 : Vec F S512x4096 .bf16) (x2 : Vec F S4096 .f32) (x3 : Vec F S4096x4096 .bf16) (x4 : Vec F S4096 .f32) :
    Σ' (L5 : List (View.Piece (Elt F) S256x4096 .f32)), { LS : List (View.Piece (Elt F) S256x4096 .f32) //
      ∀ (xi5 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__mlp2_kernel i arg2 harg2 arg3 harg3 arg4 harg4 arg5 harg5 arg6 harg6 arg7 harg7 arg8 harg8) K } := by
  refine ⟨[], ?_, fun xi5 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- A middle step: the accumulator, found at `xs`, ends as the stores leave it. -/
noncomputable def kernelRun1_B (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : ¬condL1 i)
    (x0 : Vec F S256x512 .f32) (x1 : Vec F S512x4096 .bf16) (x2 : Vec F S4096 .f32) (x3 : Vec F S4096x4096 .bf16) (x4 : Vec F S4096 .f32) (xs : Vec F S256x4096 .f32) :
    Σ' (L5 : List (View.Piece (Elt F) S256x4096 .f32)), { LS : List (View.Piece (Elt F) S256x4096 .f32) //
      ∀ (xi5 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__mlp2_kernel i arg2 harg2 arg3 harg3 arg4 harg4 arg5 harg5 arg6 harg6 arg7 harg7 arg8 harg8) K } := by
  refine ⟨[], ?_, fun xi5 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 4000000 in
/-- A last step: the accumulator, found at `xs`, and the result buffer, whatever it held, end as the stores leave them. -/
noncomputable def kernelRun1_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : condL1 i)
    (x0 : Vec F S256x512 .f32) (x1 : Vec F S512x4096 .bf16) (x2 : Vec F S4096 .f32) (x3 : Vec F S4096x4096 .bf16) (x4 : Vec F S4096 .f32) (xs : Vec F S256x4096 .f32) :
    Σ' (L5 : List (View.Piece (Elt F) S256x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__mlp2_kernel i arg2 harg2 arg3 harg3 arg4 harg4 arg5 harg5 arg6 harg6 arg7 harg7 arg8 harg8) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Mlp

end
-- ==== Proof.KiBody1.lean ====
import proofs.«100102_j54099408060868_1_alg».proof.Proof.KiCases1

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the contents of the core's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Contents nobody reads: what stands for the result buffer at a point that stores nothing into it. -/
def junkO1 : Vec F S256x4096 .f32 := VO1.read (Elt F) VO1.junk

/-! ## What each kind of point leaves in the accumulator and in the result buffer -/

theorem scover1_A (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : condF1 i) (hc1 : ¬condL1 i) (x0 : Vec F S256x512 .f32) (x1 : Vec F S512x4096 .bf16) (x2 : Vec F S4096 .f32) (x3 : Vec F S4096x4096 .bf16) (x4 : Vec F S4096 .f32) (y : S256x4096.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S256x4096.size (by sl_kernel_rfl) y
def sout1_A (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : condF1 i) (hc1 : ¬condL1 i) (x0 : Vec F S256x512 .f32) (x1 : Vec F S512x4096 .bf16) (x2 : Vec F S4096 .f32) (x3 : Vec F S4096x4096 .bf16) (x4 : Vec F S4096 .f32) : Vec F S256x4096 .f32 :=
  VS1.read (Elt F) (VS1.writes (Elt F) VS1.junk (kernelRun1_A c i arg2 harg2 arg3 harg3 arg4 harg4 arg5 harg5 arg6 harg6 arg7 harg7 arg8 harg8 hc0 hc1 x0 x1 x2 x3 x4).2.1)

theorem scover1_B (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : ¬condL1 i) (x0 : Vec F S256x512 .f32) (x1 : Vec F S512x4096 .bf16) (x2 : Vec F S4096 .f32) (x3 : Vec F S4096x4096 .bf16) (x4 : Vec F S4096 .f32) (xs : Vec F S256x4096 .f32) (y : S256x4096.Idx) :
    ∃ pc ∈ (kernelRun1_B c i arg2 harg2 arg3 harg3 arg4 harg4 arg5 harg5 arg6 harg6 arg7 harg7 arg8 harg8 hc0 hc1 x0 x1 x2 x3 x4 xs).2.1, y ∈ pc.1.set :=
  View.cover_of_tiledL (kernelRun1_B c i arg2 harg2 arg3 harg3 arg4 harg4 arg5 harg5 arg6 harg6 arg7 harg7 arg8 harg8 hc0 hc1 x0 x1 x2 x3 x4 xs).2.1 S256x4096.size (by sl_kernel_rfl) y
def sout1_B (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : ¬condL1 i) (x0 : Vec F S256x512 .f32) (x1 : Vec F S512x4096 .bf16) (x2 : Vec F S4096 .f32) (x3 : Vec F S4096x4096 .bf16) (x4 : Vec F S4096 .f32) (xs : Vec F S256x4096 .f32) : Vec F S256x4096 .f32 :=
  VS1.read (Elt F) (VS1.writes (Elt F) VS1.junk (kernelRun1_B c i arg2 harg2 arg3 harg3 arg4 harg4 arg5 harg5 arg6 harg6 arg7 harg7 arg8 harg8 hc0 hc1 x0 x1 x2 x3 x4 xs).2.1)

theorem cover1_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : condL1 i) (x0 : Vec F S256x512 .f32) (x1 : Vec F S512x4096 .bf16) (x2 : Vec F S4096 .f32) (x3 : Vec F S4096x4096 .bf16) (x4 : Vec F S4096 .f32) (xs : Vec F S256x4096 .f32) (y : S256x4096.Idx) :
    ∃ pc ∈ (kernelRun1_C c i arg2 harg2 arg3 harg3 arg4 harg4 arg5 harg5 arg6 harg6 arg7 harg7 arg8 harg8 hc0 hc1 x0 x1 x2 x3 x4 xs).1, y ∈ pc.1.set :=
  View.cover_of_tiledL (kernelRun1_C c i arg2 harg2 arg3 harg3 arg4 harg4 arg5 harg5 arg6 harg6 arg7 harg7 arg8 harg8 hc0 hc1 x0 x1 x2 x3 x4 xs).1 S256x4096.size (by sl_kernel_rfl) y
def out1_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : condL1 i) (x0 : Vec F S256x512 .f32) (x1 : Vec F S512x4096 .bf16) (x2 : Vec F S4096 .f32) (x3 : Vec F S4096x4096 .bf16) (x4 : Vec F S4096 .f32) (xs : Vec F S256x4096 .f32) : Vec F S256x4096 .f32 :=
  VO1.read (Elt F) (VO1.writes (Elt F) VO1.junk (kernelRun1_C c i arg2 harg2 arg3 harg3 arg4 harg4 arg5 harg5 arg6 harg6 arg7 harg7 arg8 harg8 hc0 hc1 x0 x1 x2 x3 x4 xs).1)
theorem scover1_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : condL1 i) (x0 : Vec F S256x512 .f32) (x1 : Vec F S512x4096 .bf16) (x2 : Vec F S4096 .f32) (x3 : Vec F S4096x4096 .bf16) (x4 : Vec F S4096 .f32) (xs : Vec F S256x4096 .f32) (y : S256x4096.Idx) :
    ∃ pc ∈ (kernelRun1_C c i arg2 harg2 arg3 harg3 arg4 harg4 arg5 harg5 arg6 harg6 arg7 harg7 arg8 harg8 hc0 hc1 x0 x1 x2 x3 x4 xs).2.1, y ∈ pc.1.set :=
  View.cover_of_tiledL (kernelRun1_C c i arg2 harg2 arg3 harg3 arg4 harg4 arg5 harg5 arg6 harg6 arg7 harg7 arg8 harg8 hc0 hc1 x0 x1 x2 x3 x4 xs).2.1 S256x4096.size (by sl_kernel_rfl) y
def sout1_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : condL1 i) (x0 : Vec F S256x512 .f32) (x1 : Vec F S512x4096 .bf16) (x2 : Vec F S4096 .f32) (x3 : Vec F S4096x4096 .bf16) (x4 : Vec F S4096 .f32) (xs : Vec F S256x4096 .f32) : Vec F S256x4096 .f32 :=
  VS1.read (Elt F) (VS1.writes (Elt F) VS1.junk (kernelRun1_C c i arg2 harg2 arg3 harg3 arg4 harg4 arg5 harg5 arg6 harg6 arg7 harg7 arg8 harg8 hc0 hc1 x0 x1 x2 x3 x4 xs).2.1)

/-- What the result buffer and the accumulator hold after the body at position `n` of the grid's order: the kind of
    point decides, and a middle or last step starts from what the point before left in the accumulator. -/
def outsAt1 (c : Dev nD) : (n : ℕ) → n < cfg1.N → Vec F S256x4096 .f32 × Vec F S256x4096 .f32
  | 0, hn => (junkO1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcondF1 ⟨0, hn⟩).mpr (Nat.zero_mod _)) (fun h => (fun h' => by (try dsimp only at h'); omega) ((hcondL1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      (junkO1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcondF1 ⟨n + 1, hn⟩).mpr h0) (fun h => (fun h' => by (try dsimp only at h'); (try dsimp only at h0); omega) ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcondF1 ⟨n + 1, hn⟩).mp h)) ((hcondL1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcondF1 ⟨n + 1, hn⟩).mp h)) ((hcondL1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (junkO1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcondF1 ⟨n + 1, hn⟩).mp h)) (fun h => h1 ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 4 = 0) :
    outsAt1 V c t.val t.isLt = (junkO1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcondF1 t).mpr h0) (fun h => (fun h' => by (try dsimp only at h'); (try dsimp only at h0); omega) ((hcondL1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (junkO1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcondF1 t).mp h)) (fun h => h1 ((hcondL1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcondF1 t).mp h)) ((hcondL1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcondF1 t).mp h)) ((hcondL1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers that belong to the other region, each whole at some contents. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

theorem PhiA_split1 (c : Dev nD) :
    (Pipeline.ΦA spec1 c : sProp 𝕄) ⊢ iprop(iprop((∃ d, owns (c : Thread nD τ) scM1 fullShare d) ∗ other1 c) ∗ (∃ r, prngReg c r)) := by
  unfold Pipeline.ΦA other1; rw [scopedRest1_eq]; simp only [scM1, owns_whole]
  iintro ⟨⟨O0, O1, O2, O3, O4, O5, O6, O7, O8, O9, HS⟩, Hg⟩
  isplitl [HS O0 O1 O2 O3 O4 O5 O6 O7 O8 O9]
  · isplitl [HS]; · iexact HS
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact O9
  iexact Hg

theorem PhiA_join1 (c : Dev nD) :
    iprop(iprop((∃ d, owns (c : Thread nD τ) scM1 fullShare d) ∗ other1 c) ∗ (∃ r, prngReg c r)) ⊢ (Pipeline.ΦA spec1 c : sProp 𝕄) := by
  unfold Pipeline.ΦA other1; rw [scopedRest1_eq]; simp only [scM1, owns_whole]
  iintro ⟨⟨HS, O0, O1, O2, O3, O4, O5, O6, O7, O8, O9⟩, Hg⟩
  isplitl [HS O0 O1 O2 O3 O4 O5 O6 O7 O8 O9]
  ·
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    iexact HS
  iexact Hg

/-- Before the first point the accumulator holds anything; after point `n` it holds what that point left. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ other1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ other1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ other1 c) ∗ (∃ r, prngReg c r)) := by
  cases n with
  | zero => exact absurd rfl hz
  | succ n => rfl

/-! ## The proof data -/

/-- The arrays as the region finds them; after the body each input's buffer at its block and the result's at what the
    point left; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' buffers hold their blocks; the point's position among the steps says which kind
    it is; the accumulator is handed over at what the point before left (at anything at the very first point) and
    taken back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have h1 : ¬t.val % 4 = 3 := by omega
    rw [Dat.leavesExact_idle (dat1 V c) 5 t (idleAt1_5 t (fun h => h1 ((hcondL1 t).mp h))) (noFlush1_5 t (fun h => h1 ((hcondL1 t).mp h)))]
    rw [outsAt1_A V c t h0]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA_split1 c) $$ HΦ
      icases HΦ' with ⟨⟨HS, Hoth⟩, Hg⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcondF1 t).mpr h0) (fun h => (fun h' => by (try dsimp only at h'); (try dsimp only at h0); omega) ((hcondL1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcondF1 t).mpr h0) (fun h => (fun h' => by (try dsimp only at h'); (try dsimp only at h0); omega) ((hcondL1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat1 V c).leavesExact 5 t = owns (c : Thread nD τ) (ms1_5 t) fullShare ((dat1 V c).after 5 t) from by
        unfold Dat.leavesExact; rw [liveAt1_5 t ((hcondL1 t).mpr h1)], after1_5]
      rw [outsAt1_C V c t h0 h1]
      unfold out1_C sout1_C; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcondF1 t).mp h)) ((hcondL1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover1_C c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C c _ _ _ _ _ _ _ _ _ _ _ _ _ _ _ _ _ _ _ _ _ _ _)
    · rw [Dat.leavesExact_idle (dat1 V c) 5 t (idleAt1_5 t (fun h => h1 ((hcondL1 t).mp h))) (noFlush1_5 t (fun h => h1 ((hcondL1 t).mp h)))]
      rw [outsAt1_B V c t h0 h1]
      unfold sout1_B; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcondF1 t).mp h)) (fun h => h1 ((hcondL1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scover1_B c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

/-- After the last point the invariant gives the class's back: the accumulator's contents are forgotten. -/
theorem Phi_last1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  iintro ⟨⟨HS, Hoth⟩, Hg⟩
  iapply (PhiA_join1 c)
  isplitl [HS Hoth]
  · isplitl [HS]; · iexists _; iexact HS
    iexact Hoth
  iexact Hg

theorem Phi_first1 (c : Dev nD) : (dat1 V c).Φ 0 = Pipeline.ΦA spec1 c := rfl

end

end Cert.KernelIdeal.Mlp

end
-- ==== Proof.KiPieces1.lean ====
import proofs.«100102_j54099408060868_1_alg».proof.Proof.KiBody1
import Idealize.ShloMosaic.Lib.Pipeline.Value

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What each kind of point of region 1 leaves, as the body's own arithmetic: every store covers its whole buffer, so a
    buffer read back holds the last value stored into it. -/

theorem hz2_1 : (![0, 0] : Fin 2 → Nat) = fun _ => 0 := funext fun a => by fin_cases a <;> rfl
theorem hz1_1 : (![0] : Fin 1 → Nat) = fun _ => 0 := funext fun a => by fin_cases a; rfl

/-- A middle step leaves in the accumulator what it held plus the step's partial product. -/
theorem sout1_B_eq (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : ¬condL1 i) (x0 : Vec F S256x512 .f32) (x1 : Vec F S512x4096 .bf16) (x2 : Vec F S4096 .f32) (x3 : Vec F S4096x4096 .bf16) (x4 : Vec F S4096 .f32) (xs : Vec F S256x4096 .f32) :
    sout1_B c i arg2 harg2 arg3 harg3 arg4 harg4 arg5 harg5 arg6 harg6 arg7 harg7 arg8 harg8 hc0 hc1 x0 x1 x2 x3 x4 xs = k1_pay2 x0 xs x1 := by
  have hz2 := hz2_1; have hz1 := hz1_1
  unfold sout1_B
  rw [View.read_writes_eq_canon _ _ _ (scover1_B c i arg2 harg2 arg3 harg3 arg4 harg4 arg5 harg5 arg6 harg6 arg7 harg7 arg8 harg8 hc0 hc1 x0 x1 x2 x3 x4 xs)]
  unfold kernelRun1_B
  dsimp only
  rw [View.canon_unit_zero hz2]
  simp only [View.readAt_eq_ld, harg2.read_unread, harg3.read_unread, harg4.read_unread, harg5.read_unread, harg6.read_unread, harg8.read_unread, View.ld_unit_zero (S := S256x512) hz2, View.ld_unit_zero (S := S512x4096) hz2, View.ld_unit_zero (S := S4096x4096) hz2, View.ld_unit_zero (S := S256x4096) hz2, View.ld_unit_zero (S := S4096) hz1]

/-- A first step leaves the zero block plus the step's partial product. -/
theorem sout1_A_eq (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : condF1 i) (hc1 : ¬condL1 i) (x0 : Vec F S256x512 .f32) (x1 : Vec F S512x4096 .bf16) (x2 : Vec F S4096 .f32) (x3 : Vec F S4096x4096 .bf16) (x4 : Vec F S4096 .f32) :
    sout1_A c i arg2 harg2 arg3 harg3 arg4 harg4 arg5 harg5 arg6 harg6 arg7 harg7 arg8 harg8 hc0 hc1 x0 x1 x2 x3 x4 = k1_pay2 x0 k1_pay1 x1 := by
  have hz2 := hz2_1; have hz1 := hz1_1
  unfold sout1_A
  rw [View.read_writes_eq_canon _ _ _ (scover1_A c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S256x4096) hz2, View.readCov_unit_zero (S := S256x4096) _ hz2]
  simp only [View.readAt_eq_ld, harg2.read_unread, harg3.read_unread, harg4.read_unread, harg5.read_unread, harg6.read_unread, harg8.read_unread, View.ld_unit_zero (S := S256x512) hz2, View.ld_unit_zero (S := S512x4096) hz2, View.ld_unit_zero (S := S4096x4096) hz2, View.ld_unit_zero (S := S256x4096) hz2, View.ld_unit_zero (S := S4096) hz1]

/-- A last step leaves in the accumulator what a middle step does, -/
theorem sout1_C_eq (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : condL1 i) (x0 : Vec F S256x512 .f32) (x1 : Vec F S512x4096 .bf16) (x2 : Vec F S4096 .f32) (x3 : Vec F S4096x4096 .bf16) (x4 : Vec F S4096 .f32) (xs : Vec F S256x4096 .f32) :
    sout1_C c i arg2 harg2 arg3 harg3 arg4 harg4 arg5 harg5 arg6 harg6 arg7 harg7 arg8 harg8 hc0 hc1 x0 x1 x2 x3 x4 xs = k1_pay2 x0 xs x1 := by
  have hz2 := hz2_1; have hz1 := hz1_1
  unfold sout1_C
  rw [View.read_writes_eq_canon _ _ _ (scover1_C c i arg2 harg2 arg3 harg3 arg4 harg4 arg5 harg5 arg6 harg6 arg7 harg7 arg8 harg8 hc0 hc1 x0 x1 x2 x3 x4 xs)]
  unfold kernelRun1_C
  dsimp only
  sl_unfold_words
  rw [View.canon_unit_zero hz2]
  simp only [View.readAt_eq_ld, harg2.read_unread, harg3.read_unread, harg4.read_unread, harg5.read_unread, harg6.read_unread, harg8.read_unread, View.ld_unit_zero (S := S256x512) hz2, View.ld_unit_zero (S := S512x4096) hz2, View.ld_unit_zero (S := S4096x4096) hz2, View.ld_unit_zero (S := S256x4096) hz2, View.ld_unit_zero (S := S4096) hz1]

/-- and in the result buffer the second layer of the finished accumulator. -/
theorem out1_C_eq (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S4096 .f32) (harg4 : arg4.IsWhole) (arg5 : Memref sig .tc .vmem S4096x4096 .bf16) (harg5 : arg5.IsWhole) (arg6 : Memref sig .tc .vmem S4096 .f32) (harg6 : arg6.IsWhole) (arg7 : Memref sig .tc .vmem S256x4096 .f32) (harg7 : arg7.IsWhole) (arg8 : Memref sig .tc .vmem S256x4096 .f32) (harg8 : arg8.IsWhole) (hc0 : ¬condF1 i) (hc1 : condL1 i) (x0 : Vec F S256x512 .f32) (x1 : Vec F S512x4096 .bf16) (x2 : Vec F S4096 .f32) (x3 : Vec F S4096x4096 .bf16) (x4 : Vec F S4096 .f32) (xs : Vec F S256x4096 .f32) :
    out1_C c i arg2 harg2 arg3 harg3 arg4 harg4 arg5 harg5 arg6 harg6 arg7 harg7 arg8 harg8 hc0 hc1 x0 x1 x2 x3 x4 xs = k1_pay3 (k1_pay2 x0 xs x1) x2 x3 x4 := by
  have hz2 := hz2_1; have hz1 := hz1_1
  unfold out1_C
  rw [View.read_writes_eq_canon _ _ _ (cover1_C c i arg2 harg2 arg3 harg3 arg4 harg4 arg5 harg5 arg6 harg6 arg7 harg7 arg8 harg8 hc0 hc1 x0 x1 x2 x3 x4 xs)]
  unfold kernelRun1_C
  dsimp only
  sl_unfold_words
  rw [View.canon_unit_zero hz2, View.readCov_unit_zero (S := S256x4096) _ hz2]
  simp only [View.readAt_eq_ld, harg2.read_unread, harg3.read_unread, harg4.read_unread, harg5.read_unread, harg6.read_unread, harg8.read_unread, View.ld_unit_zero (S := S256x512) hz2, View.ld_unit_zero (S := S512x4096) hz2, View.ld_unit_zero (S := S4096x4096) hz2, View.ld_unit_zero (S := S256x4096) hz2, View.ld_unit_zero (S := S4096) hz1]

end Cert.KernelIdeal.Mlp

end
-- ==== Proof.KiPay1.lean ====
import proofs.«100102_j54099408060868_1_alg».proof.Proof.KiPieces1
import proofs.«100102_j54099408060868_1_alg».proof.Proof.MlpSpec
import Idealize.ShloMosaic.Lib.Pipeline.Value
import Idealize.ShloMosaic.Lib.ValueIdx
import Idealize.ShloMosaic.PureOps.Ideal.Laws

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx DenseLayer MlpSpec

/-! # The array region 1 leaves, over the extended reals

Rows come in blocks of 256; the first product's contracted axis in 4 steps of 512. Point t of the grid's order is
row block t / 4, step t % 4. After step s the accumulator's entry (p, h) is the sum of the first 512·(s+1)
products of entry (row, h) of x · W; after the last step it is the whole entry, and the stored block is the second
layer of it: the region's array is the two-layer network of the arrays it was entered with. -/

section
variable (V : (c : Dev nD) → (b : Ref sig .tc) → Buf (Elt Ideal) ((c : Thread nD τ).loc b))

/-- The arrays the region reads, as the region finds them. -/
abbrev aX1 (c : Dev nD) : S8192x2048.Idx → EReal := V c main_v33
abbrev aW1 (c : Dev nD) : S2048x4096.Idx → EReal := V c main_v2
abbrev ab1 (c : Dev nD) : Fin 4096 → EReal := fun h => (V c main_arg9 : S4096.Idx → EReal) (ix1 h)
abbrev aW'1 (c : Dev nD) : S4096x4096.Idx → EReal := V c main_v3
abbrev ab'1 (c : Dev nD) : Fin 4096 → EReal := fun q => (V c main_arg11 : S4096.Idx → EReal) (ix1 q)

/-- The two-layer network of them. -/
def G1 (c : Dev nD) : S8192x4096.Idx → EReal :=
  mlp2 (P := 8192) (K := 2048) (Q := 4096) (R := 4096) (aX1 V c) (aW1 V c) (ab1 V c) (aW'1 V c) (ab'1 V c)

/-! ## Where the blocks sit -/

theorem idx1 : ∀ t : Fin cfg1.N,
    (win1_0.index t (0 : Fin 2) = t.val / 4 ∧ win1_0.index t (1 : Fin 2) = t.val % 4)
    ∧ (win1_1.index t (0 : Fin 2) = t.val % 4 ∧ win1_1.index t (1 : Fin 2) = 0)
    ∧ win1_2.index t (0 : Fin 1) = 0
    ∧ (win1_3.index t (0 : Fin 2) = 0 ∧ win1_3.index t (1 : Fin 2) = 0)
    ∧ win1_4.index t (0 : Fin 1) = 0
    ∧ (win1_5.index t (0 : Fin 2) = t.val / 4 ∧ win1_5.index t (1 : Fin 2) = 0) :=
  (by decide +kernel : ∀ t : Fin grid1.N, _)

theorem blk1_0 (c : Dev nD) (t : Fin cfg1.N) (p : Fin 256) (j : Fin 512) (r : Fin 8192) (k : Fin 2048)
    (hr : r.val = 256 * (t.val / 4) + p.val) (hk : k.val = 512 * (t.val % 4) + j.val) :
    (iblk1 V c 0 t : S256x512.Idx → EReal) (ix2 p j) = aX1 V c (ix2 r k) := by
  unfold iblk1
  rw [View.read_apply]
  show V c main_v33 _ = V c main_v33 _
  refine congrArg (V c main_v33) (funext fun a => Fin.ext ?_)
  obtain ⟨⟨e0, e1⟩, -⟩ := idx1 t
  match a with
  | ⟨0, _⟩ => show win1_0.index t (0 : Fin 2) * 256 + 1 * p.val = r.val; rw [e0, hr]; omega
  | ⟨1, _⟩ => show win1_0.index t (1 : Fin 2) * 512 + 1 * j.val = k.val; rw [e1, hk]; omega

theorem blk1_1 (c : Dev nD) (t : Fin cfg1.N) (j : Fin 512) (h : Fin 4096) (k : Fin 2048)
    (hk : k.val = 512 * (t.val % 4) + j.val) :
    (iblk1 V c 1 t : S512x4096.Idx → EReal) (ix2 j h) = aW1 V c (ix2 k h) := by
  unfold iblk1
  rw [View.read_apply]
  show V c main_v2 _ = V c main_v2 _
  refine congrArg (V c main_v2) (funext fun a => Fin.ext ?_)
  obtain ⟨-, ⟨e0, e1⟩, -⟩ := idx1 t
  match a with
  | ⟨0, _⟩ => show win1_1.index t (0 : Fin 2) * 512 + 1 * j.val = k.val; rw [e0, hk]; omega
  | ⟨1, _⟩ => show win1_1.index t (1 : Fin 2) * 4096 + 1 * h.val = h.val; rw [e1]; omega

theorem blk1_2 (c : Dev nD) (t : Fin cfg1.N) (h : Fin 4096) :
    (iblk1 V c 2 t : S4096.Idx → EReal) (ix1 h) = ab1 V c h := by
  unfold iblk1
  rw [View.read_apply]
  show V c main_arg9 _ = V c main_arg9 _
  refine congrArg (V c main_arg9) (funext fun a => Fin.ext ?_)
  obtain ⟨-, -, e0, -⟩ := idx1 t
  match a with
  | ⟨0, _⟩ => show win1_2.index t (0 : Fin 1) * 4096 + 1 * h.val = h.val; rw [e0]; omega

theorem blk1_3 (c : Dev nD) (t : Fin cfg1.N) (h : Fin 4096) (q : Fin 4096) :
    (iblk1 V c 3 t : S4096x4096.Idx → EReal) (ix2 h q) = aW'1 V c (ix2 h q) := by
  unfold iblk1
  rw [View.read_apply]
  show V c main_v3 _ = V c main_v3 _
  refine congrArg (V c main_v3) (funext fun a => Fin.ext ?_)
  obtain ⟨-, -, -, ⟨e0, e1⟩, -⟩ := idx1 t
  match a with
  | ⟨0, _⟩ => show win1_3.index t (0 : Fin 2) * 4096 + 1 * h.val = h.val; rw [e0]; omega
  | ⟨1, _⟩ => show win1_3.index t (1 : Fin 2) * 4096 + 1 * q.val = q.val; rw [e1]; omega

theorem blk1_4 (c : Dev nD) (t : Fin cfg1.N) (q : Fin 4096) :
    (iblk1 V c 4 t : S4096.Idx → EReal) (ix1 q) = ab'1 V c q := by
  unfold iblk1
  rw [View.read_apply]
  show V c main_arg11 _ = V c main_arg11 _
  refine congrArg (V c main_arg11) (funext fun a => Fin.ext ?_)
  obtain ⟨-, -, -, -, e0, -⟩ := idx1 t
  match a with
  | ⟨0, _⟩ => show win1_4.index t (0 : Fin 1) * 4096 + 1 * q.val = q.val; rw [e0]; omega

/-! ## The body's arithmetic at an entry -/

theorem plain1_1 : PlainDot.IsPlain dot_S256x512_S512x4096_S256x4096_1_0_0_1_n_n := ⟨rfl, rfl, rfl, rfl, rfl, rfl⟩
theorem plain1_2 : PlainDot.IsPlain dot_S256x4096_S4096x4096_S256x4096_1_0_0_1_n_n := ⟨rfl, rfl, rfl, rfl, rfl, rfl⟩

/-- The cleared accumulator is zero everywhere. -/
theorem pay1_apply1 (p : Fin 256) (h : Fin 4096) : (k1_pay1 (F := Ideal) : S256x4096.Idx → EReal) (ix2 p h) = 0 := by
  unfold k1_pay1
  (try dsimp only)
  rw [shapeCast_self]
  exact Ideal.ofBits_zero_f32

/-- A step adds the block's 512 products to what the accumulator held. -/
theorem pay2_apply1 (x0 : Vec Ideal S256x512 .f32) (xs : Vec Ideal S256x4096 .f32) (x1 : Vec Ideal S512x4096 .bf16) (p : Fin 256) (h : Fin 4096) :
    (k1_pay2 (F := Ideal) x0 xs x1 : S256x4096.Idx → EReal) (ix2 p h)
      = (xs : S256x4096.Idx → EReal) (ix2 p h) + ∑ j : Fin 512, (x0 : S256x512.Idx → EReal) (ix2 p j) * (x1 : S512x4096.Idx → EReal) (ix2 j h) := by
  unfold k1_pay2
  (try dsimp only)
  simp only [shapeCast_self]
  exact congrArg ((xs : S256x4096.Idx → EReal) (ix2 p h) + ·) (PlainDot.matmul_zero_apply plain1_1 _ _ p h)

/-- The last step's stored block: the second layer of the hyperbolic tangent of the accumulator plus the first bias. -/
theorem pay3_apply1 (acc : Vec Ideal S256x4096 .f32) (b1 : Vec Ideal S4096 .f32) (w2 : Vec Ideal S4096x4096 .bf16) (b2 : Vec Ideal S4096 .f32) (p : Fin 256) (q : Fin 4096) :
    (k1_pay3 (F := Ideal) acc b1 w2 b2 : S256x4096.Idx → EReal) (ix2 p q)
      = (∑ h : Fin 4096, Ideal.tanh ((acc : S256x4096.Idx → EReal) (ix2 p h) + (b1 : S4096.Idx → EReal) (ix1 h)) * (w2 : S4096x4096.Idx → EReal) (ix2 h q))
        + (b2 : S4096.Idx → EReal) (ix1 q) := by
  unfold k1_pay3
  (try dsimp only)
  simp only [shapeCast_self]
  rw [addf_apply]
  simp only [matmul]
  rw [PlainDot.matmul_zero_apply plain1_2, RowBroadcast.broadcastTo_1b_ab_apply, RowBroadcast.shapeCast_b_1b_apply]
  refine congrArg (· + (b2 : S4096.Idx → EReal) (ix1 q)) (Finset.sum_congr rfl fun h _ => ?_)
  show Ideal.tanh ((acc : S256x4096.Idx → EReal) (ix2 p h) + broadcastTo S256x4096 (shapeCast _ b1 _) _ (ix2 p h)) * (w2 : S4096x4096.Idx → EReal) (ix2 h q) = _
  rw [RowBroadcast.broadcastTo_1b_ab_apply, RowBroadcast.shapeCast_b_1b_apply]

/-! ## The accumulator after each point -/

/-- The block's 512 products are products number 512·s … of the entry. -/
theorem step_sum1 (c : Dev nD) (t : Fin cfg1.N) (x0 : S256x512.Idx → EReal) (x1 : S512x4096.Idx → EReal)
    (hx0 : x0 = iblk1 V c 0 t) (hx1 : x1 = iblk1 V c 1 t) (p : Fin 256) (h : Fin 4096) (r : Fin 8192) (n0 : ℕ)
    (hr : r.val = 256 * (t.val / 4) + p.val) (hn0 : n0 = 512 * (t.val % 4)) :
    ∑ j : Fin 512, x0 (ix2 p j) * x1 (ix2 j h) = ∑ j : Fin 512, term (aX1 V c) (aW1 V c) r h (n0 + j.val) := by
  subst hx0 hx1
  have hmod : t.val % 4 < 4 := Nat.mod_lt _ (by decide)
  refine block_sum (P := 8192) (K := 2048) (Q := 4096) _ _ (aX1 V c) (aW1 V c) r p h n0 fun j => ?_
  have hj := j.isLt
  have hlt : n0 + j.val < 2048 := by omega
  exact ⟨hlt, blk1_0 V c t p j r ⟨n0 + j.val, hlt⟩ hr (by show n0 + j.val = _; omega),
    blk1_1 V c t j h ⟨n0 + j.val, hlt⟩ (by show n0 + j.val = _; omega)⟩

/-- One step at an entry: what the accumulator held plus the block's products. -/
theorem step_apply1 (c : Dev nD) (t : Fin cfg1.N) (xs : Vec Ideal S256x4096 .f32) (p : Fin 256) (h : Fin 4096) (r : Fin 8192) (n0 : ℕ)
    (hr : r.val = 256 * (t.val / 4) + p.val) (hn0 : n0 = 512 * (t.val % 4)) :
    (k1_pay2 (F := Ideal) (iblk1 V c 0 t) xs (iblk1 V c 1 t) : S256x4096.Idx → EReal) (ix2 p h)
      = (xs : S256x4096.Idx → EReal) (ix2 p h) + ∑ j : Fin 512, term (aX1 V c) (aW1 V c) r h (n0 + j.val) :=
  (pay2_apply1 (iblk1 V c 0 t) xs (iblk1 V c 1 t) p h).trans
    (congrArg ((xs : S256x4096.Idx → EReal) (ix2 p h) + ·) (step_sum1 V c t (iblk1 V c 0 t) (iblk1 V c 1 t) rfl rfl p h r n0 hr hn0))

end

end Cert.KernelIdeal.Mlp

end
-- ==== Proof.KiValue1.lean ====
import proofs.«100102_j54099408060868_1_alg».proof.Proof.KiPay1

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx DenseLayer MlpSpec

section
variable (V : (c : Dev nD) → (b : Ref sig .tc) → Buf (Elt Ideal) ((c : Thread nD τ).loc b))

/-! ## The accumulator after each point -/

/-- After a first step the accumulator's entry is the sum of the entry's first 512 products. -/
theorem acc_first1 (c : Dev nD) (t : Fin cfg1.N) (h0 : t.val % 4 = 0) (p : Fin 256) (h : Fin 4096) (r : Fin 8192)
    (hr : r.val = 256 * (t.val / 4) + p.val) :
    ((outsAt1 V c t.val t.isLt).2 : S256x4096.Idx → EReal) (ix2 p h) = part (aX1 V c) (aW1 V c) r h (512 * (t.val % 4 + 1)) := by
  have e := congrArg Prod.snd (outsAt1_A V c t h0)
  dsimp only at e
  rw [sout1_A_eq] at e
  rw [e]
  refine (step_apply1 V c t (k1_pay1 (F := Ideal)) p h r 0 hr (by omega)).trans ?_
  rw [pay1_apply1, zero_add, show 512 * (t.val % 4 + 1) = 0 + 512 from by omega, part_add, part_zero, zero_add]

/-- After a later step it is what the step before left plus the next 512 products. -/
theorem acc_next1 (c : Dev nD) (t : Fin cfg1.N) (h0 : ¬t.val % 4 = 0) (p : Fin 256) (h : Fin 4096) (r : Fin 8192)
    (hr : r.val = 256 * (t.val / 4) + p.val)
    (hprev : ((outsAt1 V c (t.val - 1) (Nat.lt_of_le_of_lt (Nat.sub_le _ _) t.isLt)).2 : S256x4096.Idx → EReal) (ix2 p h) = part (aX1 V c) (aW1 V c) r h (512 * (t.val % 4))) :
    ((outsAt1 V c t.val t.isLt).2 : S256x4096.Idx → EReal) (ix2 p h) = part (aX1 V c) (aW1 V c) r h (512 * (t.val % 4 + 1)) := by
  have hgoal : part (aX1 V c) (aW1 V c) r h (512 * (t.val % 4 + 1))
      = part (aX1 V c) (aW1 V c) r h (512 * (t.val % 4)) + ∑ j : Fin 512, term (aX1 V c) (aW1 V c) r h (512 * (t.val % 4) + j.val) := by
    rw [show 512 * (t.val % 4 + 1) = 512 * (t.val % 4) + 512 from by omega, part_add]
  by_cases h1 : t.val % 4 = 3
  · have e := congrArg Prod.snd (outsAt1_C V c t h0 h1)
    dsimp only at e
    rw [sout1_C_eq] at e
    rw [e]
    refine (step_apply1 V c t (outsAt1 V c (t.val - 1) (Nat.lt_of_le_of_lt (Nat.sub_le _ _) t.isLt)).2 p h r (512 * (t.val % 4)) hr rfl).trans ?_
    rw [hgoal]
    exact congrArg (· + _) hprev
  · have e := congrArg Prod.snd (outsAt1_B V c t h0 h1)
    dsimp only at e
    rw [sout1_B_eq] at e
    rw [e]
    refine (step_apply1 V c t (outsAt1 V c (t.val - 1) (Nat.lt_of_le_of_lt (Nat.sub_le _ _) t.isLt)).2 p h r (512 * (t.val % 4)) hr rfl).trans ?_
    rw [hgoal]
    exact congrArg (· + _) hprev

/-- After step s of its row block the accumulator's entry is the sum of the entry's first 512·(s+1) products. -/
theorem acc_inv1 (c : Dev nD) : ∀ (n : ℕ) (hn : n < cfg1.N) (p : Fin 256) (h : Fin 4096) (r : Fin 8192),
    r.val = 256 * (n / 4) + p.val →
    ((outsAt1 V c n hn).2 : S256x4096.Idx → EReal) (ix2 p h) = part (aX1 V c) (aW1 V c) r h (512 * (n % 4 + 1)) := by
  intro n
  induction n using Nat.strong_induction_on with
  | _ n ih =>
    intro hn p h r hr
    by_cases h0 : n % 4 = 0
    · exact acc_first1 V c ⟨n, hn⟩ h0 p h r hr
    · have hpos : n - 1 < n := by omega
      have hr' : r.val = 256 * ((n - 1) / 4) + p.val := by rw [hr]; omega
      have hp := ih (n - 1) hpos (Nat.lt_of_le_of_lt (Nat.sub_le _ _) hn) p h r hr'
      rw [show 512 * ((n - 1) % 4 + 1) = 512 * (n % 4) from by omega] at hp
      exact acc_next1 V c ⟨n, hn⟩ h0 p h r hr hp

/-! ## The block a last step stores, and the array the write-backs leave -/

theorem out_last1 (c : Dev nD) (t : Fin cfg1.N) (h1 : t.val % 4 = 3) (p : Fin 256) (q : Fin 4096) (r : Fin 8192)
    (hr : r.val = 256 * (t.val / 4) + p.val) :
    ((outsAt1 V c t.val t.isLt).1 : S256x4096.Idx → EReal) (ix2 p q) = G1 V c (ix2 r q) := by
  have h0 : ¬t.val % 4 = 0 := by omega
  have e1 := congrArg Prod.fst (outsAt1_C V c t h0 h1)
  dsimp only at e1
  rw [out1_C_eq] at e1
  have e2 := congrArg Prod.snd (outsAt1_C V c t h0 h1)
  dsimp only at e2
  rw [sout1_C_eq] at e2
  rw [e1, ← e2]
  refine (pay3_apply1 (outsAt1 V c t.val t.isLt).2 (iblk1 V c 2 t) (iblk1 V c 3 t) (iblk1 V c 4 t) p q).trans ?_
  unfold G1 mlp2
  rw [dense_ix2]
  refine congrArg₂ (· + ·) (Finset.sum_congr rfl fun h _ => ?_) (blk1_4 V c t q)
  rw [acc_inv1 V c t.val t.isLt p h r hr, blk1_2 V c t h, blk1_3 V c t h q,
    show 512 * (t.val % 4 + 1) = 2048 from by omega, part_all]
  unfold tanhArr
  rw [dense_ix2]

theorem mem_blk1 (t : Fin cfg1.N) (i : S8192x4096.Idx) :
    i ∈ ((cfg1.win 5).blk t).view.set ↔ ∀ a : Fin 2, win1_5.index t a * S256x4096.size a ≤ (i a).val ∧ (i a).val < win1_5.index t a * S256x4096.size a + S256x4096.size a := by
  show i ∈ ((View.whole main_v34).slice (win1_5.rect t)).set ↔ _
  rw [View.set_slice_whole, Rect.mem_set_unit]
  exact Iff.rfl

/-- What a write-back writes is its block of the network's array. -/
theorem flushed_eq1 (c : Dev nD) (t : Fin cfg1.N) (hf : (cfg1.win 5).flush t = true) :
    (dat1 V c).flushed 5 t = ((cfg1.win 5).blk t).view.read (Elt Ideal) (G1 V c) := by
  have h1 : t.val % 4 = 3 := (flush1_5 t).mp hf
  have hN : t.val < 128 := lt_of_lt_of_eq t.isLt N_1
  show (cfg1.win 5).cut (grid1.coords t) ((dat1 V c).after 5 t) = _
  rw [after1_5]
  funext j
  show ((outsAt1 V c t.val t.isLt).1 : S256x4096.Idx → EReal) j = G1 V c (((cfg1.win 5).blk t).view.emb j)
  have hj0 : (j 0).val < 256 := (j 0).isLt
  have hj1 : (j 1).val < 4096 := (j 1).isLt
  obtain ⟨-, -, -, -, -, ⟨e0, e1⟩⟩ := idx1 t
  have he : ((cfg1.win 5).blk t).view.emb j = ix2 (n0 := 8192) (n1 := 4096) ⟨256 * (t.val / 4) + (j 0).val, by omega⟩ ⟨(j 1).val, hj1⟩ := by
    funext a; apply Fin.ext
    match a with
    | ⟨0, _⟩ => show win1_5.index t (0 : Fin 2) * 256 + 1 * (j 0).val = 256 * (t.val / 4) + (j 0).val; rw [e0]; omega
    | ⟨1, _⟩ => show win1_5.index t (1 : Fin 2) * 4096 + 1 * (j 1).val = (j 1).val; rw [e1]; omega
  rw [he]
  exact (congrArg ((outsAt1 V c t.val t.isLt).1 : S256x4096.Idx → EReal) (eq_ix2 j)).trans (out_last1 V c t h1 (j 0) (j 1) _ rfl)

/-- The region's array after the run is the two-layer network of the arrays it was entered with. -/
theorem final1 (c : Dev nD) : (dat1 V c).arrAt 5 cfg1.N = G1 V c :=
  (dat1 V c).arrAt_eq_of_cover 5 (G1 V c) (flushed_eq1 V c) fun i => by
    have hi0 : (i 0).val < 8192 := (i 0).isLt
    have hi1 : (i 1).val < 4096 := (i 1).isLt
    have hN : cfg1.N = 128 := N_1
    let t : Fin cfg1.N := ⟨4 * ((i 0).val / 256) + 3, by rw [hN]; omega⟩
    have htv : t.val = 4 * ((i 0).val / 256) + 3 := rfl
    obtain ⟨-, -, -, -, -, ⟨e0, e1⟩⟩ := idx1 t
    refine ⟨t, (flush1_5 t).mpr (by rw [htv]; omega), ?_⟩
    rw [mem_blk1]
    intro a
    match a with
    | ⟨0, _⟩ => show win1_5.index t (0 : Fin 2) * 256 ≤ (i 0).val ∧ (i 0).val < win1_5.index t (0 : Fin 2) * 256 + 256; rw [e0, htv]; omega
    | ⟨1, _⟩ => show win1_5.index t (1 : Fin 2) * 4096 ≤ (i 1).val ∧ (i 1).val < win1_5.index t (1 : Fin 2) * 4096 + 4096; rw [e1]; omega

end

end Cert.KernelIdeal.Mlp

end
-- ==== Proof.KiRun.lean ====
import proofs.«100102_j54099408060868_1_alg».proof.Proof.KiBody0
import proofs.«100102_j54099408060868_1_alg».proof.Proof.KiBody1
import proofs.«100102_j54099408060868_1_alg».proof.Proof.Gen.KernelIdeal.Regions
import Idealize.ShloMosaic.Lib.Pipeline.RegionsLoop
import Idealize.ShloMosaic.Lib.Pipeline.Regions

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! # The whole program: two host stretches and two regions, in order

The contents of a core's unscoped buffers at each boundary: as launched; after the weights are rounded; after the
encoder region has written its result array; after the rotation; after the decoder region has written its result array. -/

abbrev Wk0 : Dev nD → Valuation τ sig (Elt F) := fun c b => m (c, b)
abbrev Wk1 : Dev nD → Valuation τ sig (Elt F) := fun c => StableHlo.after hostOps0 (Wk0 m c)
abbrev Vk1 : (c : Dev nD) → (b : Ref sig .tc) → Buf (Elt F) ((c : Thread nD τ).loc b) := fun c b => Wk1 m c b
def Wk2 (c : Dev nD) : Valuation τ sig (Elt F) :=
  Pipeline.withArrays spec0 c (Wk1 m c) fun w => (dat0 (Vk1 m) c).arrAt w cfg0.N
theorem W2_arr (c : Dev nD) (w : Fin cfg0.W) :
    Wk2 m c (Proc.devRef .tc (Pipeline.arrRef spec0 w)) = (dat0 (Vk1 m) c).arrAt w cfg0.N := by
  unfold Wk2; exact Pipeline.withArrays_arr spec0 launch0.win.arr_inj c _ _ w
theorem W2_of_ne (c : Dev nD) (b : Ref sig .tc) (hb : ∀ w, Pipeline.arrRef spec0 w ≠ b) :
    Wk2 m c (Proc.devRef .tc b) = Wk1 m c (Proc.devRef .tc b) := by
  unfold Wk2; exact Pipeline.withArrays_of_ne spec0 c _ _ b hb
abbrev Vk2 : (c : Dev nD) → (b : Ref sig .tc) → Buf (Elt F) ((c : Thread nD τ).loc b) := fun c b => Wk2 m c b
theorem hF0 (c : Dev nD) (w : Fin cfg0.W) : (dat0 (Vk1 m) c).arrAt w cfg0.N = Vk2 m c (Pipeline.arrRef spec0 w) :=
  (W2_arr m c w).symm
theorem hrest0 (c : Dev nD) : ∀ b, b ∉ Finset.univ.image (Pipeline.arrRef spec0) → Vk2 m c b = Vk1 m c b :=
  fun b hb => W2_of_ne m c b fun w e => hb (Finset.mem_image.mpr ⟨w, Finset.mem_univ _, e⟩)

abbrev Wk3 : Dev nD → Valuation τ sig (Elt F) := fun c => StableHlo.after hostOps1 (Wk2 m c)
abbrev Vk3 : (c : Dev nD) → (b : Ref sig .tc) → Buf (Elt F) ((c : Thread nD τ).loc b) := fun c b => Wk3 m c b
def Wk4 (c : Dev nD) : Valuation τ sig (Elt F) :=
  Pipeline.withArrays spec1 c (Wk3 m c) fun w => (dat1 (Vk3 m) c).arrAt w cfg1.N
theorem W4_arr (c : Dev nD) (w : Fin cfg1.W) :
    Wk4 m c (Proc.devRef .tc (Pipeline.arrRef spec1 w)) = (dat1 (Vk3 m) c).arrAt w cfg1.N := by
  unfold Wk4; exact Pipeline.withArrays_arr spec1 launch1.win.arr_inj c _ _ w
theorem W4_of_ne (c : Dev nD) (b : Ref sig .tc) (hb : ∀ w, Pipeline.arrRef spec1 w ≠ b) :
    Wk4 m c (Proc.devRef .tc b) = Wk3 m c (Proc.devRef .tc b) := by
  unfold Wk4; exact Pipeline.withArrays_of_ne spec1 c _ _ b hb
abbrev Vk4 : (c : Dev nD) → (b : Ref sig .tc) → Buf (Elt F) ((c : Thread nD τ).loc b) := fun c b => Wk4 m c b
theorem hF1 (c : Dev nD) (w : Fin cfg1.W) : (dat1 (Vk3 m) c).arrAt w cfg1.N = Vk4 m c (Pipeline.arrRef spec1 w) :=
  (W4_arr m c w).symm
theorem hrest1 (c : Dev nD) : ∀ b, b ∉ Finset.univ.image (Pipeline.arrRef spec1) → Vk4 m c b = Vk3 m c b :=
  fun b hb => W4_of_ne m c b fun w e => hb (Finset.mem_image.mpr ⟨w, Finset.mem_univ _, e⟩)

/-- A host stretch leaves the buffers it does not write as they were. -/
theorem W1_of (c : Dev nD) (r : Ref sig .tc) (h : r ∉ hostOps0_W) : Wk1 m c r = Wk0 m c r :=
  StableHlo.after_of_writes_sub hostOps0 _ hostOps0_writes h
theorem W3_of (c : Dev nD) (r : Ref sig .tc) (h : r ∉ hostOps1_W) : Wk3 m c r = Wk2 m c r :=
  StableHlo.after_of_writes_sub hostOps1 _ hostOps1_writes h

/-! No stretch writes an argument and no region changes one: each argument ends as launched. -/
theorem W4_main_arg0 (c : Dev nD) : Wk4 m c (Proc.devRef .tc main_arg0) = m ((c : Thread nD τ).loc main_arg0) :=
  (W4_of_ne m c main_arg0 (by decide)).trans <| (W3_of m c main_arg0 (by decide)).trans <| ((W2_arr m c 0).trans (((dat0 (Vk1 m) c).arrAt_in 0 rfl _).trans (A_eq0 (Vk1 m) c 0))).trans <| (W1_of m c main_arg0 (by decide)).trans rfl
theorem W4_main_arg1 (c : Dev nD) : Wk4 m c (Proc.devRef .tc main_arg1) = m ((c : Thread nD τ).loc main_arg1) :=
  (W4_of_ne m c main_arg1 (by decide)).trans <| (W3_of m c main_arg1 (by decide)).trans <| (W2_of_ne m c main_arg1 (by decide)).trans <| (W1_of m c main_arg1 (by decide)).trans rfl
theorem W4_main_arg2 (c : Dev nD) : Wk4 m c (Proc.devRef .tc main_arg2) = m ((c : Thread nD τ).loc main_arg2) :=
  (W4_of_ne m c main_arg2 (by decide)).trans <| (W3_of m c main_arg2 (by decide)).trans <| (W2_of_ne m c main_arg2 (by decide)).trans <| (W1_of m c main_arg2 (by decide)).trans rfl
theorem W4_main_arg3 (c : Dev nD) : Wk4 m c (Proc.devRef .tc main_arg3) = m ((c : Thread nD τ).loc main_arg3) :=
  (W4_of_ne m c main_arg3 (by decide)).trans <| (W3_of m c main_arg3 (by decide)).trans <| ((W2_arr m c 2).trans (((dat0 (Vk1 m) c).arrAt_in 2 rfl _).trans (A_eq0 (Vk1 m) c 2))).trans <| (W1_of m c main_arg3 (by decide)).trans rfl
theorem W4_main_arg4 (c : Dev nD) : Wk4 m c (Proc.devRef .tc main_arg4) = m ((c : Thread nD τ).loc main_arg4) :=
  (W4_of_ne m c main_arg4 (by decide)).trans <| (W3_of m c main_arg4 (by decide)).trans <| (W2_of_ne m c main_arg4 (by decide)).trans <| (W1_of m c main_arg4 (by decide)).trans rfl
theorem W4_main_arg5 (c : Dev nD) : Wk4 m c (Proc.devRef .tc main_arg5) = m ((c : Thread nD τ).loc main_arg5) :=
  (W4_of_ne m c main_arg5 (by decide)).trans <| (W3_of m c main_arg5 (by decide)).trans <| ((W2_arr m c 4).trans (((dat0 (Vk1 m) c).arrAt_in 4 rfl _).trans (A_eq0 (Vk1 m) c 4))).trans <| (W1_of m c main_arg5 (by decide)).trans rfl
theorem W4_main_arg6 (c : Dev nD) : Wk4 m c (Proc.devRef .tc main_arg6) = m ((c : Thread nD τ).loc main_arg6) :=
  (W4_of_ne m c main_arg6 (by decide)).trans <| (W3_of m c main_arg6 (by decide)).trans <| (W2_of_ne m c main_arg6 (by decide)).trans <| (W1_of m c main_arg6 (by decide)).trans rfl
theorem W4_main_arg7 (c : Dev nD) : Wk4 m c (Proc.devRef .tc main_arg7) = m ((c : Thread nD τ).loc main_arg7) :=
  (W4_of_ne m c main_arg7 (by decide)).trans <| (W3_of m c main_arg7 (by decide)).trans <| (W2_of_ne m c main_arg7 (by decide)).trans <| (W1_of m c main_arg7 (by decide)).trans rfl
theorem W4_main_arg8 (c : Dev nD) : Wk4 m c (Proc.devRef .tc main_arg8) = m ((c : Thread nD τ).loc main_arg8) :=
  (W4_of_ne m c main_arg8 (by decide)).trans <| (W3_of m c main_arg8 (by decide)).trans <| (W2_of_ne m c main_arg8 (by decide)).trans <| (W1_of m c main_arg8 (by decide)).trans rfl
theorem W4_main_arg9 (c : Dev nD) : Wk4 m c (Proc.devRef .tc main_arg9) = m ((c : Thread nD τ).loc main_arg9) :=
  ((W4_arr m c 2).trans (((dat1 (Vk3 m) c).arrAt_in 2 rfl _).trans (A_eq1 (Vk3 m) c 2))).trans <| (W3_of m c main_arg9 (by decide)).trans <| (W2_of_ne m c main_arg9 (by decide)).trans <| (W1_of m c main_arg9 (by decide)).trans rfl
theorem W4_main_arg10 (c : Dev nD) : Wk4 m c (Proc.devRef .tc main_arg10) = m ((c : Thread nD τ).loc main_arg10) :=
  (W4_of_ne m c main_arg10 (by decide)).trans <| (W3_of m c main_arg10 (by decide)).trans <| (W2_of_ne m c main_arg10 (by decide)).trans <| (W1_of m c main_arg10 (by decide)).trans rfl
theorem W4_main_arg11 (c : Dev nD) : Wk4 m c (Proc.devRef .tc main_arg11) = m ((c : Thread nD τ).loc main_arg11) :=
  ((W4_arr m c 4).trans (((dat1 (Vk3 m) c).arrAt_in 4 rfl _).trans (A_eq1 (Vk3 m) c 4))).trans <| (W3_of m c main_arg11 (by decide)).trans <| (W2_of_ne m c main_arg11 (by decide)).trans <| (W1_of m c main_arg11 (by decide)).trans rfl

/-! ## The proof data family, the segments -/

def pdatsK : (p : Fin 2) → (c : Dev nD) → Dat τ (Elt F) Unit ℕ (UR sig nD τ) ℕ (Pipeline.pin (pcfgs (F := F)) adm p) c
  | ⟨0, _⟩ => fun c => dat0 (Vk1 m) c
  | ⟨1, _⟩ => fun c => dat1 (Vk3 m) c
abbrev Lk : GSem nD τ sig → Finset Unit := fun _ => ∅
abbrev lvk : GSem nD τ sig → Unit → ℕ := fun _ _ => 0
/-- What rides beside the buffers through every segment: the generator register at some state, nothing owed. -/
abbrev RestK (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RestK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnK (c : Dev nD) : sProp 𝕄 := iprop(StableHlo.held (c : Thread nD τ) (Pipeline.ucRefs τ sig) (Wk4 m c) ∗ ∃ r, prngReg c r)

set_option backward.isDefEq.respectTransparency.types false in
/-- Region 0 between two states of the thread: entered with every unscoped buffer of the core at the contents before it,
    left with them at the contents after it; its arrays are split out of those buffers and put back; the generator
    register and the other scoped buffers go into the invariant and come back; nothing is owed. -/
def reg0 : Pipeline.RegionSeg (pcfgs (F := F)) adm (pdatsK m) () defs₀ Variants.none Lk lvk 0 where
  win := launch0.win.to₀
  block_pos := launch0.block_pos
  stage_whole := launch0.stage_whole
  K := PEmpty
  osem k := k.elim
  ho := Pipeline.OwnSemFacts.none _
  hbody c := (body_obligation0 (Vk1 m) c).loose
  hwaits := Pipeline.hwaits_of_owed_zero _ _ _ _ Lk lvk 0 fun _ _ => rfl
  pre c := iprop(StableHlo.held (c : Thread nD τ) (Pipeline.ucRefs τ sig) (Wk1 m c) ∗ RestK c)
  post c := iprop(StableHlo.held (c : Thread nD τ) (Pipeline.ucRefs τ sig) (Wk2 m c) ∗ RestK c)
  X c := iprop(∃ r, prngReg c r)
  Y c := iprop(∃ r, prngReg c r)
  Z c := Pipeline.unscopedRest (Ix := Unit) (Name := ℕ) (U := UR sig nD τ) (Lvl := ℕ) spec0 c (Vk1 m c)
  hentry c := by
    rw [Pipeline.ownSems0_none]
    have hsplit := Pipeline.arrays_of_unscopedBufs (p := 0) (pcfgs (F := F)) adm (pdatsK m) launch0.win launch0.arr_whole c
      ((pdatsK m 0 c).share_full fun _ => rfl) (Vk1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdatsK m 0 c).Φ (Fin.last _) ⊢ Pipeline.ΦA spec0 c from Phi_last0 (Vk1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsK m) ((pdatsK m 0 c).share_full fun _ => rfl)
      (Vk1 m c) (Vk2 m c) ((pdatsK m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between two states of the thread: entered with every unscoped buffer of the core at the contents before it,
    left with them at the contents after it; its arrays are split out of those buffers and put back; the generator
    register and the other scoped buffers go into the invariant and come back; nothing is owed. -/
def reg1 : Pipeline.RegionSeg (pcfgs (F := F)) adm (pdatsK m) () defs₀ Variants.none Lk lvk 1 where
  win := launch1.win.to₀
  block_pos := launch1.block_pos
  stage_whole := launch1.stage_whole
  K := PEmpty
  osem k := k.elim
  ho := Pipeline.OwnSemFacts.none _
  hbody c := (body_obligation1 (Vk3 m) c).loose
  hwaits := Pipeline.hwaits_of_owed_zero _ _ _ _ Lk lvk 1 fun _ _ => rfl
  pre c := iprop(StableHlo.held (c : Thread nD τ) (Pipeline.ucRefs τ sig) (Wk3 m c) ∗ RestK c)
  post c := iprop(StableHlo.held (c : Thread nD τ) (Pipeline.ucRefs τ sig) (Wk4 m c) ∗ RestK c)
  X c := iprop(∃ r, prngReg c r)
  Y c := iprop(∃ r, prngReg c r)
  Z c := Pipeline.unscopedRest (Ix := Unit) (Name := ℕ) (U := UR sig nD τ) (Lvl := ℕ) spec1 c (Vk3 m c)
  hentry c := by
    rw [Pipeline.ownSems0_none]
    have hsplit := Pipeline.arrays_of_unscopedBufs (p := 1) (pcfgs (F := F)) adm (pdatsK m) launch1.win launch1.arr_whole c
      ((pdatsK m 1 c).share_full fun _ => rfl) (Vk3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdatsK m 1 c).Φ (Fin.last _) ⊢ Pipeline.ΦA spec1 c from Phi_last1 (Vk3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsK m) ((pdatsK m 1 c).share_full fun _ => rfl)
      (Vk3 m c) (Vk4 m c) ((pdatsK m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsK : List (Pipeline.Seg (pcfgs (F := F)) adm (pdatsK m) () defs₀ Variants.none Lk lvk) :=
  [ .host (hsegK hostOps0 hostOps0_sub hostOps0_fresh (Wk0 m)),
    .region (reg0 m),
    .host (hsegK hostOps1 hostOps1_sub hostOps1_fresh (Wk2 m)),
    .region (reg1 m) ]
theorem main_runK (c : Dev nD) : main (F := F) c = Pipeline.Seg.run (segsK m) := (main_chain c).trans (by chain_rfl)

set_option backward.isDefEq.respectTransparency.types false in
/-- From any memory with zero counters every weakly fair execution of the program terminates, nothing faulting, and
    every core's unscoped buffers end at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wk4 m c b) :=
  Pipeline.θ_run_regions_kit (pcfgs (F := F)) adm (pdatsK m) () cellOf_inj emb₁ defs₀ Variants.none Lk lvk m ρ main (segsK m)
    (fun c Q => by rw [main_runK m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m c) ∗ RestK c)) (Tₙ := TnK m)
    (hch := ⟨fun _ => .rfl, fun _ => .rfl, fun _ => .rfl, fun _ => .rfl, fun c => by
      show iprop(StableHlo.held (c : Thread nD τ) (Pipeline.ucRefs τ sig) (Wk4 m c) ∗ RestK c) ⊢ iprop(TnK m c ∗ ∃ W, owes (c : Thread nD τ) (0 : CellTallies nD τ sig Unit) W)
      iintro ⟨Hh, Hr, Ho⟩
      isplitl [Hh Hr]
      · isplitl [Hh]; · iexact Hh
        iexact Hr
      iexact Ho⟩)
    (hinit := by
      refine Pipeline.initEach Lk lvk fun c => ?_
      rw [show unscopedBufs c (fun b => m ((c : Thread nD τ).loc b)) = StableHlo.held (c : Thread nD τ) (Pipeline.ucRefs τ sig) (Wk0 m c)
        from Pipeline.unscopedBufs_held c (Wk0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk4 m c b)
    (hfin := fun c s' => by
      iintro ⟨⟨Hh, -⟩, HSI⟩
      unfold StableHlo.held
      imodintro
      iapply (pointsTo_read_all (Pipeline.ucRefs τ sig) (fun b => (((c : Thread nD τ)).1, b)) (Wk4 m c) s')
      isplitl [Hh] <;> iassumption)
    (hQ := fun s h => h)

/-- The frame: every argument array ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c)⟩) (run_all m ρ)

/-! The three results at the end: the decoder's array as its region left it, the rotated array as the rotation made it
    from the encoder's array, the encoder's array as its region left it. -/
theorem W4_main_v34 (c : Dev nD) : Wk4 m c (Proc.devRef .tc main_v34) = (dat1 (Vk3 m) c).arrAt 5 cfg1.N := W4_arr m c 5
theorem W4_main_v33 (c : Dev nD) : Wk4 m c (Proc.devRef .tc main_v33) = Wk3 m c (Proc.devRef .tc main_v33) :=
  (W4_arr m c 0).trans (((dat1 (Vk3 m) c).arrAt_in 0 rfl _).trans (A_eq1 (Vk3 m) c 0))
theorem W4_main_v4 (c : Dev nD) : Wk4 m c (Proc.devRef .tc main_v4) = (dat0 (Vk1 m) c).arrAt 5 cfg0.N :=
  (W4_of_ne m c main_v4 (by decide)).trans <| (W3_of m c main_v4 (by decide)).trans (W2_arr m c 5)

end Cert.KernelIdeal.Mlp

end
-- ==== Proof.Rotate.lean ====
/-
  The rotation between the two networks, as one function of the encoder's array and of the three small arguments.

  For sample b and frequency index f, with a = amp f ^ dt b and θ = freq f · dt b, the pair (e (b, 2f), e (b, 2f+1)) is
  sent to (a cos θ · ev − a sin θ · od, a sin θ · ev + a cos θ · od). Both programs spell it with the same host
  operations in the same order, so it is carried as ONE function and never opened: equal inputs give equal outputs.
  The side conditions of its shape changes are arguments, so that either program's own proofs of them may be given.
-/
import Idealize.ShloMosaic.PureOps.Ideal
import Idealize.ShloMosaic.PureOps.Vector
import Idealize.ShloMosaic.Lib.ValueIdx

noncomputable section

namespace Rotate

open Idealize.ShloMosaic

/-- The rotated array. -/
def rot (f1 : (⟨1, ![1024]⟩ : Shape).BroadcastsInDim (⟨2, ![1, 1024]⟩ : Shape) (![1] : Fin 1 → Fin 2)) (f2 : (⟨1, ![8192]⟩ : Shape).BroadcastsInDim (⟨2, ![8192, 1]⟩ : Shape) (![0] : Fin 1 → Fin 2))
    (f3 : (⟨2, ![1, 1024]⟩ : Shape).BroadcastsInDim (⟨2, ![8192, 1024]⟩ : Shape) (![0, 1] : Fin 2 → Fin 2)) (f4 : (⟨2, ![8192, 1]⟩ : Shape).BroadcastsInDim (⟨2, ![8192, 1024]⟩ : Shape) (![0, 1] : Fin 2 → Fin 2))
    (f5 : (⟨2, ![8192, 2048]⟩ : Shape).ShapeCasts (⟨3, ![8192, 1024, 2]⟩ : Shape)) (f6 : (⟨3, ![8192, 1024, 2]⟩ : Shape).Slices ![0, 0, 0] (⟨3, ![8192, 1024, 1]⟩ : Shape)) (f7 : (⟨3, ![8192, 1024, 1]⟩ : Shape).ShapeCasts (⟨2, ![8192, 1024]⟩ : Shape))
    (f8 : (⟨3, ![8192, 1024, 2]⟩ : Shape).Slices ![0, 0, 1] (⟨3, ![8192, 1024, 1]⟩ : Shape)) (f9 : (⟨2, ![8192, 1024]⟩ : Shape).BroadcastsInDim (⟨3, ![8192, 1024, 1]⟩ : Shape) (![0, 1] : Fin 2 → Fin 3))
    (f10 : Shape.Concatenates [(⟨3, ![8192, 1024, 1]⟩ : Shape), (⟨3, ![8192, 1024, 1]⟩ : Shape)] (⟨3, ![8192, 1024, 2]⟩ : Shape) 2) (f11 : (⟨3, ![8192, 1024, 2]⟩ : Shape).ShapeCasts (⟨2, ![8192, 2048]⟩ : Shape))
    (e : (⟨2, ![8192, 2048]⟩ : Shape).Idx → EReal) (dt : (⟨1, ![8192]⟩ : Shape).Idx → EReal) (amp fr : (⟨1, ![1024]⟩ : Shape).Idx → EReal) : (⟨2, ![8192, 2048]⟩ : Shape).Idx → EReal :=
  shapeCast (⟨2, ![8192, 2048]⟩ : Shape) (concatenate (⟨3, ![8192, 1024, 2]⟩ : Shape) 2
    [⟨(⟨3, ![8192, 1024, 1]⟩ : Shape), (broadcastInDim (⟨3, ![8192, 1024, 1]⟩ : Shape) ![0, 1] f9 (subf (F := Ideal) (φ := .f32)
        (mulf (F := Ideal) (φ := .f32) (mulf (F := Ideal) (φ := .f32) (Host.powf (F := Ideal) (φ := .f32) (broadcastInDim (⟨2, ![8192, 1024]⟩ : Shape) ![0, 1] f3 (broadcastInDim (⟨2, ![1, 1024]⟩ : Shape) ![1] f1 amp)) (broadcastInDim (⟨2, ![8192, 1024]⟩ : Shape) ![0, 1] f4 (broadcastInDim (⟨2, ![8192, 1]⟩ : Shape) ![0] f2 dt)))
          (Host.cos (F := Ideal) (φ := .f32) (mulf (F := Ideal) (φ := .f32) (broadcastInDim (⟨2, ![8192, 1024]⟩ : Shape) ![0, 1] f3 (broadcastInDim (⟨2, ![1, 1024]⟩ : Shape) ![1] f1 fr)) (broadcastInDim (⟨2, ![8192, 1024]⟩ : Shape) ![0, 1] f4 (broadcastInDim (⟨2, ![8192, 1]⟩ : Shape) ![0] f2 dt)))))
          (shapeCast (⟨2, ![8192, 1024]⟩ : Shape) (extractStridedSlice (⟨3, ![8192, 1024, 1]⟩ : Shape) ![0, 0, 0] (shapeCast (⟨3, ![8192, 1024, 2]⟩ : Shape) e f5) f6) f7))
        (mulf (F := Ideal) (φ := .f32) (mulf (F := Ideal) (φ := .f32) (Host.powf (F := Ideal) (φ := .f32) (broadcastInDim (⟨2, ![8192, 1024]⟩ : Shape) ![0, 1] f3 (broadcastInDim (⟨2, ![1, 1024]⟩ : Shape) ![1] f1 amp)) (broadcastInDim (⟨2, ![8192, 1024]⟩ : Shape) ![0, 1] f4 (broadcastInDim (⟨2, ![8192, 1]⟩ : Shape) ![0] f2 dt)))
          (Host.sin (F := Ideal) (φ := .f32) (mulf (F := Ideal) (φ := .f32) (broadcastInDim (⟨2, ![8192, 1024]⟩ : Shape) ![0, 1] f3 (broadcastInDim (⟨2, ![1, 1024]⟩ : Shape) ![1] f1 fr)) (broadcastInDim (⟨2, ![8192, 1024]⟩ : Shape) ![0, 1] f4 (broadcastInDim (⟨2, ![8192, 1]⟩ : Shape) ![0] f2 dt)))))
          (shapeCast (⟨2, ![8192, 1024]⟩ : Shape) (extractStridedSlice (⟨3, ![8192, 1024, 1]⟩ : Shape) ![0, 0, 1] (shapeCast (⟨3, ![8192, 1024, 2]⟩ : Shape) e f5) f8) f7))))⟩,
     ⟨(⟨3, ![8192, 1024, 1]⟩ : Shape), (broadcastInDim (⟨3, ![8192, 1024, 1]⟩ : Shape) ![0, 1] f9 (addf (F := Ideal) (φ := .f32)
        (mulf (F := Ideal) (φ := .f32) (mulf (F := Ideal) (φ := .f32) (Host.powf (F := Ideal) (φ := .f32) (broadcastInDim (⟨2, ![8192, 1024]⟩ : Shape) ![0, 1] f3 (broadcastInDim (⟨2, ![1, 1024]⟩ : Shape) ![1] f1 amp)) (broadcastInDim (⟨2, ![8192, 1024]⟩ : Shape) ![0, 1] f4 (broadcastInDim (⟨2, ![8192, 1]⟩ : Shape) ![0] f2 dt)))
          (Host.sin (F := Ideal) (φ := .f32) (mulf (F := Ideal) (φ := .f32) (broadcastInDim (⟨2, ![8192, 1024]⟩ : Shape) ![0, 1] f3 (broadcastInDim (⟨2, ![1, 1024]⟩ : Shape) ![1] f1 fr)) (broadcastInDim (⟨2, ![8192, 1024]⟩ : Shape) ![0, 1] f4 (broadcastInDim (⟨2, ![8192, 1]⟩ : Shape) ![0] f2 dt)))))
          (shapeCast (⟨2, ![8192, 1024]⟩ : Shape) (extractStridedSlice (⟨3, ![8192, 1024, 1]⟩ : Shape) ![0, 0, 0] (shapeCast (⟨3, ![8192, 1024, 2]⟩ : Shape) e f5) f6) f7))
        (mulf (F := Ideal) (φ := .f32) (mulf (F := Ideal) (φ := .f32) (Host.powf (F := Ideal) (φ := .f32) (broadcastInDim (⟨2, ![8192, 1024]⟩ : Shape) ![0, 1] f3 (broadcastInDim (⟨2, ![1, 1024]⟩ : Shape) ![1] f1 amp)) (broadcastInDim (⟨2, ![8192, 1024]⟩ : Shape) ![0, 1] f4 (broadcastInDim (⟨2, ![8192, 1]⟩ : Shape) ![0] f2 dt)))
          (Host.cos (F := Ideal) (φ := .f32) (mulf (F := Ideal) (φ := .f32) (broadcastInDim (⟨2, ![8192, 1024]⟩ : Shape) ![0, 1] f3 (broadcastInDim (⟨2, ![1, 1024]⟩ : Shape) ![1] f1 fr)) (broadcastInDim (⟨2, ![8192, 1024]⟩ : Shape) ![0, 1] f4 (broadcastInDim (⟨2, ![8192, 1]⟩ : Shape) ![0] f2 dt)))))
          (shapeCast (⟨2, ![8192, 1024]⟩ : Shape) (extractStridedSlice (⟨3, ![8192, 1024, 1]⟩ : Shape) ![0, 0, 1] (shapeCast (⟨3, ![8192, 1024, 2]⟩ : Shape) e f5) f8) f7))))⟩] f10) f11

end Rotate

end
-- ==== Proof.KiHost.lean ====
import proofs.«100102_j54099408060868_1_alg».proof.Proof.KiRun
import proofs.«100102_j54099408060868_1_alg».proof.Proof.Rotate
import Idealize.ShloMosaic.Lib.StableHlo.Run

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Rotate Idealize.ShloMosaic.StableHlo

variable (m : (ℓ : Loc nD τ sig) → Buf (Elt Ideal) ℓ)

/-! # What the two host stretches compute, over the extended reals

The first stretch rounds the four weight arrays; over the extended reals a rounding is the identity, so each rounded
array is its argument. The second stretch is the rotation of the encoder's array. -/

theorem rd_v0 (c : Dev nD) : (Wk1 m c (Proc.devRef .tc main_v0) : S4096x4096.Idx → EReal) = m ((c : Thread nD τ).loc main_arg2) := by
  show StableHlo.after hostOps0 (Wk0 m c) (Proc.devRef .tc main_v0) = _
  after_results
  rfl
theorem rd_v1 (c : Dev nD) : (Wk1 m c (Proc.devRef .tc main_v1) : S4096x2048.Idx → EReal) = m ((c : Thread nD τ).loc main_arg4) := by
  show StableHlo.after hostOps0 (Wk0 m c) (Proc.devRef .tc main_v1) = _
  after_results
  rfl
theorem rd_v2 (c : Dev nD) : (Wk1 m c (Proc.devRef .tc main_v2) : S2048x4096.Idx → EReal) = m ((c : Thread nD τ).loc main_arg8) := by
  show StableHlo.after hostOps0 (Wk0 m c) (Proc.devRef .tc main_v2) = _
  after_results
  rfl
theorem rd_v3 (c : Dev nD) : (Wk1 m c (Proc.devRef .tc main_v3) : S4096x4096.Idx → EReal) = m ((c : Thread nD τ).loc main_arg10) := by
  show StableHlo.after hostOps0 (Wk0 m c) (Proc.devRef .tc main_v3) = _
  after_results
  rfl

/-- The rotation with this program's side conditions. -/
abbrev rotK (e : S8192x2048.Idx → EReal) (dt : S8192.Idx → EReal) (amp fr : S1024.Idx → EReal) : S8192x2048.Idx → EReal :=
  rot bcast_S1024_S1x1024_1 bcast_S8192_S8192x1_0 bcast_S1x1024_S8192x1024_0_1 bcast_S8192x1_S8192x1024_0_1 shapeCasts_S8192x2048_S8192x1024x2 slices_S8192x1024x2_S8192x1024x1_0_0_0 shapeCasts_S8192x1024x1_S8192x1024 slices_S8192x1024x2_S8192x1024x1_0_0_1 bcast_S8192x1024_S8192x1024x1_0_1 concatenates_S8192x1024x1_S8192x1024x1_S8192x1024x2_d2 shapeCasts_S8192x1024x2_S8192x2048 e dt amp fr

set_option maxRecDepth 8192 in
set_option maxHeartbeats 4000000 in
theorem rd_v33 (c : Dev nD) : (Wk3 m c (Proc.devRef .tc main_v33) : S8192x2048.Idx → EReal)
    = rotK (Wk2 m c (Proc.devRef .tc main_v4)) (Wk2 m c (Proc.devRef .tc main_arg1)) (Wk2 m c (Proc.devRef .tc main_arg6)) (Wk2 m c (Proc.devRef .tc main_arg7)) := by
  show StableHlo.after hostOps1 (Wk2 m c) (Proc.devRef .tc main_v33) = _
  after_results_simp <;> rfl

end Cert.KernelIdeal.Mlp

end
-- ==== Proof.KiFinal.lean ====
import proofs.«100102_j54099408060868_1_alg».proof.Proof.KiValue0
import proofs.«100102_j54099408060868_1_alg».proof.Proof.KiValue1
import proofs.«100102_j54099408060868_1_alg».proof.Proof.KiHost

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Rotate Idealize.ShloMosaic.ValueIdx MlpSpec

variable (m : (ℓ : Loc nD τ sig) → Buf (Elt Ideal) ℓ) (ρ : Dev nD → PrngReg)

/-! # The three results of the kernel's program, as functions of its arguments

The encoder's array is the two-layer network of x with the encoder's weights; the rotated array is the rotation of
it; the decoder's array is the two-layer network of the rotated array with the decoder's weights. -/

def encK (c : Dev nD) : S8192x2048.Idx → EReal :=
  mlp2 (P := 8192) (K := 4096) (Q := 4096) (R := 2048) (m ((c : Thread nD τ).loc main_arg0)) (m ((c : Thread nD τ).loc main_arg2)) (fun h => ((m ((c : Thread nD τ).loc main_arg3)) : S4096.Idx → EReal) (ix1 h)) (m ((c : Thread nD τ).loc main_arg4)) (fun q => ((m ((c : Thread nD τ).loc main_arg5)) : S2048.Idx → EReal) (ix1 q))
def predK (c : Dev nD) : S8192x2048.Idx → EReal := rotK (encK m c) (m ((c : Thread nD τ).loc main_arg1)) (m ((c : Thread nD τ).loc main_arg6)) (m ((c : Thread nD τ).loc main_arg7))
def fullK (c : Dev nD) : S8192x4096.Idx → EReal :=
  mlp2 (P := 8192) (K := 2048) (Q := 4096) (R := 4096) (predK m c) (m ((c : Thread nD τ).loc main_arg8)) (fun h => ((m ((c : Thread nD τ).loc main_arg9)) : S4096.Idx → EReal) (ix1 h)) (m ((c : Thread nD τ).loc main_arg10)) (fun q => ((m ((c : Thread nD τ).loc main_arg11)) : S4096.Idx → EReal) (ix1 q))

/-- The encoder region is entered with x, the rounded weights and the biases, each its argument over the extended reals. -/
theorem G0_eq (c : Dev nD) : G0 (Vk1 m) c = encK m c := by
  have e0 : aX0 (Vk1 m) c = (m ((c : Thread nD τ).loc main_arg0)) := W1_of m c main_arg0 (by decide)
  have e1 : aW0 (Vk1 m) c = (m ((c : Thread nD τ).loc main_arg2)) := rd_v0 m c
  have e2 : ab0 (Vk1 m) c = fun h => ((m ((c : Thread nD τ).loc main_arg3)) : S4096.Idx → EReal) (ix1 h) := funext fun h => congrFun (W1_of m c main_arg3 (by decide)) (ix1 h)
  have e3 : aW'0 (Vk1 m) c = (m ((c : Thread nD τ).loc main_arg4)) := rd_v1 m c
  have e4 : ab'0 (Vk1 m) c = fun q => ((m ((c : Thread nD τ).loc main_arg5)) : S2048.Idx → EReal) (ix1 q) := funext fun q => congrFun (W1_of m c main_arg5 (by decide)) (ix1 q)
  unfold G0 encK
  rw [e0, e1, e2, e3, e4]

theorem v4_eq (c : Dev nD) : (Wk2 m c (Proc.devRef .tc main_v4) : S8192x2048.Idx → EReal) = encK m c :=
  (W2_arr m c 5).trans ((final0 (Vk1 m) c).trans (G0_eq m c))

/-- An argument no stretch writes and the encoder region does not change is still itself before the rotation. -/
theorem W2_arg (c : Dev nD) (r : Ref sig .tc) (h2 : ∀ w, Pipeline.arrRef spec0 w ≠ r) (h1 : r ∉ hostOps0_W) :
    Wk2 m c (Proc.devRef .tc r) = m ((c : Thread nD τ).loc r) :=
  (W2_of_ne m c r h2).trans (W1_of m c r h1)

theorem v33_eq (c : Dev nD) : (Wk3 m c (Proc.devRef .tc main_v33) : S8192x2048.Idx → EReal) = predK m c := by
  rw [rd_v33 m c, v4_eq m c, W2_arg m c main_arg1 (by decide) (by decide), W2_arg m c main_arg6 (by decide) (by decide), W2_arg m c main_arg7 (by decide) (by decide)]
  rfl

theorem G1_eq (c : Dev nD) : G1 (Vk3 m) c = fullK m c := by
  have e0 : aX1 (Vk3 m) c = predK m c := v33_eq m c
  have e1 : aW1 (Vk3 m) c = (m ((c : Thread nD τ).loc main_arg8)) := (W3_of m c main_v2 (by decide)).trans ((W2_of_ne m c main_v2 (by decide)).trans (rd_v2 m c))
  have e2 : ab1 (Vk3 m) c = fun h => ((m ((c : Thread nD τ).loc main_arg9)) : S4096.Idx → EReal) (ix1 h) :=
    funext fun h => congrFun ((W3_of m c main_arg9 (by decide)).trans (W2_arg m c main_arg9 (by decide) (by decide))) (ix1 h)
  have e3 : aW'1 (Vk3 m) c = (m ((c : Thread nD τ).loc main_arg10)) := (W3_of m c main_v3 (by decide)).trans ((W2_of_ne m c main_v3 (by decide)).trans (rd_v3 m c))
  have e4 : ab'1 (Vk3 m) c = fun q => ((m ((c : Thread nD τ).loc main_arg11)) : S4096.Idx → EReal) (ix1 q) :=
    funext fun q => congrFun ((W3_of m c main_arg11 (by decide)).trans (W2_arg m c main_arg11 (by decide) (by decide))) (ix1 q)
  unfold G1 fullK
  rw [e0, e1, e2, e3, e4]

/-- The run, read: the three results at their functions of the arguments, the arguments unchanged. -/
theorem run_values : θ_run defs (onTc (τ := τ) (main (F := Ideal))) ⟨m, fun _ => 0, ρ⟩ (fun r => ∀ c : Dev nD,
      r.2.mem ((c.tc : Thread nD τ).loc main_v34) = fullK m c
      ∧ r.2.mem ((c.tc : Thread nD τ).loc main_v33) = predK m c
      ∧ r.2.mem ((c.tc : Thread nD τ).loc main_v4) = encK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
    (h c _ (mem_uc main_v34 (by decide))).trans ((W4_main_v34 m c).trans ((final1 (Vk3 m) c).trans (G1_eq m c))),
    (h c _ (mem_uc main_v33 (by decide))).trans ((W4_main_v33 m c).trans (v33_eq m c)),
    (h c _ (mem_uc main_v4 (by decide))).trans ((W4_main_v4 m c).trans ((final0 (Vk1 m) c).trans (G0_eq m c))),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c)⟩) (run_all m ρ)

end Cert.KernelIdeal.Mlp

end
-- ==== Proof.MlpHost.lean ====
/-
  The host's spelling of the two-layer network: two general dot products, each followed by its bias broadcast over the
  rows, with the hyperbolic tangent applied to the first layer's array, is the network.
-/
import proofs.«100102_j54099408060868_1_alg».proof.Proof.MlpSpec

noncomputable section

namespace MlpSpec

open Idealize.ShloMosaic Idealize.ShloMosaic.ValueIdx DenseLayer

variable {P K Q R : Nat}

/-- The host's hyperbolic tangent of an array is the tangent of every entry. -/
theorem host_tanh {s : Shape} (y : FVec Ideal s .f32) : Host.tanh (F := Ideal) y = tanhArr y := rfl

/-- The network as the host spells it. -/
def hostMlp2 (d1 : DotDims ⟨2, ![P, K]⟩ ⟨2, ![K, Q]⟩ ⟨2, ![P, Q]⟩) (d2 : DotDims ⟨2, ![P, Q]⟩ ⟨2, ![Q, R]⟩ ⟨2, ![P, R]⟩)
    (g1 : (⟨1, ![Q]⟩ : Shape).BroadcastsInDim ⟨2, ![1, Q]⟩ ![1]) (g2 : (⟨2, ![1, Q]⟩ : Shape).BroadcastsInDim ⟨2, ![P, Q]⟩ ![0, 1])
    (g1' : (⟨1, ![R]⟩ : Shape).BroadcastsInDim ⟨2, ![1, R]⟩ ![1]) (g2' : (⟨2, ![1, R]⟩ : Shape).BroadcastsInDim ⟨2, ![P, R]⟩ ![0, 1])
    (x : FVec Ideal ⟨2, ![P, K]⟩ .f32) (W : FVec Ideal ⟨2, ![K, Q]⟩ .f32) (b : FVec Ideal ⟨1, ![Q]⟩ .f32)
    (W' : FVec Ideal ⟨2, ![Q, R]⟩ .f32) (b' : FVec Ideal ⟨1, ![R]⟩ .f32) : FVec Ideal ⟨2, ![P, R]⟩ .f32 :=
  addf (Host.dotGeneral d2 none (Host.tanh (addf (Host.dotGeneral d1 none x W)
      (broadcastInDim ⟨2, ![P, Q]⟩ ![0, 1] g2 (broadcastInDim ⟨2, ![1, Q]⟩ ![1] g1 b)))) W')
    (broadcastInDim ⟨2, ![P, R]⟩ ![0, 1] g2' (broadcastInDim ⟨2, ![1, R]⟩ ![1] g1' b'))

theorem hostMlp2_eq (d1 : DotDims ⟨2, ![P, K]⟩ ⟨2, ![K, Q]⟩ ⟨2, ![P, Q]⟩) (h1 : PlainDot.IsPlain d1)
    (d2 : DotDims ⟨2, ![P, Q]⟩ ⟨2, ![Q, R]⟩ ⟨2, ![P, R]⟩) (h2 : PlainDot.IsPlain d2)
    (g1 : (⟨1, ![Q]⟩ : Shape).BroadcastsInDim ⟨2, ![1, Q]⟩ ![1]) (g2 : (⟨2, ![1, Q]⟩ : Shape).BroadcastsInDim ⟨2, ![P, Q]⟩ ![0, 1])
    (g1' : (⟨1, ![R]⟩ : Shape).BroadcastsInDim ⟨2, ![1, R]⟩ ![1]) (g2' : (⟨2, ![1, R]⟩ : Shape).BroadcastsInDim ⟨2, ![P, R]⟩ ![0, 1])
    (x : FVec Ideal ⟨2, ![P, K]⟩ .f32) (W : FVec Ideal ⟨2, ![K, Q]⟩ .f32) (b : FVec Ideal ⟨1, ![Q]⟩ .f32)
    (W' : FVec Ideal ⟨2, ![Q, R]⟩ .f32) (b' : FVec Ideal ⟨1, ![R]⟩ .f32) :
    hostMlp2 d1 d2 g1 g2 g1' g2' x W b W' b' = mlp2 x W (fun q => b (ix1 q)) W' (fun q => b' (ix1 q)) := by
  unfold hostMlp2 mlp2
  rw [host_dense h1 x W b g1 g2, host_tanh]
  exact host_dense h2 _ W' b' g1' g2'

end MlpSpec

end
-- ==== Proof.RefValue.lean ====
/-
  The reference's three results as the network, the rotation of it, and the network of that.
-/
import proofs.«100102_j54099408060868_1_alg».proof.Proof.Gen.ReferenceIdeal.Read
import proofs.«100102_j54099408060868_1_alg».proof.Proof.MlpHost
import proofs.«100102_j54099408060868_1_alg».proof.Proof.Rotate

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx MlpSpec Rotate

theorem plainA : PlainDot.IsPlain dot_S8192x4096_S4096x4096_S8192x4096_1_0_0_1_n_n := ⟨rfl, rfl, rfl, rfl, rfl, rfl⟩
theorem plainB : PlainDot.IsPlain dot_S8192x4096_S4096x2048_S8192x2048_1_0_0_1_n_n := ⟨rfl, rfl, rfl, rfl, rfl, rfl⟩
theorem plainC : PlainDot.IsPlain dot_S8192x2048_S2048x4096_S8192x4096_1_0_0_1_n_n := ⟨rfl, rfl, rfl, rfl, rfl, rfl⟩

/-- The encoder as the reference spells it. -/
abbrev encR (x0 : S8192x4096.Idx → EReal) (x2 : S4096x4096.Idx → EReal) (x3 : S4096.Idx → EReal) (x4 : S4096x2048.Idx → EReal) (x5 : S2048.Idx → EReal) : S8192x2048.Idx → EReal :=
  hostMlp2 dot_S8192x4096_S4096x4096_S8192x4096_1_0_0_1_n_n dot_S8192x4096_S4096x2048_S8192x2048_1_0_0_1_n_n bcast_S4096_S1x4096_1 bcast_S1x4096_S8192x4096_0_1 bcast_S2048_S1x2048_1 bcast_S1x2048_S8192x2048_0_1 x0 x2 x3 x4 x5
/-- The rotation with the reference's side conditions. -/
abbrev rotR (e : S8192x2048.Idx → EReal) (dt : S8192.Idx → EReal) (amp fr : S1024.Idx → EReal) : S8192x2048.Idx → EReal :=
  rot bcast_S1024_S1x1024_1 bcast_S8192_S8192x1_0 bcast_S1x1024_S8192x1024_0_1 bcast_S8192x1_S8192x1024_0_1 shapeCasts_S8192x2048_S8192x1024x2 slices_S8192x1024x2_S8192x1024x1_0_0_0 shapeCasts_S8192x1024x1_S8192x1024 slices_S8192x1024x2_S8192x1024x1_0_0_1 bcast_S8192x1024_S8192x1024x1_0_1 concatenates_S8192x1024x1_S8192x1024x1_S8192x1024x2_d2 shapeCasts_S8192x1024x2_S8192x2048 e dt amp fr
/-- The decoder as the reference spells it. -/
abbrev decR (p : S8192x2048.Idx → EReal) (x8 : S2048x4096.Idx → EReal) (x9 : S4096.Idx → EReal) (x10 : S4096x4096.Idx → EReal) (x11 : S4096.Idx → EReal) : S8192x4096.Idx → EReal :=
  hostMlp2 dot_S8192x2048_S2048x4096_S8192x4096_1_0_0_1_n_n dot_S8192x4096_S4096x4096_S8192x4096_1_0_0_1_n_n bcast_S4096_S1x4096_1 bcast_S1x4096_S8192x4096_0_1 bcast_S4096_S1x4096_1 bcast_S1x4096_S8192x4096_0_1 p x8 x9 x10 x11

variable (m : (ℓ : Loc nD τ sig) → Buf (Elt Ideal) ℓ) (c : Dev nD)

theorem v8_eq (x0 : (⟨S8192x4096, .f32⟩ : BufTy).Contents (Elt Ideal)) (x2 : (⟨S4096x4096, .f32⟩ : BufTy).Contents (Elt Ideal)) (x3 : (⟨S4096, .f32⟩ : BufTy).Contents (Elt Ideal)) (x4 : (⟨S4096x2048, .f32⟩ : BufTy).Contents (Elt Ideal)) (x5 : (⟨S2048, .f32⟩ : BufTy).Contents (Elt Ideal)) :
    Cert.ReferenceIdeal.Read.val_main_v8 (F := Ideal) x0 x2 x3 x4 x5 = encR x0 x2 x3 x4 x5 := rfl

set_option maxRecDepth 8192 in
theorem v37_eq : res_main_v37 m c = rotR (encR (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) := by
  unfold res_main_v37; rfl

set_option maxRecDepth 8192 in
theorem v46_eq : res_main_v46 m c = decR (rotR (encR (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11)) := by
  unfold res_main_v46; rfl

/-- The encoder is the network. -/
theorem encR_eq (x0 : S8192x4096.Idx → EReal) (x2 : S4096x4096.Idx → EReal) (x3 : S4096.Idx → EReal) (x4 : S4096x2048.Idx → EReal) (x5 : S2048.Idx → EReal) :
    encR x0 x2 x3 x4 x5 = mlp2 (P := 8192) (K := 4096) (Q := 4096) (R := 2048) x0 x2 (fun h => x3 (ix1 h)) x4 (fun q => x5 (ix1 q)) :=
  hostMlp2_eq _ plainA _ plainB _ _ _ _ x0 x2 x3 x4 x5
/-- The decoder is the network. -/
theorem decR_eq (p : S8192x2048.Idx → EReal) (x8 : S2048x4096.Idx → EReal) (x9 : S4096.Idx → EReal) (x10 : S4096x4096.Idx → EReal) (x11 : S4096.Idx → EReal) :
    decR p x8 x9 x10 x11 = mlp2 (P := 8192) (K := 2048) (Q := 4096) (R := 4096) p x8 (fun h => x9 (ix1 h)) x10 (fun q => x11 (ix1 q)) :=
  hostMlp2_eq _ plainC _ plainA _ _ _ _ p x8 x9 x10 x11

end Cert.ReferenceIdeal.RefValue

end
-- ==== Proof.Bridge.lean ====
/-
  The two programs compute the same three arrays.

  Over the extended reals the kernel's encoder region leaves the two-layer network of x (its contracted sum taken block
  by block, which is the same sum), the host operations between the regions are the rotation, and the decoder region
  leaves the two-layer network of the rotated array. The reference spells the same three arrays with general dot
  products. From memories that agree on the arguments the results are therefore equal, entry by entry.
-/
import proofs.«100102_j54099408060868_1_alg».proof.Defs
import proofs.«100102_j54099408060868_1_alg».proof.Proof.KiFinal
import proofs.«100102_j54099408060868_1_alg».proof.Proof.RefValue

noncomputable section

namespace Cert.Proof.Bridge

open Idealize.ShloMosaic Idealize.ShloMosaic.TcCoe Idealize.SL.Sem Idealize.ShloMosaic.ValueIdx
open Cert.KernelIdeal.Mlp Cert.ReferenceIdeal.RefValue MlpSpec Rotate

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories agree on the twelve arguments. -/
def Agree : Prop :=
  (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
  ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
  ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
  ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
  ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
  ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
  ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
  ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
  ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
  ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
  ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
  ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))

theorem enc_agree (h : Agree m m' c) :
    encR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = encK m c := by
  obtain ⟨h0, h1, h2, h3, h4, h5, h6, h7, h8, h9, h10, h11⟩ := h
  rw [encR_eq, h0, h2, h3, h4, h5]
  rfl

theorem pred_agree (h : Agree m m' c) :
    rotR (encR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = predK m c := by
  rw [enc_agree m m' c h]
  obtain ⟨h0, h1, h2, h3, h4, h5, h6, h7, h8, h9, h10, h11⟩ := h
  rw [h1, h6, h7]
  rfl

theorem full_agree (h : Agree m m' c) :
    decR (rotR (encR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = fullK m c := by
  rw [pred_agree m m' c h]
  obtain ⟨h0, h1, h2, h3, h4, h5, h6, h7, h8, h9, h10, h11⟩ := h
  rw [decR_eq, h8, h9, h10, h11]
  rfl

end Cert.Proof.Bridge

end
-- ==== Proof.lean ====
/-
  The certificate's five claims.

  The frames of the two kernel programs come from running each as two host stretches and two pipelined regions: in a
  region every window's block is fetched, the body runs, and the result block is written back after the last step of its
  row block; an accumulator is carried from step to step. No stretch writes an argument and no region changes one. The
  reference's frame is its run with the results dropped. Nothing was rewritten between the kernel and its idealization.
  The value claim: both idealized programs end with the two-layer network of x, its rotation, and the two-layer network
  of the rotation (Proof/Bridge.lean).
-/
import proofs.«100102_j54099408060868_1_alg».proof.Defs
import proofs.«100102_j54099408060868_1_alg».proof.Proof.Gen.Kernel
import proofs.«100102_j54099408060868_1_alg».proof.Proof.Gen.KernelIdeal
import proofs.«100102_j54099408060868_1_alg».proof.Proof.Gen.ReferenceIdeal
import proofs.«100102_j54099408060868_1_alg».proof.Proof.Gen.Pre_finite_inputs
import proofs.«100102_j54099408060868_1_alg».proof.Proof.KbRun
import proofs.«100102_j54099408060868_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Mlp.frame_all m ρ
theorem frame_ki : Cert.frame_KernelIdeal := fun m ρ _ => Cert.KernelIdeal.Mlp.frame_all m ρ
theorem frame_ri : Cert.frame_ReferenceIdeal := fun m ρ _ =>
  (θ_run Cert.ReferenceIdeal.defs _ _).mono (fun _ h c => (h c).2.2.2) (Cert.ReferenceIdeal.Value.run (F := Ideal) m ρ)

theorem algebraic : Cert.algebraic_KernelIdeal_ReferenceIdeal := by
  intro m ρ m' ρ' _ hagree
  refine ⟨fun c => Cert.KernelIdeal.Mlp.fullK m c, fun c => Cert.KernelIdeal.Mlp.predK m c, fun c => Cert.KernelIdeal.Mlp.encK m c,
    Cert.KernelIdeal.Mlp.run_values m ρ, ?_⟩
  refine (θ_run Cert.ReferenceIdeal.defs _ _).mono (fun _ h c => ?_) (Cert.ReferenceIdeal.Value.run (F := Ideal) m' ρ')
  have hag : Cert.Proof.Bridge.Agree m m' c := hagree c
  exact ⟨(h c).1.trans ((Cert.ReferenceIdeal.RefValue.v46_eq m' c).trans (Cert.Proof.Bridge.full_agree m m' c hag)),
    (h c).2.1.trans ((Cert.ReferenceIdeal.RefValue.v37_eq m' c).trans (Cert.Proof.Bridge.pred_agree m m' c hag)),
    (h c).2.2.1.trans ((Cert.ReferenceIdeal.Read.val_main_v8_eq _ _ _ _ _).trans ((Cert.ReferenceIdeal.RefValue.v8_eq _ _ _ _ _).trans (Cert.Proof.Bridge.enc_agree m m' c hag))),
    (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
